-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x512 .f32) (main_arg1 : FVec F S8192x512 .f32) (main_arg2 : FVec F S8192x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S8192x512 : Shape := ⟨2, ![8192, 512]⟩
abbrev S512x512 : Shape := ⟨2, ![512, 512]⟩
abbrev S512 : Shape := ⟨1, ![512]⟩
abbrev S1024x512 : Shape := ⟨2, ![1024, 512]⟩
abbrev S1x512 : Shape := ⟨2, ![1, 512]⟩
abbrev S8192x8192 : Shape := ⟨2, ![8192, 8192]⟩
abbrev S256x512 : Shape := ⟨2, ![256, 512]⟩
abbrev S256x8192 : Shape := ⟨2, ![256, 8192]⟩
abbrev S256x1 : Shape := ⟨2, ![256, 1]⟩
abbrev S256x1024 : Shape := ⟨2, ![256, 1024]⟩
abbrev S256 : Shape := ⟨1, ![256]⟩

abbrev nBuf : Space → Nat
  | .hbm => 20
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .bf16⟩
  | .hbm, ⟨12, _⟩ => ⟨S512x512, .bf16⟩
  | .hbm, ⟨13, _⟩ => ⟨S512x512, .bf16⟩
  | .hbm, ⟨14, _⟩ => ⟨S8192x512, .bf16⟩
  | .hbm, ⟨15, _⟩ => ⟨S8192x512, .bf16⟩
  | .hbm, ⟨16, _⟩ => ⟨S8192x512, .bf16⟩
  | .hbm, ⟨17, _⟩ => ⟨S512x512, .bf16⟩
  | .hbm, ⟨18, _⟩ => ⟨S8192x512, .f32⟩
  | .hbm, ⟨19, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S256x512, .bf16⟩
  | .local _ .vmem, ⟨19, _⟩ => ⟨S256x512, .bf16⟩
  | .local _ .vmem, ⟨20, _⟩ => ⟨S8192x512, .bf16⟩
  | .local _ .vmem, ⟨21, _⟩ => ⟨S8192x512, .bf16⟩
  | .local _ .vmem, ⟨22, _⟩ => ⟨S512x512, .bf16⟩
  | .local _ .vmem, ⟨23, _⟩ => ⟨S512, .f32⟩
  | .local _ .vmem, ⟨24, _⟩ => ⟨S256x512, .f32⟩
  | .local _ .vmem, ⟨25, _⟩ => ⟨S256x512, .f32⟩
  | .local _ .vmem, ⟨26, _⟩ => ⟨S256x8192, .f32⟩
  | .local _ .vmem, ⟨27, _⟩ => ⟨S256x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def k1_mult1 : BitVec 32 :=
  let c0_i32 : BitVec 32 := 0#32
  let c1024_i32 : BitVec 32 := 1024#32
  let v4 : BitVec 32 := Scalar.muli c0_i32 c1024_i32
  v4
def k1_off1 (c0_i32 : BitVec 32) : Fin 2 → Nat :=
  let c1024_i32 : BitVec 32 := 1024#32
  let v4 : BitVec 32 := Scalar.muli c0_i32 c1024_i32
  let v5 : BitVec 32 := v4
  let v6 : Index := Scalar.indexCast v5
  let c0_2 : Index := 0#32
  ![v6.toNat, 0]
def k1_off2 (c0_i32 : BitVec 32) : Fin 2 → Nat :=
  let c0_4 : Index := 0#32
  let c1024_i32 : BitVec 32 := 1024#32
  let v4 : BitVec 32 := Scalar.muli c0_i32 c1024_i32
  let v5 : BitVec 32 := v4
  let v10 : Index := Scalar.indexCast v5
  ![0, v10.toNat]
def k1_mult2 : BitVec 32 :=
  let c1_i32 : BitVec 32 := 1#32
  let c1024_i32_7 : BitVec 32 := 1024#32
  let v24 : BitVec 32 := Scalar.muli c1_i32 c1024_i32_7
  v24
def k1_mult3 : BitVec 32 :=
  let c2_i32 : BitVec 32 := 2#32
  let c1024_i32_13 : BitVec 32 := 1024#32
  let v44 : BitVec 32 := Scalar.muli c2_i32 c1024_i32_13
  v44
def k1_mult4 : BitVec 32 :=
  let c3_i32 : BitVec 32 := 3#32
  let c1024_i32_19 : BitVec 32 := 1024#32
  let v64 : BitVec 32 := Scalar.muli c3_i32 c1024_i32_19
  v64
def k1_mult5 : BitVec 32 :=
  let c4_i32 : BitVec 32 := 4#32
  let c1024_i32_25 : BitVec 32 := 1024#32
  let v84 : BitVec 32 := Scalar.muli c4_i32 c1024_i32_25
  v84
def k1_mult6 : BitVec 32 :=
  let c5_i32 : BitVec 32 := 5#32
  let c1024_i32_31 : BitVec 32 := 1024#32
  let v104 : BitVec 32 := Scalar.muli c5_i32 c1024_i32_31
  v104
def k1_mult7 : BitVec 32 :=
  let c6_i32 : BitVec 32 := 6#32
  let c1024_i32_37 : BitVec 32 := 1024#32
  let v124 : BitVec 32 := Scalar.muli c6_i32 c1024_i32_37
  v124
def k1_mult8 : BitVec 32 :=
  let c7_i32 : BitVec 32 := 7#32
  let c1024_i32_43 : BitVec 32 := 1024#32
  let v144 : BitVec 32 := Scalar.muli c7_i32 c1024_i32_43
  v144
def k1_mult9 : BitVec 32 :=
  let c0_i32_51 : BitVec 32 := 0#32
  let c1024_i32_52 : BitVec 32 := 1024#32
  let v167 : BitVec 32 := Scalar.muli c0_i32_51 c1024_i32_52
  v167
def k1_mult10 : BitVec 32 :=
  let c1_i32_57 : BitVec 32 := 1#32
  let c1024_i32_58 : BitVec 32 := 1024#32
  let v185 : BitVec 32 := Scalar.muli c1_i32_57 c1024_i32_58
  v185
def k1_mult11 : BitVec 32 :=
  let c2_i32_63 : BitVec 32 := 2#32
  let c1024_i32_64 : BitVec 32 := 1024#32
  let v203 : BitVec 32 := Scalar.muli c2_i32_63 c1024_i32_64
  v203
def k1_mult12 : BitVec 32 :=
  let c3_i32_69 : BitVec 32 := 3#32
  let c1024_i32_70 : BitVec 32 := 1024#32
  let v221 : BitVec 32 := Scalar.muli c3_i32_69 c1024_i32_70
  v221
def k1_mult13 : BitVec 32 :=
  let c4_i32_75 : BitVec 32 := 4#32
  let c1024_i32_76 : BitVec 32 := 1024#32
  let v239 : BitVec 32 := Scalar.muli c4_i32_75 c1024_i32_76
  v239
def k1_mult14 : BitVec 32 :=
  let c5_i32_81 : BitVec 32 := 5#32
  let c1024_i32_82 : BitVec 32 := 1024#32
  let v257 : BitVec 32 := Scalar.muli c5_i32_81 c1024_i32_82
  v257
def k1_mult15 : BitVec 32 :=
  let c6_i32_87 : BitVec 32 := 6#32
  let c1024_i32_88 : BitVec 32 := 1024#32
  let v275 : BitVec 32 := Scalar.muli c6_i32_87 c1024_i32_88
  v275
def k1_mult16 : BitVec 32 :=
  let c7_i32_93 : BitVec 32 := 7#32
  let c1024_i32_94 : BitVec 32 := 1024#32
  let v293 : BitVec 32 := Scalar.muli c7_i32_93 c1024_i32_94
  v293
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1024x512_S1024x512 : S1024x512.ShapeCasts S1024x512
  h_S256x1024 : 0 < S256x1024.numel
  reduces_S256x1024_S256 : S256x1024.Reduces [1] S256
  shapeCasts_S256_S256x1 : S256.ShapeCasts S256x1
  broadcasts_S256x1_S256x1024 : S256x1.Broadcasts S256x1024
  shapeCasts_S256x1024_S256x1024 : S256x1024.ShapeCasts S256x1024
  broadcasts_S1x512_S256x512 : S1x512.Broadcasts S256x512
  dot_S1024x512_S512x512_S1024x512_1_1_0_0_n_n_wf : DotDims.WF S1024x512 S512x512 S1024x512 [1] [1] [0] [0] [] []
  dot_S256x512_S1024x512_S256x1024_1_1_0_0_n_n_wf : DotDims.WF S256x512 S1024x512 S256x1024 [1] [1] [0] [0] [] []
  dot_S256x1024_S1024x512_S256x512_1_0_0_1_n_n_wf : DotDims.WF S256x1024 S1024x512 S256x512 [1] [0] [0] [1] [] []
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S8192x512.size a
  hwx0_9 : ∀ i : grid0.Coords, EltTy.bits .bf16 = 32 ∨ (Rect.block (s := S8192x512) S1024x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S8192x512.size a
  hwx0_10 : ∀ i : grid0.Coords, EltTy.bits .bf16 = 32 ∨ (Rect.block (s := S8192x512) S1024x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S8192x512.size a
  hwx0_11 : ∀ i : grid0.Coords, EltTy.bits .bf16 = 32 ∨ (Rect.block (s := S8192x512) S1024x512.size (cc0_transform_11 i) (hinb0_11 i)).WholeWords (EltTy.packing .bf16)
  hrank1 : 0 < grid1.rank
  k1_mult1_dvd : 1024 ∣ k1_mult1.toNat
  k1_off1_inb : ∀ (r : Fin 8), ∀ a, (k1_off1 (BitVec.ofNat 32 r.val)) a + S1024x512.size a ≤ S8192x512.size a
  k1_off2_inb : ∀ (r : Fin 8), ∀ a, (k1_off2 (BitVec.ofNat 32 r.val)) a + S256x1024.size a ≤ S256x8192.size a
  k1_mult2_dvd : 1024 ∣ k1_mult2.toNat
  k1_mult3_dvd : 1024 ∣ k1_mult3.toNat
  k1_mult4_dvd : 1024 ∣ k1_mult4.toNat
  k1_mult5_dvd : 1024 ∣ k1_mult5.toNat
  k1_mult6_dvd : 1024 ∣ k1_mult6.toNat
  k1_mult7_dvd : 1024 ∣ k1_mult7.toNat
  k1_mult8_dvd : 1024 ∣ k1_mult8.toNat
  k1_mult9_dvd : 1024 ∣ k1_mult9.toNat
  k1_mult10_dvd : 1024 ∣ k1_mult10.toNat
  k1_mult11_dvd : 1024 ∣ k1_mult11.toNat
  k1_mult12_dvd : 1024 ∣ k1_mult12.toNat
  k1_mult13_dvd : 1024 ∣ k1_mult13.toNat
  k1_mult14_dvd : 1024 ∣ k1_mult14.toNat
  k1_mult15_dvd : 1024 ∣ k1_mult15.toNat
  k1_mult16_dvd : 1024 ∣ k1_mult16.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .bf16 = 32 ∨ (Rect.block (s := S8192x512) S256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x512.size a ≤ S8192x512.size a
  hwx1_2 : ∀ i : grid1.Coords, EltTy.bits .bf16 = 32 ∨ (Rect.block (s := S8192x512) S8192x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S8192x512.size a
  hwx1_5 : ∀ i : grid1.Coords, EltTy.bits .f32 = 32 ∨ (Rect.block (s := S8192x512) S256x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x8192.size a ≤ S8192x8192.size a
  hwx1_6 : ∀ i : grid1.Coords, EltTy.bits .f32 = 32 ∨ (Rect.block (s := S8192x8192) S256x8192.size (cc1_transform_6 i) (hinb1_6 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v3_0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S8192x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5_0) S256x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5_1) S256x8192.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S512x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S512x512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S512x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x512, .f32⟩
  | .hbm, ⟨43, _⟩ => ⟨S512x512, .f32⟩
  | .hbm, ⟨44, _⟩ => ⟨S8192x512, .f32⟩
  | .hbm, ⟨45, _⟩ => ⟨S1x512, .f32⟩
  | .hbm, ⟨46, _⟩ => ⟨S8192x512, .f32⟩
  | .hbm, ⟨47, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.KernelRun.lean ====
/-
  The idealized kernel's run with its two result arrays named.

  The program is two launches among host operations; along the run the contents of every buffer that
  outlives a launch are folded boundary by boundary: the launch memory, the host conversions of the
  weights, the first launch's three result arrays at what its write-backs leave, one more conversion,
  the second launch's two result arrays at what its write-backs leave (the fold's last stage, W4).
  Every weakly fair execution terminates without a fault in a state whose memory, at every such
  buffer, is that last stage: the two results are read there, and each argument array is walked back
  through the fold to the launch memory.
-/
import proofs.«129372_j77472620085715_2_alg».proof.Proof.Gen.KernelIdeal.Frame

set_option maxRecDepth 16384

noncomputable section

namespace Cert.Attn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result arrays
    at the last stage of the fold and the eleven argument arrays as launched. -/
theorem run : θ_run defs (onTc (τ := τ) (main (F := F))) ⟨m, fun _ => 0, ρ⟩ (fun r => ∀ c : Dev nD,
      r.2.mem ((c.tc : Thread nD τ).loc main_v5_0) = W4 m ρ c (Proc.devRef .tc main_v5_0)
      ∧ r.2.mem ((c.tc : Thread nD τ).loc main_v5_1) = W4 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5_0 (by decide)), h c _ (mem_uc main_v5_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.Attn.KRun

end
-- ==== Proof.Spec.lean ====
/-
  The attention block as plain functions of its argument arrays over the extended reals.

  Three linear layers x·Wᵀ + b give the projected queries, keys and values; the score of query row i
  against key row j is the inner product of the two projected rows; a row of scores is turned into
  weights by the softmax — the exponential of the score minus the row's greatest score, over the sum
  of those exponentials along the row —; the weights mix the projected value rows; a last linear
  layer gives the output.  The weights are written twice: as the product with the reciprocal of the
  row sum, and as the quotient by the row sum.  On real scores the two agree.
-/
import Idealize.ShloMosaic.PureOps.Ideal
import Idealize.ShloMosaic.Lib.ValueIdx

noncomputable section

namespace Cert.Attn

open Idealize.ShloMosaic Idealize.ShloMosaic.ValueIdx
open scoped BigOperators

/-- A matrix of extended reals with literal extents. -/
abbrev Mat (a b : Nat) : Type := (⟨2, ![a, b]⟩ : Shape).Idx → EReal
/-- A vector of extended reals with a literal extent. -/
abbrev Vc (a : Nat) : Type := (⟨1, ![a]⟩ : Shape).Idx → EReal

/-- A table indexed by a row and a column. -/
abbrev Tab (a b : Nat) : Type := Fin a → Fin b → EReal

/-- The linear layer x·Wᵀ + b with the weight stored [out, in]: entry (i, h). -/
def proj (x : Mat 8192 512) (W : Mat 512 512) (b : Vc 512) : Tab 8192 512 := fun i h =>
  (∑ c : Fin 512, x (ix2 i c) * W (ix2 h c)) + b (ix1 h)

/-- The score of query row i against key row j: the inner product of the projected rows. -/
def score (qp kp : Tab 8192 512) : Tab 8192 8192 := fun i j => ∑ h : Fin 512, qp i h * kp j h

/-- The greatest score of row i. -/
def rowTop (s : Tab 8192 8192) (i : Fin 8192) : EReal := Finset.univ.sup (s i)

/-- The sum along row i of the exponentials of the scores shifted by the row's greatest. -/
def rowDen (s : Tab 8192 8192) (i : Fin 8192) : EReal := ∑ j : Fin 8192, Ideal.exp (s i j - rowTop s i)

/-- The softmax weight (i, j) as the product with the reciprocal of the row sum; the numerator of the
    reciprocal is the f32 word of one. -/
def weightMul (s : Tab 8192 8192) : Tab 8192 8192 := fun i j =>
  Ideal.exp (s i j - rowTop s i) * Ideal.div (Ideal.ofBits .f32 0x3F800000#32) (rowDen s i)

/-- The softmax weight (i, j) as the quotient by the row sum. -/
def weightDiv (s : Tab 8192 8192) : Tab 8192 8192 := fun i j =>
  Ideal.div (Ideal.exp (s i j - rowTop s i)) (rowDen s i)

/-- The weights mixing the projected value rows: entry (i, h). -/
def mix (w : Tab 8192 8192) (vp : Tab 8192 512) : Tab 8192 512 := fun i h => ∑ j : Fin 8192, w i j * vp j h

/-- The last linear layer a·Woᵀ + bo of a table a: entry (i, o). -/
def outp (a : Tab 8192 512) (Wo : Mat 512 512) (bo : Vc 512) : Tab 8192 512 := fun i o =>
  (∑ h : Fin 512, a i h * Wo (ix2 o h)) + bo (ix1 o)

/-- The scores of the block from its eleven argument arrays' first eight. -/
def scores (q k : Mat 8192 512) (Wq : Mat 512 512) (bq : Vc 512) (Wk : Mat 512 512) (bk : Vc 512) : Tab 8192 8192 :=
  score (proj q Wq bq) (proj k Wk bk)

end Cert.Attn

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.Region0Pay.lean ====
/-
  The projection kernel's payload at an index, over the extended reals.

  One grid point of the kernel holds a block x of 1024 rows of the input, the whole weight matrix W stored
  [out, in] and the whole bias vector b. The payload narrows x (the identity on ideal values), multiplies the
  rows of x with the rows of W into the zero matrix, adds b laid out as one row and repeated over the 1024
  rows, and narrows again. At row p and column q this is (∑ c, x (p, c) · W (q, c)) + b (q): the linear layer
  x·Wᵀ + b on the block. The three payloads of the kernel (queries, keys, values) are this one function.
-/
import proofs.«129372_j77472620085715_2_alg».proof.Proof.Gen.KernelIdeal.Skeleton
import proofs.«129372_j77472620085715_2_alg».proof.Proof.LibRowsTimesRows
import Idealize.ShloMosaic.Lib.ValueIdx
import Idealize.ShloMosaic.Lib.ValueLayout
import Idealize.ShloMosaic.Lib.Pipeline.Value
import Idealize.ShloMosaic.PureOps.Ideal.Laws

noncomputable section

namespace Cert.Attn.R0

open Cert.KernelIdeal Cert.KernelIdeal.Gen
open Idealize.ShloMosaic Idealize.ShloMosaic.ValueIdx
open scoped BigOperators

/-- The kernel's product record is the rows-times-rows record at these extents. -/
theorem dot_eq_rowsDims :
    dot_S1024x512_S512x512_S1024x512_1_1_0_0_n_n
      = Cert.RowsTimesRows.rowsDims 1024 512 512 dot_S1024x512_S512x512_S1024x512_1_1_0_0_n_n_wf := rfl

/-- The bias vector laid out as one row and repeated over the rows, read at (p, q): the vector at q. -/
theorem bias_apply (b : Vec Ideal S512 .f32) (p : Fin 1024) (q : Fin 512) :
    broadcastTo S1024x512 (shapeCast S1x512 b shapeCasts_S512_S1x512) broadcasts_S1x512_S1024x512 (ix2 p q)
      = b (ix1 q) := by
  rw [broadcastTo_1b_ab_apply, shapeCast_a_1a_apply]

/-- THE PAYLOAD AT AN INDEX: the linear layer on the block, entry (p, q). -/
theorem pay1_apply (x : Vec Ideal S1024x512 .f32) (W : Vec Ideal S512x512 .bf16) (b : Vec Ideal S512 .f32)
    (p : Fin 1024) (q : Fin 512) :
    k0_pay1 (F := Ideal) x W b (ix2 p q) = (∑ c : Fin 512, x (ix2 p c) * W (ix2 q c)) + b (ix1 q) := by
  unfold k0_pay1
  rw [truncf_apply, addf_apply, bias_apply, shapeCast_self, dot_eq_rowsDims]
  exact congrArg (· + b (ix1 q))
    (Cert.RowsTimesRows.rowsMatmul_zero_apply dot_S1024x512_S512x512_S1024x512_1_1_0_0_n_n_wf none
      (truncf .bf16 x bitsLt_bf16_f32) W p q)

/-- The keys' payload is the same function of its block, weight and bias. -/
theorem pay2_eq : @k0_pay2 Ideal _ = @k0_pay1 Ideal _ := rfl

/-- The values' payload is the same function of its block, weight and bias. -/
theorem pay3_eq : @k0_pay3 Ideal _ = @k0_pay1 Ideal _ := rfl

end Cert.Attn.R0

end
-- ==== Proof.Region0.lean ====
/-
  The projection kernel's region: from the blocks of one grid point to the three whole arrays.

  The grid has 8 points. At point t the windows on the inputs q, k, v hold rows 1024·t … 1024·t + 1023 of
  their arrays, the windows on the three weight matrices and the three bias vectors hold the whole arrays,
  and the body leaves in each output window the linear layer of its block: entry (p, h) is
  (∑ c, x (1024·t + p, c) · W (h, c)) + b (h). So what point t writes back to an output array is rows
  1024·t … 1024·t + 1023 of ONE function of the whole arrays — the projection proj x W b of the
  specification —; row r of an output array is covered by point r / 1024, hence after the region each output
  array holds proj x W b. The weight matrices the region reads were written before it as the narrowing of
  the launch arguments, which is the identity on ideal values; the inputs and the bias vectors are the
  launch arguments themselves.
-/
import proofs.«129372_j77472620085715_2_alg».proof.Proof.Gen.KernelIdeal.Frame
import proofs.«129372_j77472620085715_2_alg».proof.Proof.Spec
import proofs.«129372_j77472620085715_2_alg».proof.Proof.Region0Pay
import Idealize.ShloMosaic.Lib.Pipeline.Value
import Idealize.ShloMosaic.Lib.StableHlo.Run
import Idealize.ShloMosaic.Lib.ValueIdx

set_option maxRecDepth 16384

noncomputable section

namespace Cert.Attn.R0

open Cert.KernelIdeal Cert.KernelIdeal.Gen Cert.Attn
open Idealize.ShloMosaic Idealize.ShloMosaic.TcCoe Idealize.ShloMosaic.ValueIdx Idealize.SL.Sem
open Idealize.ShloMosaic.Pipeline (Dat)
open scoped BigOperators

theorem hz2 : (![0, 0] : Fin 2 → Nat) = fun _ => 0 := funext fun a => by fin_cases a <;> rfl
theorem hz1 : (![0] : Fin 1 → Nat) = fun _ => 0 := funext fun a => by fin_cases a; rfl

/-- The projection as an array: the table read at an index's two coordinates. -/
abbrev projArr (x : Mat 8192 512) (W : Mat 512 512) (b : Vc 512) : S8192x512.Idx → EReal :=
  fun idx => proj x W b (idx 0) (idx 1)

/-! ## Where each window's block sits, decided over the 8 grid points -/

/-- The windows on the inputs and on the outputs move one block of rows per point; they span the columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The windows on the weights and the bias vectors hold the whole arrays at every point. -/
theorem idx_whole : ∀ t : Fin cfg0.N,
    win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_4.index t (0 : Fin 1) = 0 ∧ win0_6.index t (0 : Fin 1) = 0 ∧ win0_8.index t (0 : Fin 1) = 0 :=
  (by decide +kernel : ∀ t : Fin grid0.N, _)

theorem N_eq : cfg0.N = 8 := rfl

section Blocks
-- what the core's buffers hold when the region is entered
variable (V : (c : Dev nD) → (b : Ref sig .tc) → Buf (Elt Ideal) ((c : Thread nD τ).loc b))

/-! ## The input windows' blocks as parts of their arrays -/

/-- Window 0's block at point t is rows 1024·t … 1024·t + 1023 of its array. -/
theorem iblk_0 (c : Dev nD) (t : Fin cfg0.N) (p : Fin 1024) (k : Fin 512) (r : Fin 8192)
    (hr : r.val = 1024 * t.val + p.val) :
    (iblk0 (F := Ideal) V c 0 t : Vec Ideal S1024x512 .f32) (ix2 p k)
      = (V c main_arg0 : S8192x512.Idx → EReal) (ix2 r k) := by
  obtain ⟨e00, e01, e10, e11, e20, e21, e90, e91, e100, e101, e110, e111⟩ := idx_rows t
  unfold iblk0
  rw [View.read_apply]
  show V c main_arg0 _ = V c main_arg0 _
  congr 1
  funext a
  apply Fin.ext
  match a with
  | ⟨0, _⟩ => show win0_0.index t (0 : Fin 2) * 1024 + 1 * p.val = r.val; rw [e00, hr]; omega
  | ⟨1, _⟩ => show win0_0.index t (1 : Fin 2) * 512 + 1 * k.val = k.val; rw [e01]; omega

/-- Window 1's block at point t is rows 1024·t … 1024·t + 1023 of its array. -/
theorem iblk_1 (c : Dev nD) (t : Fin cfg0.N) (p : Fin 1024) (k : Fin 512) (r : Fin 8192)
    (hr : r.val = 1024 * t.val + p.val) :
    (iblk0 (F := Ideal) V c 1 t : Vec Ideal S1024x512 .f32) (ix2 p k)
      = (V c main_arg1 : S8192x512.Idx → EReal) (ix2 r k) := by
  obtain ⟨e00, e01, e10, e11, e20, e21, e90, e91, e100, e101, e110, e111⟩ := idx_rows t
  unfold iblk0
  rw [View.read_apply]
  show V c main_arg1 _ = V c main_arg1 _
  congr 1
  funext a
  apply Fin.ext
  match a with
  | ⟨0, _⟩ => show win0_1.index t (0 : Fin 2) * 1024 + 1 * p.val = r.val; rw [e10, hr]; omega
  | ⟨1, _⟩ => show win0_1.index t (1 : Fin 2) * 512 + 1 * k.val = k.val; rw [e11]; omega

/-- Window 2's block at point t is rows 1024·t … 1024·t + 1023 of its array. -/
theorem iblk_2 (c : Dev nD) (t : Fin cfg0.N) (p : Fin 1024) (k : Fin 512) (r : Fin 8192)
    (hr : r.val = 1024 * t.val + p.val) :
    (iblk0 (F := Ideal) V c 2 t : Vec Ideal S1024x512 .f32) (ix2 p k)
      = (V c main_arg2 : S8192x512.Idx → EReal) (ix2 r k) := by
  obtain ⟨e00, e01, e10, e11, e20, e21, e90, e91, e100, e101, e110, e111⟩ := idx_rows t
  unfold iblk0
  rw [View.read_apply]
  show V c main_arg2 _ = V c main_arg2 _
  congr 1
  funext a
  apply Fin.ext
  match a with
  | ⟨0, _⟩ => show win0_2.index t (0 : Fin 2) * 1024 + 1 * p.val = r.val; rw [e20, hr]; omega
  | ⟨1, _⟩ => show win0_2.index t (1 : Fin 2) * 512 + 1 * k.val = k.val; rw [e21]; omega

/-- Window 3's block at every point is its whole array. -/
theorem iblk_3 (c : Dev nD) (t : Fin cfg0.N) (h : Fin 512) (k : Fin 512) :
    (iblk0 (F := Ideal) V c 3 t : Vec Ideal S512x512 .bf16) (ix2 h k)
      = (V c main_v0 : S512x512.Idx → EReal) (ix2 h k) := by
  obtain ⟨f30, f31, f50, f51, f70, f71, f4, f6, f8⟩ := idx_whole t
  unfold iblk0
  rw [View.read_apply]
  show V c main_v0 _ = V c main_v0 _
  congr 1
  funext a
  apply Fin.ext
  match a with
  | ⟨0, _⟩ => show win0_3.index t (0 : Fin 2) * 512 + 1 * h.val = h.val; rw [f30]; omega
  | ⟨1, _⟩ => show win0_3.index t (1 : Fin 2) * 512 + 1 * k.val = k.val; rw [f31]; omega

/-- Window 5's block at every point is its whole array. -/
theorem iblk_5 (c : Dev nD) (t : Fin cfg0.N) (h : Fin 512) (k : Fin 512) :
    (iblk0 (F := Ideal) V c 5 t : Vec Ideal S512x512 .bf16) (ix2 h k)
      = (V c main_v1 : S512x512.Idx → EReal) (ix2 h k) := by
  obtain ⟨f30, f31, f50, f51, f70, f71, f4, f6, f8⟩ := idx_whole t
  unfold iblk0
  rw [View.read_apply]
  show V c main_v1 _ = V c main_v1 _
  congr 1
  funext a
  apply Fin.ext
  match a with
  | ⟨0, _⟩ => show win0_5.index t (0 : Fin 2) * 512 + 1 * h.val = h.val; rw [f50]; omega
  | ⟨1, _⟩ => show win0_5.index t (1 : Fin 2) * 512 + 1 * k.val = k.val; rw [f51]; omega

/-- Window 7's block at every point is its whole array. -/
theorem iblk_7 (c : Dev nD) (t : Fin cfg0.N) (h : Fin 512) (k : Fin 512) :
    (iblk0 (F := Ideal) V c 7 t : Vec Ideal S512x512 .bf16) (ix2 h k)
      = (V c main_v2 : S512x512.Idx → EReal) (ix2 h k) := by
  obtain ⟨f30, f31, f50, f51, f70, f71, f4, f6, f8⟩ := idx_whole t
  unfold iblk0
  rw [View.read_apply]
  show V c main_v2 _ = V c main_v2 _
  congr 1
  funext a
  apply Fin.ext
  match a with
  | ⟨0, _⟩ => show win0_7.index t (0 : Fin 2) * 512 + 1 * h.val = h.val; rw [f70]; omega
  | ⟨1, _⟩ => show win0_7.index t (1 : Fin 2) * 512 + 1 * k.val = k.val; rw [f71]; omega

/-- Window 4's block at every point is its whole array. -/
theorem iblk_4 (c : Dev nD) (t : Fin cfg0.N) (h : Fin 512) :
    (iblk0 (F := Ideal) V c 4 t : Vec Ideal S512 .f32) (ix1 h)
      = (V c main_arg4 : S512.Idx → EReal) (ix1 h) := by
  obtain ⟨f30, f31, f50, f51, f70, f71, f4, f6, f8⟩ := idx_whole t
  unfold iblk0
  rw [View.read_apply]
  show V c main_arg4 _ = V c main_arg4 _
  congr 1
  funext a
  apply Fin.ext
  match a with
  | ⟨0, _⟩ => show win0_4.index t (0 : Fin 1) * 512 + 1 * h.val = h.val; rw [f4]; omega

/-- Window 6's block at every point is its whole array. -/
theorem iblk_6 (c : Dev nD) (t : Fin cfg0.N) (h : Fin 512) :
    (iblk0 (F := Ideal) V c 6 t : Vec Ideal S512 .f32) (ix1 h)
      = (V c main_arg6 : S512.Idx → EReal) (ix1 h) := by
  obtain ⟨f30, f31, f50, f51, f70, f71, f4, f6, f8⟩ := idx_whole t
  unfold iblk0
  rw [View.read_apply]
  show V c main_arg6 _ = V c main_arg6 _
  congr 1
  funext a
  apply Fin.ext
  match a with
  | ⟨0, _⟩ => show win0_6.index t (0 : Fin 1) * 512 + 1 * h.val = h.val; rw [f6]; omega

/-- Window 8's block at every point is its whole array. -/
theorem iblk_8 (c : Dev nD) (t : Fin cfg0.N) (h : Fin 512) :
    (iblk0 (F := Ideal) V c 8 t : Vec Ideal S512 .f32) (ix1 h)
      = (V c main_arg8 : S512.Idx → EReal) (ix1 h) := by
  obtain ⟨f30, f31, f50, f51, f70, f71, f4, f6, f8⟩ := idx_whole t
  unfold iblk0
  rw [View.read_apply]
  show V c main_arg8 _ = V c main_arg8 _
  congr 1
  funext a
  apply Fin.ext
  match a with
  | ⟨0, _⟩ => show win0_8.index t (0 : Fin 1) * 512 + 1 * h.val = h.val; rw [f8]; omega

/-! ## What the body leaves in an output window, at an index -/

/-- Output window 9 after the body, entry (p, h): the linear layer of the blocks of windows 0, 3, 4. -/
theorem out9_apply (x0 x1 x2 : Vec Ideal S1024x512 .f32) (x3 : Vec Ideal S512x512 .bf16) (x4 : Vec Ideal S512 .f32)
    (x5 : Vec Ideal S512x512 .bf16) (x6 : Vec Ideal S512 .f32) (x7 : Vec Ideal S512x512 .bf16) (x8 : Vec Ideal S512 .f32)
    (p : Fin 1024) (h : Fin 512) :
    out0_9 (F := Ideal) x0 x1 x2 x3 x4 x5 x6 x7 x8 (ix2 p h)
      = (∑ k : Fin 512, x0 (ix2 p k) * x3 (ix2 h k)) + x4 (ix1 h) := by
  unfold out0_9
  rw [View.canon_unit_zero hz2]
  simp only [View.ld_unit_zero (S := S1024x512) hz2, View.ld_unit_zero (S := S512x512) hz2,
    View.ld_unit_zero (S := S512) hz1]
  have e : k0_pay1 (F := Ideal) x0 x3 x4 = k0_pay1 x0 x3 x4 := rfl
  rw [e]
  exact pay1_apply x0 x3 x4 p h

/-- At point t that entry is entry (1024·t + p, h) of the projection of the whole arrays. -/
theorem out9_block (c : Dev nD) (t : Fin cfg0.N) (j : S1024x512.Idx) (i : S8192x512.Idx)
    (h0 : (i 0).val = 1024 * t.val + (j 0).val) (h1 : (i 1).val = (j 1).val) :
    out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) j
      = projArr (V c main_arg0) (V c main_v0) (V c main_arg4) i := by
  obtain ⟨p, h, rfl⟩ : ∃ (p : Fin 1024) (h : Fin 512), j = ix2 p h := ⟨j 0, j 1, eq_ix2 j⟩
  refine (out9_apply (iblk0 V c 0 t) (iblk0 V c 1 t) (iblk0 V c 2 t) (iblk0 V c 3 t) (iblk0 V c 4 t) (iblk0 V c 5 t) (iblk0 V c 6 t) (iblk0 V c 7 t) (iblk0 V c 8 t) p h).trans ?_
  have hq : i 1 = h := Fin.ext h1
  have h0' : (i 0).val = 1024 * t.val + p.val := h0
  show _ = proj (V c main_arg0) (V c main_v0) (V c main_arg4) (i 0) (i 1)
  unfold proj
  rw [hq]
  exact congrArg₂ (· + ·)
    (Finset.sum_congr rfl fun k _ => congrArg₂ (· * ·) (iblk_0 V c t p k (i 0) h0') (iblk_3 V c t h k))
    (iblk_4 V c t h)

/-- Output window 10 after the body, entry (p, h): the linear layer of the blocks of windows 1, 5, 6. -/
theorem out10_apply (x0 x1 x2 : Vec Ideal S1024x512 .f32) (x3 : Vec Ideal S512x512 .bf16) (x4 : Vec Ideal S512 .f32)
    (x5 : Vec Ideal S512x512 .bf16) (x6 : Vec Ideal S512 .f32) (x7 : Vec Ideal S512x512 .bf16) (x8 : Vec Ideal S512 .f32)
    (p : Fin 1024) (h : Fin 512) :
    out0_10 (F := Ideal) x0 x1 x2 x3 x4 x5 x6 x7 x8 (ix2 p h)
      = (∑ k : Fin 512, x1 (ix2 p k) * x5 (ix2 h k)) + x6 (ix1 h) := by
  unfold out0_10
  rw [View.canon_unit_zero hz2]
  simp only [View.ld_unit_zero (S := S1024x512) hz2, View.ld_unit_zero (S := S512x512) hz2,
    View.ld_unit_zero (S := S512) hz1]
  have e : k0_pay2 (F := Ideal) x1 x5 x6 = k0_pay1 x1 x5 x6 := rfl
  rw [e]
  exact pay1_apply x1 x5 x6 p h

/-- At point t that entry is entry (1024·t + p, h) of the projection of the whole arrays. -/
theorem out10_block (c : Dev nD) (t : Fin cfg0.N) (j : S1024x512.Idx) (i : S8192x512.Idx)
    (h0 : (i 0).val = 1024 * t.val + (j 0).val) (h1 : (i 1).val = (j 1).val) :
    out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) j
      = projArr (V c main_arg1) (V c main_v1) (V c main_arg6) i := by
  obtain ⟨p, h, rfl⟩ : ∃ (p : Fin 1024) (h : Fin 512), j = ix2 p h := ⟨j 0, j 1, eq_ix2 j⟩
  refine (out10_apply (iblk0 V c 0 t) (iblk0 V c 1 t) (iblk0 V c 2 t) (iblk0 V c 3 t) (iblk0 V c 4 t) (iblk0 V c 5 t) (iblk0 V c 6 t) (iblk0 V c 7 t) (iblk0 V c 8 t) p h).trans ?_
  have hq : i 1 = h := Fin.ext h1
  have h0' : (i 0).val = 1024 * t.val + p.val := h0
  show _ = proj (V c main_arg1) (V c main_v1) (V c main_arg6) (i 0) (i 1)
  unfold proj
  rw [hq]
  exact congrArg₂ (· + ·)
    (Finset.sum_congr rfl fun k _ => congrArg₂ (· * ·) (iblk_1 V c t p k (i 0) h0') (iblk_5 V c t h k))
    (iblk_6 V c t h)

/-- Output window 11 after the body, entry (p, h): the linear layer of the blocks of windows 2, 7, 8. -/
theorem out11_apply (x0 x1 x2 : Vec Ideal S1024x512 .f32) (x3 : Vec Ideal S512x512 .bf16) (x4 : Vec Ideal S512 .f32)
    (x5 : Vec Ideal S512x512 .bf16) (x6 : Vec Ideal S512 .f32) (x7 : Vec Ideal S512x512 .bf16) (x8 : Vec Ideal S512 .f32)
    (p : Fin 1024) (h : Fin 512) :
    out0_11 (F := Ideal) x0 x1 x2 x3 x4 x5 x6 x7 x8 (ix2 p h)
      = (∑ k : Fin 512, x2 (ix2 p k) * x7 (ix2 h k)) + x8 (ix1 h) := by
  unfold out0_11
  rw [View.canon_unit_zero hz2]
  simp only [View.ld_unit_zero (S := S1024x512) hz2, View.ld_unit_zero (S := S512x512) hz2,
    View.ld_unit_zero (S := S512) hz1]
  have e : k0_pay3 (F := Ideal) x2 x7 x8 = k0_pay1 x2 x7 x8 := rfl
  rw [e]
  exact pay1_apply x2 x7 x8 p h

/-- At point t that entry is entry (1024·t + p, h) of the projection of the whole arrays. -/
theorem out11_block (c : Dev nD) (t : Fin cfg0.N) (j : S1024x512.Idx) (i : S8192x512.Idx)
    (h0 : (i 0).val = 1024 * t.val + (j 0).val) (h1 : (i 1).val = (j 1).val) :
    out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) j
      = projArr (V c main_arg2) (V c main_v2) (V c main_arg8) i := by
  obtain ⟨p, h, rfl⟩ : ∃ (p : Fin 1024) (h : Fin 512), j = ix2 p h := ⟨j 0, j 1, eq_ix2 j⟩
  refine (out11_apply (iblk0 V c 0 t) (iblk0 V c 1 t) (iblk0 V c 2 t) (iblk0 V c 3 t) (iblk0 V c 4 t) (iblk0 V c 5 t) (iblk0 V c 6 t) (iblk0 V c 7 t) (iblk0 V c 8 t) p h).trans ?_
  have hq : i 1 = h := Fin.ext h1
  have h0' : (i 0).val = 1024 * t.val + p.val := h0
  show _ = proj (V c main_arg2) (V c main_v2) (V c main_arg8) (i 0) (i 1)
  unfold proj
  rw [hq]
  exact congrArg₂ (· + ·)
    (Finset.sum_congr rfl fun k _ => congrArg₂ (· * ·) (iblk_2 V c t p k (i 0) h0') (iblk_7 V c t h k))
    (iblk_8 V c t h)

/-! ## What a point writes back, and the array after the region -/

/-- WHAT POINT t WRITES BACK to output window 9's array is block t of the projection. -/
theorem flushed9_eq (c : Dev nD) (t : Fin cfg0.N) :
    (dat0 (F := Ideal) V c).flushed 9 t
      = ((cfg0.win 9).blk t).view.read (Elt Ideal) (projArr (V c main_arg0) (V c main_v0) (V c main_arg4)) := by
  obtain ⟨e00, e01, e10, e11, e20, e21, e90, e91, e100, e101, e110, e111⟩ := idx_rows t
  show (cfg0.win 9).cut (grid0.coords t) ((dat0 V c).after 9 t) = _
  rw [after0_9]
  funext j
  rw [View.read_apply]
  refine out9_block V c t ((cfg0.win 9).xinj (grid0.coords t) j) (((cfg0.win 9).blk t).view.emb j) ?_ ?_
  · show win0_9.index t (0 : Fin 2) * 1024 + 1 * (j 0).val = 1024 * t.val + (j 0).val
    rw [e90]; omega
  · show win0_9.index t (1 : Fin 2) * 512 + 1 * (j 1).val = (j 1).val
    rw [e91]; omega

/-- Row r of window 9's array is in the block of point r / 1024. -/
theorem cover9 (i : S8192x512.Idx) :
    ∃ t : Fin cfg0.N, (cfg0.win 9).flush t = true ∧ i ∈ ((cfg0.win 9).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, by show _ < 8; omega⟩, rfl⟩
  obtain ⟨e00, e01, e10, e11, e20, e21, e90, e91, e100, e101, e110, e111⟩ := idx_rows t
  refine ⟨t, flush0_9 t, ?_⟩
  show i ∈ ((View.whole main_v3_0).slice (win0_9.rect t)).set
  rw [View.set_slice_whole, Rect.mem_set_unit]
  intro a
  match a with
  | ⟨0, _⟩ =>
    show win0_9.index t (0 : Fin 2) * 1024 ≤ (i 0).val ∧ (i 0).val < win0_9.index t (0 : Fin 2) * 1024 + 1024
    rw [e90]; omega
  | ⟨1, _⟩ =>
    show win0_9.index t (1 : Fin 2) * 512 ≤ (i 1).val ∧ (i 1).val < win0_9.index t (1 : Fin 2) * 512 + 512
    rw [e91]; omega

/-- THE ARRAY of output window 9 after the region: the projection of the arrays the region found. -/
theorem arr9 (c : Dev nD) :
    (dat0 (F := Ideal) V c).arrAt 9 cfg0.N = projArr (V c main_arg0) (V c main_v0) (V c main_arg4) :=
  (dat0 (F := Ideal) V c).arrAt_eq_of_cover 9 (projArr (V c main_arg0) (V c main_v0) (V c main_arg4))
    (fun t _ => flushed9_eq V c t) cover9

/-- WHAT POINT t WRITES BACK to output window 10's array is block t of the projection. -/
theorem flushed10_eq (c : Dev nD) (t : Fin cfg0.N) :
    (dat0 (F := Ideal) V c).flushed 10 t
      = ((cfg0.win 10).blk t).view.read (Elt Ideal) (projArr (V c main_arg1) (V c main_v1) (V c main_arg6)) := by
  obtain ⟨e00, e01, e10, e11, e20, e21, e90, e91, e100, e101, e110, e111⟩ := idx_rows t
  show (cfg0.win 10).cut (grid0.coords t) ((dat0 V c).after 10 t) = _
  rw [after0_10]
  funext j
  rw [View.read_apply]
  refine out10_block V c t ((cfg0.win 10).xinj (grid0.coords t) j) (((cfg0.win 10).blk t).view.emb j) ?_ ?_
  · show win0_10.index t (0 : Fin 2) * 1024 + 1 * (j 0).val = 1024 * t.val + (j 0).val
    rw [e100]; omega
  · show win0_10.index t (1 : Fin 2) * 512 + 1 * (j 1).val = (j 1).val
    rw [e101]; omega

/-- Row r of window 10's array is in the block of point r / 1024. -/
theorem cover10 (i : S8192x512.Idx) :
    ∃ t : Fin cfg0.N, (cfg0.win 10).flush t = true ∧ i ∈ ((cfg0.win 10).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, by show _ < 8; omega⟩, rfl⟩
  obtain ⟨e00, e01, e10, e11, e20, e21, e90, e91, e100, e101, e110, e111⟩ := idx_rows t
  refine ⟨t, flush0_10 t, ?_⟩
  show i ∈ ((View.whole main_v3_1).slice (win0_10.rect t)).set
  rw [View.set_slice_whole, Rect.mem_set_unit]
  intro a
  match a with
  | ⟨0, _⟩ =>
    show win0_10.index t (0 : Fin 2) * 1024 ≤ (i 0).val ∧ (i 0).val < win0_10.index t (0 : Fin 2) * 1024 + 1024
    rw [e100]; omega
  | ⟨1, _⟩ =>
    show win0_10.index t (1 : Fin 2) * 512 ≤ (i 1).val ∧ (i 1).val < win0_10.index t (1 : Fin 2) * 512 + 512
    rw [e101]; omega

/-- THE ARRAY of output window 10 after the region: the projection of the arrays the region found. -/
theorem arr10 (c : Dev nD) :
    (dat0 (F := Ideal) V c).arrAt 10 cfg0.N = projArr (V c main_arg1) (V c main_v1) (V c main_arg6) :=
  (dat0 (F := Ideal) V c).arrAt_eq_of_cover 10 (projArr (V c main_arg1) (V c main_v1) (V c main_arg6))
    (fun t _ => flushed10_eq V c t) cover10

/-- WHAT POINT t WRITES BACK to output window 11's array is block t of the projection. -/
theorem flushed11_eq (c : Dev nD) (t : Fin cfg0.N) :
    (dat0 (F := Ideal) V c).flushed 11 t
      = ((cfg0.win 11).blk t).view.read (Elt Ideal) (projArr (V c main_arg2) (V c main_v2) (V c main_arg8)) := by
  obtain ⟨e00, e01, e10, e11, e20, e21, e90, e91, e100, e101, e110, e111⟩ := idx_rows t
  show (cfg0.win 11).cut (grid0.coords t) ((dat0 V c).after 11 t) = _
  rw [after0_11]
  funext j
  rw [View.read_apply]
  refine out11_block V c t ((cfg0.win 11).xinj (grid0.coords t) j) (((cfg0.win 11).blk t).view.emb j) ?_ ?_
  · show win0_11.index t (0 : Fin 2) * 1024 + 1 * (j 0).val = 1024 * t.val + (j 0).val
    rw [e110]; omega
  · show win0_11.index t (1 : Fin 2) * 512 + 1 * (j 1).val = (j 1).val
    rw [e111]; omega

/-- Row r of window 11's array is in the block of point r / 1024. -/
theorem cover11 (i : S8192x512.Idx) :
    ∃ t : Fin cfg0.N, (cfg0.win 11).flush t = true ∧ i ∈ ((cfg0.win 11).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, by show _ < 8; omega⟩, rfl⟩
  obtain ⟨e00, e01, e10, e11, e20, e21, e90, e91, e100, e101, e110, e111⟩ := idx_rows t
  refine ⟨t, flush0_11 t, ?_⟩
  show i ∈ ((View.whole main_v3_2).slice (win0_11.rect t)).set
  rw [View.set_slice_whole, Rect.mem_set_unit]
  intro a
  match a with
  | ⟨0, _⟩ =>
    show win0_11.index t (0 : Fin 2) * 1024 ≤ (i 0).val ∧ (i 0).val < win0_11.index t (0 : Fin 2) * 1024 + 1024
    rw [e110]; omega
  | ⟨1, _⟩ =>
    show win0_11.index t (1 : Fin 2) * 512 ≤ (i 1).val ∧ (i 1).val < win0_11.index t (1 : Fin 2) * 512 + 512
    rw [e111]; omega

/-- THE ARRAY of output window 11 after the region: the projection of the arrays the region found. -/
theorem arr11 (c : Dev nD) :
    (dat0 (F := Ideal) V c).arrAt 11 cfg0.N = projArr (V c main_arg2) (V c main_v2) (V c main_arg8) :=
  (dat0 (F := Ideal) V c).arrAt_eq_of_cover 11 (projArr (V c main_arg2) (V c main_v2) (V c main_arg8))
    (fun t _ => flushed11_eq V c t) cover11

end Blocks

/-! ## The region in the run: its entry contents are the launch arguments -/

section Run
variable (m : (ℓ : Loc nD τ sig) → Buf (Elt Ideal) ℓ) (ρ : Dev nD → PrngReg)

/-- No operation before the region writes this argument: the region finds the launch contents. -/
theorem entry_main_arg0 (c : Dev nD) :
    (V1 (F := Ideal) m ρ c main_arg0 : S8192x512.Idx → EReal) = m ((c : Thread nD τ).loc main_arg0) := by
  dsimp only [Gen.V1, Gen.W1, Gen.hostOps0]; after_results

/-- No operation before the region writes this argument: the region finds the launch contents. -/
theorem entry_main_arg1 (c : Dev nD) :
    (V1 (F := Ideal) m ρ c main_arg1 : S8192x512.Idx → EReal) = m ((c : Thread nD τ).loc main_arg1) := by
  dsimp only [Gen.V1, Gen.W1, Gen.hostOps0]; after_results

/-- No operation before the region writes this argument: the region finds the launch contents. -/
theorem entry_main_arg2 (c : Dev nD) :
    (V1 (F := Ideal) m ρ c main_arg2 : S8192x512.Idx → EReal) = m ((c : Thread nD τ).loc main_arg2) := by
  dsimp only [Gen.V1, Gen.W1, Gen.hostOps0]; after_results

/-- No operation before the region writes this argument: the region finds the launch contents. -/
theorem entry_main_arg4 (c : Dev nD) :
    (V1 (F := Ideal) m ρ c main_arg4 : S512.Idx → EReal) = m ((c : Thread nD τ).loc main_arg4) := by
  dsimp only [Gen.V1, Gen.W1, Gen.hostOps0]; after_results

/-- No operation before the region writes this argument: the region finds the launch contents. -/
theorem entry_main_arg6 (c : Dev nD) :
    (V1 (F := Ideal) m ρ c main_arg6 : S512.Idx → EReal) = m ((c : Thread nD τ).loc main_arg6) := by
  dsimp only [Gen.V1, Gen.W1, Gen.hostOps0]; after_results

/-- No operation before the region writes this argument: the region finds the launch contents. -/
theorem entry_main_arg8 (c : Dev nD) :
    (V1 (F := Ideal) m ρ c main_arg8 : S512.Idx → EReal) = m ((c : Thread nD τ).loc main_arg8) := by
  dsimp only [Gen.V1, Gen.W1, Gen.hostOps0]; after_results

/-- The weight matrix the region reads was written as the narrowing of the launch argument, the identity on
    ideal values. -/
theorem entry_main_v0 (c : Dev nD) :
    (V1 (F := Ideal) m ρ c main_v0 : S512x512.Idx → EReal) = m ((c : Thread nD τ).loc main_arg3) := by
  dsimp only [Gen.V1, Gen.W1, Gen.hostOps0]; after_results; rfl

/-- The weight matrix the region reads was written as the narrowing of the launch argument, the identity on
    ideal values. -/
theorem entry_main_v1 (c : Dev nD) :
    (V1 (F := Ideal) m ρ c main_v1 : S512x512.Idx → EReal) = m ((c : Thread nD τ).loc main_arg5) := by
  dsimp only [Gen.V1, Gen.W1, Gen.hostOps0]; after_results; rfl

/-- The weight matrix the region reads was written as the narrowing of the launch argument, the identity on
    ideal values. -/
theorem entry_main_v2 (c : Dev nD) :
    (V1 (F := Ideal) m ρ c main_v2 : S512x512.Idx → EReal) = m ((c : Thread nD τ).loc main_arg7) := by
  dsimp only [Gen.V1, Gen.W1, Gen.hostOps0]; after_results; rfl

/-- AFTER THE REGION the array of the projected queries holds the projection of the launch arguments. -/
theorem qp_eq (c : Dev nD) :
    Gen.W2 (F := Ideal) m ρ c (Proc.devRef .tc main_v3_0)
      = fun idx => proj (m ((c : Thread nD τ).loc main_arg0)) (m ((c : Thread nD τ).loc main_arg3))
          (m ((c : Thread nD τ).loc main_arg4)) (idx 0) (idx 1) := by
  refine (W2_arr m ρ c 9).trans ?_
  rw [arr9 (V1 m ρ) c]
  show projArr (V1 m ρ c main_arg0) (V1 m ρ c main_v0) (V1 m ρ c main_arg4) = _
  rw [entry_main_arg0 m ρ c, entry_main_v0 m ρ c, entry_main_arg4 m ρ c]
  rfl

/-- AFTER THE REGION the array of the projected keys holds the projection of the launch arguments. -/
theorem kp_eq (c : Dev nD) :
    Gen.W2 (F := Ideal) m ρ c (Proc.devRef .tc main_v3_1)
      = fun idx => proj (m ((c : Thread nD τ).loc main_arg1)) (m ((c : Thread nD τ).loc main_arg5))
          (m ((c : Thread nD τ).loc main_arg6)) (idx 0) (idx 1) := by
  refine (W2_arr m ρ c 10).trans ?_
  rw [arr10 (V1 m ρ) c]
  show projArr (V1 m ρ c main_arg1) (V1 m ρ c main_v1) (V1 m ρ c main_arg6) = _
  rw [entry_main_arg1 m ρ c, entry_main_v1 m ρ c, entry_main_arg6 m ρ c]
  rfl

/-- AFTER THE REGION the array of the projected values holds the projection of the launch arguments. -/
theorem vp_eq (c : Dev nD) :
    Gen.W2 (F := Ideal) m ρ c (Proc.devRef .tc main_v3_2)
      = fun idx => proj (m ((c : Thread nD τ).loc main_arg2)) (m ((c : Thread nD τ).loc main_arg7))
          (m ((c : Thread nD τ).loc main_arg8)) (idx 0) (idx 1) := by
  refine (W2_arr m ρ c 11).trans ?_
  rw [arr11 (V1 m ρ) c]
  show projArr (V1 m ρ c main_arg2) (V1 m ρ c main_v2) (V1 m ρ c main_arg8) = _
  rw [entry_main_arg2 m ρ c, entry_main_v2 m ρ c, entry_main_arg8 m ρ c]
  rfl

end Run

end Cert.Attn.R0

end
-- ==== Proof.HostGlue.lean ====
/-
  What the second region finds at its entry.  Between the two regions one host operation runs: the narrowing of the
  output layer's weight matrix, which is the identity on ideal values.  So at the second region's entry the three
  projected arrays hold what the first region left in them, the narrowed weight matrix holds the launch argument's
  contents, and the output layer's bias vector is the launch argument itself: no host operation and no array of the
  first region writes either argument, so their contents walk back to the launch memory.
-/
import proofs.«129372_j77472620085715_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.Attn.Glue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The host operation between the regions does not write the projected queries. -/
theorem v3_qp (c : Dev nD) :
    Gen.V3 (F := Ideal) m ρ c main_v3_0 = Gen.W2 (F := Ideal) m ρ c (Proc.devRef .tc main_v3_0) := by
  dsimp only [Gen.V3, Gen.W3, Gen.hostOps1]; after_results

/-- The host operation between the regions does not write the projected keys. -/
theorem v3_kp (c : Dev nD) :
    Gen.V3 (F := Ideal) m ρ c main_v3_1 = Gen.W2 (F := Ideal) m ρ c (Proc.devRef .tc main_v3_1) := by
  dsimp only [Gen.V3, Gen.W3, Gen.hostOps1]; after_results

/-- The host operation between the regions does not write the projected values. -/
theorem v3_vp (c : Dev nD) :
    Gen.V3 (F := Ideal) m ρ c main_v3_2 = Gen.W2 (F := Ideal) m ρ c (Proc.devRef .tc main_v3_2) := by
  dsimp only [Gen.V3, Gen.W3, Gen.hostOps1]; after_results

/-- The output layer's weight matrix at the first region's exit is the launch argument: neither the first region nor
    the host operations before it write it. -/
theorem w2_arg9 (c : Dev nD) :
    Gen.W2 (F := Ideal) m ρ c (Proc.devRef .tc main_arg9) = m ((c : Thread nD τ).loc main_arg9) :=
  calc Gen.W2 (F := Ideal) m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The output layer's bias vector at the first region's exit is the launch argument. -/
theorem w2_arg10 (c : Dev nD) :
    Gen.W2 (F := Ideal) m ρ c (Proc.devRef .tc main_arg10) = m ((c : Thread nD τ).loc main_arg10) :=
  calc Gen.W2 (F := Ideal) m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The weight matrix the second region reads was written as the narrowing of the launch argument, the identity on
    ideal values. -/
theorem v3_wo (c : Dev nD) :
    (Gen.V3 (F := Ideal) m ρ c main_v4 : S512x512.Idx → EReal) = m ((c : Thread nD τ).loc main_arg9) := by
  dsimp only [Gen.V3, Gen.W3, Gen.hostOps1]; after_results
  rw [w2_arg9 m ρ c]
  rfl

/-- The bias vector the second region reads is the launch argument. -/
theorem v3_bo (c : Dev nD) :
    Gen.V3 (F := Ideal) m ρ c main_arg10 = m ((c : Thread nD τ).loc main_arg10) := by
  dsimp only [Gen.V3, Gen.W3, Gen.hostOps1]; after_results
  exact w2_arg10 m ρ c

end Cert.Attn.Glue

end
-- ==== Proof.Region1Defs.lean ====
/-
  The attention kernel's body as whole-block operations: the scores of a tile of projected queries
  against a chunk of projected keys, a chunk's row maxima and shifted row sums, one step of the
  running maximum and of the running denominator, the walk over a list of chunks, the reciprocal of
  the final denominator, a chunk's weights, a chunk's contribution to the mixed values, and the
  output layer.
-/
import proofs.«129372_j77472620085715_2_alg».proof.Proof.Gen.KernelIdeal.Skeleton

noncomputable section

open Idealize.ShloMosaic Idealize.ShloMosaic.TcCoe Idealize.SL.Sem

namespace Cert.Attn.R1

open Cert.KernelIdeal Cert.KernelIdeal.Gen

variable {F : FTy → Type} [FloatOps F]

/-- The scores of a tile of projected queries against one chunk of projected keys. -/
def sc (q : FVec F S256x512 .bf16) (kc : Vec F S1024x512 .bf16) : FVec F S256x1024 .f32 :=
  matmul dot_S256x512_S1024x512_S256x1024_1_1_0_0_n_n none q (shapeCast S1024x512 kc shapeCasts_S1024x512_S1024x512)
    (constant S256x1024 .f32 0x00000000#32)

/-- The greatest score of each row of a chunk, as a column. -/
def cmax (s : FVec F S256x1024 .f32) : FVec F S256x1 .f32 :=
  shapeCast S256x1 (multiReduction .maximumf [1] S256 s 0xFF800000#32 reduces_S256x1024_S256 (.inl rfl) rfl) shapeCasts_S256_S256x1

/-- The sum along each row of a chunk of the exponentials of the scores shifted by a column m. -/
def csum (s : FVec F S256x1024 .f32) (m : FVec F S256x1 .f32) : FVec F S256x1 .f32 :=
  shapeCast S256x1 (multiReduction .add [1] S256 (exp (subf s (broadcastTo S256x1024 m broadcasts_S256x1_S256x1024)))
    0x00000000#32 reduces_S256x1024_S256 (.inl rfl) rfl) shapeCasts_S256_S256x1

/-- The running maximum after one more chunk. -/
def mNext (m : FVec F S256x1 .f32) (s : FVec F S256x1024 .f32) : FVec F S256x1 .f32 := maximumf m (cmax s)

/-- The running denominator after one more chunk: the old one rescaled to the new maximum, plus the chunk's. -/
def lNext (m l : FVec F S256x1 .f32) (s : FVec F S256x1024 .f32) : FVec F S256x1 .f32 :=
  addf (mulf (exp (subf m (mNext m s))) l) (csum s (mNext m s))

/-- The starting maximum: minus infinity in every row. -/
def m0 : FVec F S256x1 .f32 := broadcast S256x1 (Scalar.ofBits .f32 0xFF800000#32)
/-- The starting denominator: zero in every row. -/
def l0 : FVec F S256x1 .f32 := broadcast S256x1 (Scalar.ofBits .f32 0x00000000#32)

/-- The running (maximum, denominator) after the chunks of a list, first to last. -/
def walk (ss : List (FVec F S256x1024 .f32)) : FVec F S256x1 .f32 × FVec F S256x1 .f32 :=
  ss.foldl (fun st s => (mNext st.1 s, lNext st.1 st.2 s)) (m0, l0)

/-- The reciprocal of the final denominator. -/
def recip (l : FVec F S256x1 .f32) : FVec F S256x1 .f32 := divf (broadcast S256x1 (Scalar.ofBits .f32 0x3F800000#32)) l

/-- The weights of a chunk: the exponentials of the scores shifted by the final maximum, times the reciprocal. -/
def wch (m il : FVec F S256x1 .f32) (s : Vec F S256x1024 .f32) : FVec F S256x1024 .f32 :=
  mulf (exp (subf (shapeCast S256x1024 s shapeCasts_S256x1024_S256x1024) (broadcastTo S256x1024 m broadcasts_S256x1_S256x1024)))
    (broadcastTo S256x1024 il broadcasts_S256x1_S256x1024)

/-- One chunk's contribution to the mixed values. -/
def mixc (w : FVec F S256x1024 .f32) (vc : Vec F S1024x512 .bf16) : FVec F S256x512 .f32 :=
  matmul dot_S256x1024_S1024x512_S256x512_1_0_0_1_n_n none (truncf .bf16 w bitsLt_bf16_f32)
    (shapeCast S1024x512 vc shapeCasts_S1024x512_S1024x512) (constant S256x512 .f32 0x00000000#32)

/-- The tile of projected queries as the body reads it. -/
def qOf (x0 : Vec F S256x512 .bf16) : FVec F S256x512 .bf16 := shapeCast S256x512 x0 shapeCasts_S256x512_S256x512

/-- The output layer on the mixed values: a·Woᵀ + bo. -/
def outLayer (a : FVec F S256x512 .f32) (wo : Vec F S512x512 .bf16) (bo : Vec F S512 .f32) : FVec F S256x512 .f32 :=
  addf (matmul dot_S256x512_S512x512_S256x512_1_1_0_0_n_n none (truncf .bf16 a bitsLt_bf16_f32)
      (shapeCast S512x512 wo shapeCasts_S512x512_S512x512) (constant S256x512 .f32 0x00000000#32))
    (broadcastTo S256x512 (shapeCast S1x512 bo shapeCasts_S512_S1x512) broadcasts_S1x512_S256x512)

/-- The starting accumulator of the mixed values: zero. -/
def acc0 : FVec F S256x512 .f32 := broadcast S256x512 (Scalar.ofBits .f32 0x00000000#32)

/-- The mixed values accumulated over a list of (weights, value chunk) pairs, first to last. -/
def accWalk (ps : List (FVec F S256x1024 .f32 × Vec F S1024x512 .bf16)) : FVec F S256x512 .f32 :=
  ps.foldl (fun a p => addf a (mixc p.1 p.2)) acc0

end Cert.Attn.R1

end
-- ==== Proof.Region1Vec.lean ====
/-
  What the attention kernel's run leaves in its two result blocks, as whole-block operations of the
  blocks it loads.

  The body stores the raw scores of each of the eight key chunks into the weights' block during its
  first pass, and in the second pass reads a chunk back, turns it into weights and stores those over
  it.  A read of chunk c finds the first pass's store of chunk c: every store made in between went to
  other columns.  So each stored chunk of weights is the weights operation of the first pass's scores
  of that chunk, the walk's final maximum and the reciprocal of its final denominator; and the output
  block is the output layer of the mixed values accumulated over the eight chunks.
-/
import proofs.«129372_j77472620085715_2_alg».proof.Proof.Gen.KernelIdeal.Frame
import proofs.«129372_j77472620085715_2_alg».proof.Proof.Region1Defs
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Attn.R1

open Cert.KernelIdeal Cert.KernelIdeal.Gen

variable {F : FTy → Type} [FloatOps F]

/-- A load of the 1024 columns from b, after a store to the 1024 columns from a, another chunk: the
    store is not seen. -/
theorem skipLoad (v : View sig .tc .vmem S256x8192 .f32) (a b : Nat)
    (ha : ∀ x, (![0, a] : Fin 2 → Nat) x + S256x1024.size x ≤ S256x8192.size x)
    (hb : ∀ x, (![0, b] : Fin 2 → Nat) x + S256x1024.size x ≤ S256x8192.size x)
    (w : (Rect.unit (s := S256x8192) ![0, a] S256x1024.size ha).shape.Idx → Elt F .f32)
    (L : List (View.Piece (Elt F) S256x8192 .f32)) (h : a + 1024 ≤ b ∨ b + 1024 ≤ a) :
    v.readCov (⟨Rect.unit (s := S256x8192) ![0, a] S256x1024.size ha, w⟩ :: L)
        (Rect.unit (s := S256x8192) ![0, b] S256x1024.size hb).toLoadRect
      = v.readCov L (Rect.unit (s := S256x8192) ![0, b] S256x1024.size hb).toLoadRect :=
  View.readCov_cons_of_disjoint v _ L _
    (Rect.unit_disjoint (s := S256x8192) (off := ![0, a]) (size := S256x1024.size) (off' := ![0, b])
      (size' := S256x1024.size) (inb := ha) (inb' := hb) 1 h)

/-- The scores of the eight chunks, in order, from the loaded tile and key chunks. -/
abbrev chunkScores (arg1 : Memref sig .tc .vmem S256x512 .bf16) (harg1 : arg1.IsWhole) (arg2 : Memref sig .tc .vmem S8192x512 .bf16) (harg2 : arg2.IsWhole) (x0 : Vec F S256x512 .bf16) (x1 : Vec F S8192x512 .bf16) : List (FVec F S256x1024 .f32) :=
    [(sc (qOf (View.readAt (Elt F) arg1.view (Rect.unit (s := S256x512) ![0, 0] S256x512.size inb_S256x512_S256x512_0_0).toLoadRect (harg1.unread x0))) (View.readAt (Elt F) arg2.view (Rect.unit (s := S8192x512) ![0, 0] S1024x512.size (Rect.inb₂ (by decide) (by decide))).toLoadRect (harg2.unread x1))),
      (sc (qOf (View.readAt (Elt F) arg1.view (Rect.unit (s := S256x512) ![0, 0] S256x512.size inb_S256x512_S256x512_0_0).toLoadRect (harg1.unread x0))) (View.readAt (Elt F) arg2.view (Rect.unit (s := S8192x512) ![1024, 0] S1024x512.size (Rect.inb₂ (by decide) (by decide))).toLoadRect (harg2.unread x1))),
      (sc (qOf (View.readAt (Elt F) arg1.view (Rect.unit (s := S256x512) ![0, 0] S256x512.size inb_S256x512_S256x512_0_0).toLoadRect (harg1.unread x0))) (View.readAt (Elt F) arg2.view (Rect.unit (s := S8192x512) ![2048, 0] S1024x512.size (Rect.inb₂ (by decide) (by decide))).toLoadRect (harg2.unread x1))),
      (sc (qOf (View.readAt (Elt F) arg1.view (Rect.unit (s := S256x512) ![0, 0] S256x512.size inb_S256x512_S256x512_0_0).toLoadRect (harg1.unread x0))) (View.readAt (Elt F) arg2.view (Rect.unit (s := S8192x512) ![3072, 0] S1024x512.size (Rect.inb₂ (by decide) (by decide))).toLoadRect (harg2.unread x1))),
      (sc (qOf (View.readAt (Elt F) arg1.view (Rect.unit (s := S256x512) ![0, 0] S256x512.size inb_S256x512_S256x512_0_0).toLoadRect (harg1.unread x0))) (View.readAt (Elt F) arg2.view (Rect.unit (s := S8192x512) ![4096, 0] S1024x512.size (Rect.inb₂ (by decide) (by decide))).toLoadRect (harg2.unread x1))),
      (sc (qOf (View.readAt (Elt F) arg1.view (Rect.unit (s := S256x512) ![0, 0] S256x512.size inb_S256x512_S256x512_0_0).toLoadRect (harg1.unread x0))) (View.readAt (Elt F) arg2.view (Rect.unit (s := S8192x512) ![5120, 0] S1024x512.size (Rect.inb₂ (by decide) (by decide))).toLoadRect (harg2.unread x1))),
      (sc (qOf (View.readAt (Elt F) arg1.view (Rect.unit (s := S256x512) ![0, 0] S256x512.size inb_S256x512_S256x512_0_0).toLoadRect (harg1.unread x0))) (View.readAt (Elt F) arg2.view (Rect.unit (s := S8192x512) ![6144, 0] S1024x512.size (Rect.inb₂ (by decide) (by decide))).toLoadRect (harg2.unread x1))),
      (sc (qOf (View.readAt (Elt F) arg1.view (Rect.unit (s := S256x512) ![0, 0] S256x512.size inb_S256x512_S256x512_0_0).toLoadRect (harg1.unread x0))) (View.readAt (Elt F) arg2.view (Rect.unit (s := S8192x512) ![7168, 0] S1024x512.size (Rect.inb₂ (by decide) (by decide))).toLoadRect (harg2.unread x1)))]

theorem hz2 : (![0, 0] : Fin 2 → Nat) = fun _ => 0 := funext fun a => by fin_cases a <;> rfl

/-- The final row maximum the run computes is the walk's over the eight chunks. -/
theorem top_eq (c : Dev nD) (arg1 : Memref sig .tc .vmem S256x512 .bf16) (harg1 : arg1.IsWhole) (arg2 : Memref sig .tc .vmem S8192x512 .bf16) (harg2 : arg2.IsWhole) (x0 : Vec F S256x512 .bf16) (x1 : Vec F S8192x512 .bf16) :
    kernelRun1_A.sl.r_9 c arg1 harg1 arg2 harg2 x0 x1 = (walk (chunkScores arg1 harg1 arg2 harg2 x0 x1)).1 := rfl

/-- The reciprocal the run computes is that of the walk's final denominator. -/
theorem recip_eq (c : Dev nD) (arg1 : Memref sig .tc .vmem S256x512 .bf16) (harg1 : arg1.IsWhole) (arg2 : Memref sig .tc .vmem S8192x512 .bf16) (harg2 : arg2.IsWhole) (x0 : Vec F S256x512 .bf16) (x1 : Vec F S8192x512 .bf16) :
    kernelRun1_A.sl.r_10 c arg1 harg1 arg2 harg2 x0 x1 = recip (walk (chunkScores arg1 harg1 arg2 harg2 x0 x1)).2 := rfl

/-- The second pass reads back chunk 0 of the raw scores: every store made since went to other columns. -/
theorem raw0_eq (c : Dev nD) (arg1 : Memref sig .tc .vmem S256x512 .bf16) (harg1 : arg1.IsWhole) (arg2 : Memref sig .tc .vmem S8192x512 .bf16) (harg2 : arg2.IsWhole) (arg7 : Memref sig .tc .vmem S256x8192 .f32) (x0 : Vec F S256x512 .bf16) (x1 : Vec F S8192x512 .bf16) :
    kernelRun1_A.sl.v170 c arg1 harg1 arg2 harg2 arg7 x0 x1 = (sc (qOf (View.readAt (Elt F) arg1.view (Rect.unit (s := S256x512) ![0, 0] S256x512.size inb_S256x512_S256x512_0_0).toLoadRect (harg1.unread x0))) (View.readAt (Elt F) arg2.view (Rect.unit (s := S8192x512) ![0, 0] S1024x512.size (Rect.inb₂ (by decide) (by decide))).toLoadRect (harg2.unread x1))) := by
  unfold kernelRun1_A.sl.v170 kernelRun1_A.sl.H6_8
  refine (skipLoad _ 7168 0 _ _ _ _ (by decide)).trans ?_
  refine (skipLoad _ 6144 0 _ _ _ _ (by decide)).trans ?_
  refine (skipLoad _ 5120 0 _ _ _ _ (by decide)).trans ?_
  refine (skipLoad _ 4096 0 _ _ _ _ (by decide)).trans ?_
  refine (skipLoad _ 3072 0 _ _ _ _ (by decide)).trans ?_
  refine (skipLoad _ 2048 0 _ _ _ _ (by decide)).trans ?_
  refine (skipLoad _ 1024 0 _ _ _ _ (by decide)).trans ?_
  exact (View.readCov_cons_toLoadRect _ _ _ _).trans rfl

/-- The second pass reads back chunk 1 of the raw scores: every store made since went to other columns. -/
theorem raw1_eq (c : Dev nD) (arg1 : Memref sig .tc .vmem S256x512 .bf16) (harg1 : arg1.IsWhole) (arg2 : Memref sig .tc .vmem S8192x512 .bf16) (harg2 : arg2.IsWhole) (arg7 : Memref sig .tc .vmem S256x8192 .f32) (x0 : Vec F S256x512 .bf16) (x1 : Vec F S8192x512 .bf16) :
    kernelRun1_A.sl.v188 c arg1 harg1 arg2 harg2 arg7 x0 x1 = (sc (qOf (View.readAt (Elt F) arg1.view (Rect.unit (s := S256x512) ![0, 0] S256x512.size inb_S256x512_S256x512_0_0).toLoadRect (harg1.unread x0))) (View.readAt (Elt F) arg2.view (Rect.unit (s := S8192x512) ![1024, 0] S1024x512.size (Rect.inb₂ (by decide) (by decide))).toLoadRect (harg2.unread x1))) := by
  unfold kernelRun1_A.sl.v188 kernelRun1_A.sl.H6_9 kernelRun1_A.sl.H6_8
  refine (skipLoad _ 0 1024 _ _ _ _ (by decide)).trans ?_
  refine (skipLoad _ 7168 1024 _ _ _ _ (by decide)).trans ?_
  refine (skipLoad _ 6144 1024 _ _ _ _ (by decide)).trans ?_
  refine (skipLoad _ 5120 1024 _ _ _ _ (by decide)).trans ?_
  refine (skipLoad _ 4096 1024 _ _ _ _ (by decide)).trans ?_
  refine (skipLoad _ 3072 1024 _ _ _ _ (by decide)).trans ?_
  refine (skipLoad _ 2048 1024 _ _ _ _ (by decide)).trans ?_
  exact (View.readCov_cons_toLoadRect _ _ _ _).trans rfl

/-- The second pass reads back chunk 2 of the raw scores: every store made since went to other columns. -/
theorem raw2_eq (c : Dev nD) (arg1 : Memref sig .tc .vmem S256x512 .bf16) (harg1 : arg1.IsWhole) (arg2 : Memref sig .tc .vmem S8192x512 .bf16) (harg2 : arg2.IsWhole) (arg7 : Memref sig .tc .vmem S256x8192 .f32) (x0 : Vec F S256x512 .bf16) (x1 : Vec F S8192x512 .bf16) :
    kernelRun1_A.sl.v206 c arg1 harg1 arg2 harg2 arg7 x0 x1 = (sc (qOf (View.readAt (Elt F) arg1.view (Rect.unit (s := S256x512) ![0, 0] S256x512.size inb_S256x512_S256x512_0_0).toLoadRect (harg1.unread x0))) (View.readAt (Elt F) arg2.view (Rect.unit (s := S8192x512) ![2048, 0] S1024x512.size (Rect.inb₂ (by decide) (by decide))).toLoadRect (harg2.unread x1))) := by
  unfold kernelRun1_A.sl.v206 kernelRun1_A.sl.H6_10 kernelRun1_A.sl.H6_9 kernelRun1_A.sl.H6_8
  refine (skipLoad _ 1024 2048 _ _ _ _ (by decide)).trans ?_
  refine (skipLoad _ 0 2048 _ _ _ _ (by decide)).trans ?_
  refine (skipLoad _ 7168 2048 _ _ _ _ (by decide)).trans ?_
  refine (skipLoad _ 6144 2048 _ _ _ _ (by decide)).trans ?_
  refine (skipLoad _ 5120 2048 _ _ _ _ (by decide)).trans ?_
  refine (skipLoad _ 4096 2048 _ _ _ _ (by decide)).trans ?_
  refine (skipLoad _ 3072 2048 _ _ _ _ (by decide)).trans ?_
  exact (View.readCov_cons_toLoadRect _ _ _ _).trans rfl

/-- The second pass reads back chunk 3 of the raw scores: every store made since went to other columns. -/
theorem raw3_eq (c : Dev nD) (arg1 : Memref sig .tc .vmem S256x512 .bf16) (harg1 : arg1.IsWhole) (arg2 : Memref sig .tc .vmem S8192x512 .bf16) (harg2 : arg2.IsWhole) (arg7 : Memref sig .tc .vmem S256x8192 .f32) (x0 : Vec F S256x512 .bf16) (x1 : Vec F S8192x512 .bf16) :
    kernelRun1_A.sl.v224 c arg1 harg1 arg2 harg2 arg7 x0 x1 = (sc (qOf (View.readAt (Elt F) arg1.view (Rect.unit (s := S256x512) ![0, 0] S256x512.size inb_S256x512_S256x512_0_0).toLoadRect (harg1.unread x0))) (View.readAt (Elt F) arg2.view (Rect.unit (s := S8192x512) ![3072, 0] S1024x512.size (Rect.inb₂ (by decide) (by decide))).toLoadRect (harg2.unread x1))) := by
  unfold kernelRun1_A.sl.v224 kernelRun1_A.sl.H6_11 kernelRun1_A.sl.H6_10 kernelRun1_A.sl.H6_9 kernelRun1_A.sl.H6_8
  refine (skipLoad _ 2048 3072 _ _ _ _ (by decide)).trans ?_
  refine (skipLoad _ 1024 3072 _ _ _ _ (by decide)).trans ?_
  refine (skipLoad _ 0 3072 _ _ _ _ (by decide)).trans ?_
  refine (skipLoad _ 7168 3072 _ _ _ _ (by decide)).trans ?_
  refine (skipLoad _ 6144 3072 _ _ _ _ (by decide)).trans ?_
  refine (skipLoad _ 5120 3072 _ _ _ _ (by decide)).trans ?_
  refine (skipLoad _ 4096 3072 _ _ _ _ (by decide)).trans ?_
  exact (View.readCov_cons_toLoadRect _ _ _ _).trans rfl

/-- The second pass reads back chunk 4 of the raw scores: every store made since went to other columns. -/
theorem raw4_eq (c : Dev nD) (arg1 : Memref sig .tc .vmem S256x512 .bf16) (harg1 : arg1.IsWhole) (arg2 : Memref sig .tc .vmem S8192x512 .bf16) (harg2 : arg2.IsWhole) (arg7 : Memref sig .tc .vmem S256x8192 .f32) (x0 : Vec F S256x512 .bf16) (x1 : Vec F S8192x512 .bf16) :
    kernelRun1_A.sl.v242 c arg1 harg1 arg2 harg2 arg7 x0 x1 = (sc (qOf (View.readAt (Elt F) arg1.view (Rect.unit (s := S256x512) ![0, 0] S256x512.size inb_S256x512_S256x512_0_0).toLoadRect (harg1.unread x0))) (View.readAt (Elt F) arg2.view (Rect.unit (s := S8192x512) ![4096, 0] S1024x512.size (Rect.inb₂ (by decide) (by decide))).toLoadRect (harg2.unread x1))) := by
  unfold kernelRun1_A.sl.v242 kernelRun1_A.sl.H6_12 kernelRun1_A.sl.H6_11 kernelRun1_A.sl.H6_10 kernelRun1_A.sl.H6_9 kernelRun1_A.sl.H6_8
  refine (skipLoad _ 3072 4096 _ _ _ _ (by decide)).trans ?_
  refine (skipLoad _ 2048 4096 _ _ _ _ (by decide)).trans ?_
  refine (skipLoad _ 1024 4096 _ _ _ _ (by decide)).trans ?_
  refine (skipLoad _ 0 4096 _ _ _ _ (by decide)).trans ?_
  refine (skipLoad _ 7168 4096 _ _ _ _ (by decide)).trans ?_
  refine (skipLoad _ 6144 4096 _ _ _ _ (by decide)).trans ?_
  refine (skipLoad _ 5120 4096 _ _ _ _ (by decide)).trans ?_
  exact (View.readCov_cons_toLoadRect _ _ _ _).trans rfl

/-- The second pass reads back chunk 5 of the raw scores: every store made since went to other columns. -/
theorem raw5_eq (c : Dev nD) (arg1 : Memref sig .tc .vmem S256x512 .bf16) (harg1 : arg1.IsWhole) (arg2 : Memref sig .tc .vmem S8192x512 .bf16) (harg2 : arg2.IsWhole) (arg7 : Memref sig .tc .vmem S256x8192 .f32) (x0 : Vec F S256x512 .bf16) (x1 : Vec F S8192x512 .bf16) :
    kernelRun1_A.sl.v260 c arg1 harg1 arg2 harg2 arg7 x0 x1 = (sc (qOf (View.readAt (Elt F) arg1.view (Rect.unit (s := S256x512) ![0, 0] S256x512.size inb_S256x512_S256x512_0_0).toLoadRect (harg1.unread x0))) (View.readAt (Elt F) arg2.view (Rect.unit (s := S8192x512) ![5120, 0] S1024x512.size (Rect.inb₂ (by decide) (by decide))).toLoadRect (harg2.unread x1))) := by
  unfold kernelRun1_A.sl.v260 kernelRun1_A.sl.H6_13 kernelRun1_A.sl.H6_12 kernelRun1_A.sl.H6_11 kernelRun1_A.sl.H6_10 kernelRun1_A.sl.H6_9 kernelRun1_A.sl.H6_8
  refine (skipLoad _ 4096 5120 _ _ _ _ (by decide)).trans ?_
  refine (skipLoad _ 3072 5120 _ _ _ _ (by decide)).trans ?_
  refine (skipLoad _ 2048 5120 _ _ _ _ (by decide)).trans ?_
  refine (skipLoad _ 1024 5120 _ _ _ _ (by decide)).trans ?_
  refine (skipLoad _ 0 5120 _ _ _ _ (by decide)).trans ?_
  refine (skipLoad _ 7168 5120 _ _ _ _ (by decide)).trans ?_
  refine (skipLoad _ 6144 5120 _ _ _ _ (by decide)).trans ?_
  exact (View.readCov_cons_toLoadRect _ _ _ _).trans rfl

/-- The second pass reads back chunk 6 of the raw scores: every store made since went to other columns. -/
theorem raw6_eq (c : Dev nD) (arg1 : Memref sig .tc .vmem S256x512 .bf16) (harg1 : arg1.IsWhole) (arg2 : Memref sig .tc .vmem S8192x512 .bf16) (harg2 : arg2.IsWhole) (arg7 : Memref sig .tc .vmem S256x8192 .f32) (x0 : Vec F S256x512 .bf16) (x1 : Vec F S8192x512 .bf16) :
    kernelRun1_A.sl.v278 c arg1 harg1 arg2 harg2 arg7 x0 x1 = (sc (qOf (View.readAt (Elt F) arg1.view (Rect.unit (s := S256x512) ![0, 0] S256x512.size inb_S256x512_S256x512_0_0).toLoadRect (harg1.unread x0))) (View.readAt (Elt F) arg2.view (Rect.unit (s := S8192x512) ![6144, 0] S1024x512.size (Rect.inb₂ (by decide) (by decide))).toLoadRect (harg2.unread x1))) := by
  unfold kernelRun1_A.sl.v278 kernelRun1_A.sl.H6_14 kernelRun1_A.sl.H6_13 kernelRun1_A.sl.H6_12 kernelRun1_A.sl.H6_11 kernelRun1_A.sl.H6_10 kernelRun1_A.sl.H6_9 kernelRun1_A.sl.H6_8
  refine (skipLoad _ 5120 6144 _ _ _ _ (by decide)).trans ?_
  refine (skipLoad _ 4096 6144 _ _ _ _ (by decide)).trans ?_
  refine (skipLoad _ 3072 6144 _ _ _ _ (by decide)).trans ?_
  refine (skipLoad _ 2048 6144 _ _ _ _ (by decide)).trans ?_
  refine (skipLoad _ 1024 6144 _ _ _ _ (by decide)).trans ?_
  refine (skipLoad _ 0 6144 _ _ _ _ (by decide)).trans ?_
  refine (skipLoad _ 7168 6144 _ _ _ _ (by decide)).trans ?_
  exact (View.readCov_cons_toLoadRect _ _ _ _).trans rfl

/-- The second pass reads back chunk 7 of the raw scores: every store made since went to other columns. -/
theorem raw7_eq (c : Dev nD) (arg1 : Memref sig .tc .vmem S256x512 .bf16) (harg1 : arg1.IsWhole) (arg2 : Memref sig .tc .vmem S8192x512 .bf16) (harg2 : arg2.IsWhole) (arg7 : Memref sig .tc .vmem S256x8192 .f32) (x0 : Vec F S256x512 .bf16) (x1 : Vec F S8192x512 .bf16) :
    kernelRun1_A.sl.v296 c arg1 harg1 arg2 harg2 arg7 x0 x1 = (sc (qOf (View.readAt (Elt F) arg1.view (Rect.unit (s := S256x512) ![0, 0] S256x512.size inb_S256x512_S256x512_0_0).toLoadRect (harg1.unread x0))) (View.readAt (Elt F) arg2.view (Rect.unit (s := S8192x512) ![7168, 0] S1024x512.size (Rect.inb₂ (by decide) (by decide))).toLoadRect (harg2.unread x1))) := by
  unfold kernelRun1_A.sl.v296 kernelRun1_A.sl.H6_15 kernelRun1_A.sl.H6_14 kernelRun1_A.sl.H6_13 kernelRun1_A.sl.H6_12 kernelRun1_A.sl.H6_11 kernelRun1_A.sl.H6_10 kernelRun1_A.sl.H6_9 kernelRun1_A.sl.H6_8
  refine (skipLoad _ 6144 7168 _ _ _ _ (by decide)).trans ?_
  refine (skipLoad _ 5120 7168 _ _ _ _ (by decide)).trans ?_
  refine (skipLoad _ 4096 7168 _ _ _ _ (by decide)).trans ?_
  refine (skipLoad _ 3072 7168 _ _ _ _ (by decide)).trans ?_
  refine (skipLoad _ 2048 7168 _ _ _ _ (by decide)).trans ?_
  refine (skipLoad _ 1024 7168 _ _ _ _ (by decide)).trans ?_
  refine (skipLoad _ 0 7168 _ _ _ _ (by decide)).trans ?_
  exact (View.readCov_cons_toLoadRect _ _ _ _).trans rfl

end Cert.Attn.R1
end
-- ==== Proof.Region1Out.lean ====
/-
  The two result blocks of the attention kernel's body, read entry by entry of the weights' block and
  as one block operation for the output block.
-/
import proofs.«129372_j77472620085715_2_alg».proof.Proof.Region1Vec
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Attn.R1

open Cert.KernelIdeal Cert.KernelIdeal.Gen

variable {F : FTy → Type} [FloatOps F]

/-- An entry outside the 1024 columns from a is not touched by a store to those columns. -/
theorem canon_skip (a : Nat) (sz : Fin 2 → Nat) (hsz : sz 1 = 1024)
    (ha : ∀ x, (![0, a] : Fin 2 → Nat) x + sz x ≤ S256x8192.size x)
    (w : (Rect.unit (s := S256x8192) ![0, a] sz ha).shape.Idx → Elt F .f32)
    (L : List (View.Piece (Elt F) S256x8192 .f32)) (r : Fin 256) (col : Fin 8192)
    (h : col.val < a ∨ a + 1024 ≤ col.val) :
    View.canon (⟨Rect.unit (s := S256x8192) ![0, a] sz ha, w⟩ :: L) (ix2 r col) = View.canon L (ix2 r col) :=
  View.canon_cons_of_not_mem _ L fun hm => by
    have hm' : ix2 r col ∈ (Rect.unit (s := S256x8192) ![0, a] sz ha).set := hm
    obtain ⟨hlo, hhi⟩ := (Rect.mem_set_unit.mp hm') 1
    change a ≤ col.val at hlo
    change col.val < a + sz 1 at hhi
    rw [hsz] at hhi
    omega

/-- An entry in the 1024 columns from a reads the last store to those columns. -/
theorem canon_hit (a : Nat) (ha : ∀ x, (![0, a] : Fin 2 → Nat) x + (![256, 1024] : Fin 2 → Nat) x ≤ S256x8192.size x)
    (w : (Rect.unit (s := S256x8192) ![0, a] ![256, 1024] ha).shape.Idx → Elt F .f32)
    (L : List (View.Piece (Elt F) S256x8192 .f32)) (r : Fin 256) (j : Fin 1024) (hcol : a + j.val < 8192) :
    View.canon (⟨Rect.unit (s := S256x8192) ![0, a] ![256, 1024] ha, w⟩ :: L) (ix2 r (⟨a + j.val, hcol⟩ : Fin 8192))
      = w (ix2 r j) := by
  have e : (ix2 r (⟨a + j.val, hcol⟩ : Fin 8192) : S256x8192.Idx)
      = (Rect.unit (s := S256x8192) ![0, a] ![256, 1024] ha).emb (ix2 r j) := by
    funext x
    apply Fin.ext
    match x with
    | ⟨0, _⟩ => show r.val = 0 + 1 * r.val; omega
    | ⟨1, _⟩ => show a + j.val = a + 1 * j.val; omega
  rw [e]
  exact View.canon_cons_emb _ w L _

/-- Chunk 0 of the weights' block after the body: the weights of the first pass's scores of chunk 0. -/
theorem weights0_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) (r : Fin 256) (j : Fin 1024) :
    out1_A_6 c i arg1 harg1 arg2 harg2 arg3 harg3 arg4 harg4 arg5 harg5 arg6 harg6 arg7 harg7 x0 x1 x2 x3 x4 (ix2 r (⟨0 + j.val, by have := j.isLt; omega⟩ : Fin 8192))
      = wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![0, 0] S1024x512.size (Rect.inb₂ (by decide) (by decide))).toLoadRect (harg2.unread x1))) (ix2 r j) := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  unfold kernelRun1_A.sl.H6_15 kernelRun1_A.sl.H6_14 kernelRun1_A.sl.H6_13 kernelRun1_A.sl.H6_12 kernelRun1_A.sl.H6_11 kernelRun1_A.sl.H6_10 kernelRun1_A.sl.H6_9
  refine (canon_skip 7168 _ rfl _ _ _ r _ (by have := j.isLt; dsimp only; omega)).trans ?_
  refine (canon_skip 6144 _ rfl _ _ _ r _ (by have := j.isLt; dsimp only; omega)).trans ?_
  refine (canon_skip 5120 _ rfl _ _ _ r _ (by have := j.isLt; dsimp only; omega)).trans ?_
  refine (canon_skip 4096 _ rfl _ _ _ r _ (by have := j.isLt; dsimp only; omega)).trans ?_
  refine (canon_skip 3072 _ rfl _ _ _ r _ (by have := j.isLt; dsimp only; omega)).trans ?_
  refine (canon_skip 2048 _ rfl _ _ _ r _ (by have := j.isLt; dsimp only; omega)).trans ?_
  refine (canon_skip 1024 _ rfl _ _ _ r _ (by have := j.isLt; dsimp only; omega)).trans ?_
  refine (canon_hit 0 _ _ _ r j _).trans ?_
  rw [raw0_eq, top_eq, recip_eq]
  rfl

/-- Chunk 1 of the weights' block after the body: the weights of the first pass's scores of chunk 1. -/
theorem weights1_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) (r : Fin 256) (j : Fin 1024) :
    out1_A_6 c i arg1 harg1 arg2 harg2 arg3 harg3 arg4 harg4 arg5 harg5 arg6 harg6 arg7 harg7 x0 x1 x2 x3 x4 (ix2 r (⟨1024 + j.val, by have := j.isLt; omega⟩ : Fin 8192))
      = wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![1024, 0] S1024x512.size (Rect.inb₂ (by decide) (by decide))).toLoadRect (harg2.unread x1))) (ix2 r j) := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  unfold kernelRun1_A.sl.H6_15 kernelRun1_A.sl.H6_14 kernelRun1_A.sl.H6_13 kernelRun1_A.sl.H6_12 kernelRun1_A.sl.H6_11 kernelRun1_A.sl.H6_10
  refine (canon_skip 7168 _ rfl _ _ _ r _ (by have := j.isLt; dsimp only; omega)).trans ?_
  refine (canon_skip 6144 _ rfl _ _ _ r _ (by have := j.isLt; dsimp only; omega)).trans ?_
  refine (canon_skip 5120 _ rfl _ _ _ r _ (by have := j.isLt; dsimp only; omega)).trans ?_
  refine (canon_skip 4096 _ rfl _ _ _ r _ (by have := j.isLt; dsimp only; omega)).trans ?_
  refine (canon_skip 3072 _ rfl _ _ _ r _ (by have := j.isLt; dsimp only; omega)).trans ?_
  refine (canon_skip 2048 _ rfl _ _ _ r _ (by have := j.isLt; dsimp only; omega)).trans ?_
  refine (canon_hit 1024 _ _ _ r j _).trans ?_
  rw [raw1_eq, top_eq, recip_eq]
  rfl

/-- Chunk 2 of the weights' block after the body: the weights of the first pass's scores of chunk 2. -/
theorem weights2_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) (r : Fin 256) (j : Fin 1024) :
    out1_A_6 c i arg1 harg1 arg2 harg2 arg3 harg3 arg4 harg4 arg5 harg5 arg6 harg6 arg7 harg7 x0 x1 x2 x3 x4 (ix2 r (⟨2048 + j.val, by have := j.isLt; omega⟩ : Fin 8192))
      = wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![2048, 0] S1024x512.size (Rect.inb₂ (by decide) (by decide))).toLoadRect (harg2.unread x1))) (ix2 r j) := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  unfold kernelRun1_A.sl.H6_15 kernelRun1_A.sl.H6_14 kernelRun1_A.sl.H6_13 kernelRun1_A.sl.H6_12 kernelRun1_A.sl.H6_11
  refine (canon_skip 7168 _ rfl _ _ _ r _ (by have := j.isLt; dsimp only; omega)).trans ?_
  refine (canon_skip 6144 _ rfl _ _ _ r _ (by have := j.isLt; dsimp only; omega)).trans ?_
  refine (canon_skip 5120 _ rfl _ _ _ r _ (by have := j.isLt; dsimp only; omega)).trans ?_
  refine (canon_skip 4096 _ rfl _ _ _ r _ (by have := j.isLt; dsimp only; omega)).trans ?_
  refine (canon_skip 3072 _ rfl _ _ _ r _ (by have := j.isLt; dsimp only; omega)).trans ?_
  refine (canon_hit 2048 _ _ _ r j _).trans ?_
  unfold kernelRun1_A.sl.r_12
  rw [raw2_eq, top_eq, recip_eq]
  rfl

/-- Chunk 3 of the weights' block after the body: the weights of the first pass's scores of chunk 3. -/
theorem weights3_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) (r : Fin 256) (j : Fin 1024) :
    out1_A_6 c i arg1 harg1 arg2 harg2 arg3 harg3 arg4 harg4 arg5 harg5 arg6 harg6 arg7 harg7 x0 x1 x2 x3 x4 (ix2 r (⟨3072 + j.val, by have := j.isLt; omega⟩ : Fin 8192))
      = wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![3072, 0] S1024x512.size (Rect.inb₂ (by decide) (by decide))).toLoadRect (harg2.unread x1))) (ix2 r j) := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  unfold kernelRun1_A.sl.H6_15 kernelRun1_A.sl.H6_14 kernelRun1_A.sl.H6_13 kernelRun1_A.sl.H6_12
  refine (canon_skip 7168 _ rfl _ _ _ r _ (by have := j.isLt; dsimp only; omega)).trans ?_
  refine (canon_skip 6144 _ rfl _ _ _ r _ (by have := j.isLt; dsimp only; omega)).trans ?_
  refine (canon_skip 5120 _ rfl _ _ _ r _ (by have := j.isLt; dsimp only; omega)).trans ?_
  refine (canon_skip 4096 _ rfl _ _ _ r _ (by have := j.isLt; dsimp only; omega)).trans ?_
  refine (canon_hit 3072 _ _ _ r j _).trans ?_
  rw [raw3_eq, top_eq, recip_eq]
  rfl

/-- Chunk 4 of the weights' block after the body: the weights of the first pass's scores of chunk 4. -/
theorem weights4_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) (r : Fin 256) (j : Fin 1024) :
    out1_A_6 c i arg1 harg1 arg2 harg2 arg3 harg3 arg4 harg4 arg5 harg5 arg6 harg6 arg7 harg7 x0 x1 x2 x3 x4 (ix2 r (⟨4096 + j.val, by have := j.isLt; omega⟩ : Fin 8192))
      = wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![4096, 0] S1024x512.size (Rect.inb₂ (by decide) (by decide))).toLoadRect (harg2.unread x1))) (ix2 r j) := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  unfold kernelRun1_A.sl.H6_15 kernelRun1_A.sl.H6_14 kernelRun1_A.sl.H6_13
  refine (canon_skip 7168 _ rfl _ _ _ r _ (by have := j.isLt; dsimp only; omega)).trans ?_
  refine (canon_skip 6144 _ rfl _ _ _ r _ (by have := j.isLt; dsimp only; omega)).trans ?_
  refine (canon_skip 5120 _ rfl _ _ _ r _ (by have := j.isLt; dsimp only; omega)).trans ?_
  refine (canon_hit 4096 _ _ _ r j _).trans ?_
  rw [raw4_eq, top_eq, recip_eq]
  rfl

/-- Chunk 5 of the weights' block after the body: the weights of the first pass's scores of chunk 5. -/
theorem weights5_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) (r : Fin 256) (j : Fin 1024) :
    out1_A_6 c i arg1 harg1 arg2 harg2 arg3 harg3 arg4 harg4 arg5 harg5 arg6 harg6 arg7 harg7 x0 x1 x2 x3 x4 (ix2 r (⟨5120 + j.val, by have := j.isLt; omega⟩ : Fin 8192))
      = wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![5120, 0] S1024x512.size (Rect.inb₂ (by decide) (by decide))).toLoadRect (harg2.unread x1))) (ix2 r j) := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  unfold kernelRun1_A.sl.H6_15 kernelRun1_A.sl.H6_14
  refine (canon_skip 7168 _ rfl _ _ _ r _ (by have := j.isLt; dsimp only; omega)).trans ?_
  refine (canon_skip 6144 _ rfl _ _ _ r _ (by have := j.isLt; dsimp only; omega)).trans ?_
  refine (canon_hit 5120 _ _ _ r j _).trans ?_
  rw [raw5_eq, top_eq, recip_eq]
  rfl

/-- Chunk 6 of the weights' block after the body: the weights of the first pass's scores of chunk 6. -/
theorem weights6_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) (r : Fin 256) (j : Fin 1024) :
    out1_A_6 c i arg1 harg1 arg2 harg2 arg3 harg3 arg4 harg4 arg5 harg5 arg6 harg6 arg7 harg7 x0 x1 x2 x3 x4 (ix2 r (⟨6144 + j.val, by have := j.isLt; omega⟩ : Fin 8192))
      = wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![6144, 0] S1024x512.size (Rect.inb₂ (by decide) (by decide))).toLoadRect (harg2.unread x1))) (ix2 r j) := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  unfold kernelRun1_A.sl.H6_15
  refine (canon_skip 7168 _ rfl _ _ _ r _ (by have := j.isLt; dsimp only; omega)).trans ?_
  refine (canon_hit 6144 _ _ _ r j _).trans ?_
  rw [raw6_eq, top_eq, recip_eq]
  rfl

/-- Chunk 7 of the weights' block after the body: the weights of the first pass's scores of chunk 7. -/
theorem weights7_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) (r : Fin 256) (j : Fin 1024) :
    out1_A_6 c i arg1 harg1 arg2 harg2 arg3 harg3 arg4 harg4 arg5 harg5 arg6 harg6 arg7 harg7 x0 x1 x2 x3 x4 (ix2 r (⟨7168 + j.val, by have := j.isLt; omega⟩ : Fin 8192))
      = wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![7168, 0] S1024x512.size (Rect.inb₂ (by decide) (by decide))).toLoadRect (harg2.unread x1))) (ix2 r j) := by
  unfold out1_A_6
  rw [View.read_writes_eq_canon _ _ _ (cover1_A_6 c i arg1 harg1 arg2 harg2 arg3 harg3 arg4 harg4 arg5 harg5 arg6 harg6 arg7 harg7 x0 x1 x2 x3 x4)]
  unfold kernelRun1_A
  dsimp only
  refine (canon_hit 7168 _ _ _ r j _).trans ?_
  rw [raw7_eq, top_eq, recip_eq]
  rfl

/-- The output block after the body: the output layer of the mixed values accumulated over the eight chunks. -/
theorem outBlock_eq (c : Dev nD) (i : grid1.Coords) (arg1 : Memref sig .tc .vmem S256x512 .bf16) (harg1 : arg1.IsWhole) (arg2 : Memref sig .tc .vmem S8192x512 .bf16) (harg2 : arg2.IsWhole) (arg3 : Memref sig .tc .vmem S8192x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S256x512 .f32) (harg6 : arg6.IsWhole) (arg7 : Memref sig .tc .vmem S256x8192 .f32) (harg7 : arg7.IsWhole)
    (x0 : Vec F S256x512 .bf16) (x1 : Vec F S8192x512 .bf16) (x2 : Vec F S8192x512 .bf16) (x3 : Vec F S512x512 .bf16) (x4 : Vec F S512 .f32) :
    out1_A_5 c i arg1 harg1 arg2 harg2 arg3 harg3 arg4 harg4 arg5 harg5 arg6 harg6 arg7 harg7 x0 x1 x2 x3 x4
      = outLayer (accWalk [(wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![0, 0] S1024x512.size (Rect.inb₂ (by decide) (by decide))).toLoadRect (harg2.unread x1))), (View.readAt (Elt F) arg3.view (Rect.unit (s := S8192x512) ![0, 0] S1024x512.size (Rect.inb₂ (by decide) (by decide))).toLoadRect (harg3.unread x2))),
      (wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![1024, 0] S1024x512.size (Rect.inb₂ (by decide) (by decide))).toLoadRect (harg2.unread x1))), (View.readAt (Elt F) arg3.view (Rect.unit (s := S8192x512) ![1024, 0] S1024x512.size (Rect.inb₂ (by decide) (by decide))).toLoadRect (harg3.unread x2))),
      (wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![2048, 0] S1024x512.size (Rect.inb₂ (by decide) (by decide))).toLoadRect (harg2.unread x1))), (View.readAt (Elt F) arg3.view (Rect.unit (s := S8192x512) ![2048, 0] S1024x512.size (Rect.inb₂ (by decide) (by decide))).toLoadRect (harg3.unread x2))),
      (wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![3072, 0] S1024x512.size (Rect.inb₂ (by decide) (by decide))).toLoadRect (harg2.unread x1))), (View.readAt (Elt F) arg3.view (Rect.unit (s := S8192x512) ![3072, 0] S1024x512.size (Rect.inb₂ (by decide) (by decide))).toLoadRect (harg3.unread x2))),
      (wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![4096, 0] S1024x512.size (Rect.inb₂ (by decide) (by decide))).toLoadRect (harg2.unread x1))), (View.readAt (Elt F) arg3.view (Rect.unit (s := S8192x512) ![4096, 0] S1024x512.size (Rect.inb₂ (by decide) (by decide))).toLoadRect (harg3.unread x2))),
      (wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![5120, 0] S1024x512.size (Rect.inb₂ (by decide) (by decide))).toLoadRect (harg2.unread x1))), (View.readAt (Elt F) arg3.view (Rect.unit (s := S8192x512) ![5120, 0] S1024x512.size (Rect.inb₂ (by decide) (by decide))).toLoadRect (harg3.unread x2))),
      (wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![6144, 0] S1024x512.size (Rect.inb₂ (by decide) (by decide))).toLoadRect (harg2.unread x1))), (View.readAt (Elt F) arg3.view (Rect.unit (s := S8192x512) ![6144, 0] S1024x512.size (Rect.inb₂ (by decide) (by decide))).toLoadRect (harg3.unread x2))),
      (wch (walk (chunkScores arg1 harg1 arg2 harg2 x0 x1)).1 (recip (walk (chunkScores arg1 harg1 arg2 harg2 x0 x1)).2) (sc (qOf (View.readAt (Elt F) arg1.view (Rect.unit (s := S256x512) ![0, 0] S256x512.size inb_S256x512_S256x512_0_0).toLoadRect (harg1.unread x0))) (View.readAt (Elt F) arg2.view (Rect.unit (s := S8192x512) ![7168, 0] S1024x512.size (Rect.inb₂ (by decide) (by decide))).toLoadRect (harg2.unread x1))), (View.readAt (Elt F) arg3.view (Rect.unit (s := S8192x512) ![7168, 0] S1024x512.size (Rect.inb₂ (by decide) (by decide))).toLoadRect (harg3.unread x2)))])
          (View.readAt (Elt F) arg4.view (Rect.unit (s := S512x512) ![0, 0] S512x512.size inb_S512x512_S512x512_0_0).toLoadRect (harg4.unread x3))
          (View.readAt (Elt F) arg5.view (Rect.unit (s := S512) ![0] S512.size inb_S512_S512_0).toLoadRect (harg5.unread x4)) := by
  unfold out1_A_5
  rw [View.read_writes_eq_canon _ _ _ (cover1_A_5 c i arg1 harg1 arg2 harg2 arg3 harg3 arg4 harg4 arg5 harg5 arg6 harg6 arg7 harg7 x0 x1 x2 x3 x4)]
  unfold kernelRun1_A
  dsimp only
  rw [View.canon_unit_zero hz2]
  rw [← raw0_eq c arg1 harg1 arg2 harg2 arg7 x0 x1, ← raw1_eq c arg1 harg1 arg2 harg2 arg7 x0 x1, ← raw2_eq c arg1 harg1 arg2 harg2 arg7 x0 x1, ← raw3_eq c arg1 harg1 arg2 harg2 arg7 x0 x1, ← raw4_eq c arg1 harg1 arg2 harg2 arg7 x0 x1, ← raw5_eq c arg1 harg1 arg2 harg2 arg7 x0 x1, ← raw6_eq c arg1 harg1 arg2 harg2 arg7 x0 x1, ← raw7_eq c arg1 harg1 arg2 harg2 arg7 x0 x1,
    ← top_eq c arg1 harg1 arg2 harg2 x0 x1, ← recip_eq c arg1 harg1 arg2 harg2 x0 x1]
  rfl

end Cert.Attn.R1
end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibOnlineSoftmax.lean ====
/-
  The online (blockwise) softmax at the extended reals.

  A row of scores s is walked block by block keeping the running maximum m, the running
  denominator l = sum of exp (s j - m) and the running numerator acc = sum of exp (s j - m) * v j;
  at each new block both are rescaled by exp (m_old - m_new).  The laws below say that this walk
  computes the same extended reals as the one-pass softmax: the maximum of a union is the maximum of
  the maxima, the rescaled sums of two disjoint blocks add up to the sum over their union, and
  dividing the numerator by the denominator at the end is the weighted sum of the normalised
  weights.  Every score is a real or the bottom element (a masked position), every value is a real;
  the laws hold because of that finiteness, which is why each carries these hypotheses.
-/
import Idealize.ShloMosaic.PureOps.Ideal

noncomputable section

namespace Cert.Lib.OnlineSoftmax

open Idealize.ShloMosaic
open scoped BigOperators

variable {ι : Type*} [DecidableEq ι]

/-- The maximum of the scores over a finite index set; the bottom element on the empty set. -/
def rowMax (A : Finset ι) (s : ι → EReal) : EReal := A.sup s

/-- The sum over the set of the exponentials of the scores shifted by m. -/
def expSum (A : Finset ι) (s : ι → EReal) (m : EReal) : EReal := ∑ j ∈ A, Ideal.exp (s j - m)

/-- The sum over the set of the exponentials of the shifted scores, each weighted by its value. -/
def expDot (A : Finset ι) (s v : ι → EReal) (m : EReal) : EReal :=
  ∑ j ∈ A, Ideal.exp (s j - m) * v j

/-! ### Real sums inside the extended reals -/

/-- The embedding of the reals commutes with a finite sum. -/
theorem coe_sum {κ : Type*} (A : Finset κ) (f : κ → ℝ) :
    ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

/-- The real number e^(x - c) for an extended real x below the top and a real c: zero at the
    bottom element. -/
def expShift (x : EReal) (c : ℝ) : ℝ := if x = ⊥ then 0 else Real.exp (x.toReal - c)

/-- e^(x - c) is nonnegative. -/
theorem expShift_nonneg (x : EReal) (c : ℝ) : 0 ≤ expShift x c := by
  unfold expShift
  split_ifs
  · exact le_refl 0
  · exact (Real.exp_pos _).le

/-- At a real x, e^(x - c) is the real exponential. -/
theorem expShift_coe (a c : ℝ) : expShift (a : EReal) c = Real.exp (a - c) := by
  unfold expShift
  rw [if_neg (EReal.coe_ne_bot a), EReal.toReal_coe]

/-- e^(x - x) = 1 at a real x. -/
theorem expShift_self (a : ℝ) : expShift (a : EReal) a = 1 := by
  rw [expShift_coe, sub_self, Real.exp_zero]

/-- The exponential of an extended real below the top, shifted by a real, is the real e^(x - c). -/
theorem exp_sub_coe {x : EReal} (hx : x ≠ ⊤) (c : ℝ) :
    Ideal.exp (x - (c : EReal)) = (expShift x c : EReal) := by
  induction x using EReal.rec with
  | bot => rw [EReal.bot_sub, Ideal.exp_bot]; unfold expShift; rw [if_pos rfl]; rfl
  | coe a => rw [← EReal.coe_sub, Ideal.exp_coe, expShift_coe]
  | top => exact absurd rfl hx

/-- Changing the shift from a to c multiplies by e^(a - c): e^(a - c) * e^(x - a) = e^(x - c). -/
theorem expShift_mul (x : EReal) (a c : ℝ) :
    Real.exp (a - c) * expShift x a = expShift x c := by
  unfold expShift
  split_ifs
  · exact mul_zero _
  · rw [← Real.exp_add]; congr 1; ring

/-- The shifted exponential sum against a real shift is the embedding of a real sum. -/
theorem expSum_coe {s : ι → EReal} (hs : ∀ j, s j ≠ ⊤) (A : Finset ι) (c : ℝ) :
    expSum A s (c : EReal) = ((∑ j ∈ A, expShift (s j) c : ℝ) : EReal) := by
  rw [coe_sum]
  exact Finset.sum_congr rfl (fun j _ => exp_sub_coe (hs j) c)

/-- The weighted shifted exponential sum against a real shift, with real values, is the
    embedding of a real sum. -/
theorem expDot_coe {s v : ι → EReal} (hs : ∀ j, s j ≠ ⊤) {vr : ι → ℝ}
    (hvr : ∀ j, v j = (vr j : EReal)) (A : Finset ι) (c : ℝ) :
    expDot A s v (c : EReal) = ((∑ j ∈ A, expShift (s j) c * vr j : ℝ) : EReal) := by
  rw [coe_sum]
  refine Finset.sum_congr rfl (fun j _ => ?_)
  rw [exp_sub_coe (hs j) c, hvr j, ← EReal.coe_mul]

/-! ### The maximum -/

/-- The maximum over the empty set is the bottom element: the starting state of the walk. -/
theorem rowMax_empty (s : ι → EReal) : rowMax (∅ : Finset ι) s = ⊥ := Finset.sup_empty

/-- The maximum over a union is the maximum of the two maxima. -/
theorem rowMax_union (A B : Finset ι) (s : ι → EReal) :
    max (rowMax A s) (rowMax B s) = rowMax (A ∪ B) s := by
  unfold rowMax
  rw [Finset.sup_union]

/-- Every score of the set is at most the maximum. -/
theorem le_rowMax {A : Finset ι} (s : ι → EReal) {j : ι} (hj : j ∈ A) : s j ≤ rowMax A s :=
  Finset.le_sup hj

/-- Scores below the top have their maximum below the top. -/
theorem rowMax_ne_top {s : ι → EReal} (hs : ∀ j, s j ≠ ⊤) (A : Finset ι) : rowMax A s ≠ ⊤ := by
  have h : A.sup s < ⊤ :=
    (Finset.sup_lt_iff bot_lt_top).mpr (fun j _ => lt_top_iff_ne_top.mpr (hs j))
  exact h.ne

/-- A maximum that is the bottom element means every score of the set is masked. -/
theorem eq_bot_of_rowMax_eq_bot {A : Finset ι} {s : ι → EReal} (h : rowMax A s = ⊥) {j : ι}
    (hj : j ∈ A) : s j = ⊥ :=
  le_bot_iff.mp (h ▸ le_rowMax s hj)

/-- A maximum of scores below the top that is not the bottom element is a real, and it is
    attained at a position of the set. -/
theorem rowMax_attained {s : ι → EReal} (hs : ∀ j, s j ≠ ⊤) {A : Finset ι}
    (hM : rowMax A s ≠ ⊥) : ∃ a : ℝ, rowMax A s = (a : EReal) ∧ ∃ j ∈ A, s j = (a : EReal) := by
  rcases A.eq_empty_or_nonempty with rfl | hne
  · exact absurd (rowMax_empty s) hM
  · obtain ⟨j, hj, hsup⟩ := Finset.exists_mem_eq_sup A hne s
    refine ⟨(rowMax A s).toReal, (EReal.coe_toReal (rowMax_ne_top hs A) hM).symm, j, hj, ?_⟩
    rw [EReal.coe_toReal (rowMax_ne_top hs A) hM]
    exact hsup.symm

/-! ### The starting state -/

/-- The denominator over the empty set is zero. -/
theorem expSum_empty (s : ι → EReal) (m : EReal) : expSum (∅ : Finset ι) s m = 0 :=
  Finset.sum_empty

/-- The numerator over the empty set is zero. -/
theorem expDot_empty (s v : ι → EReal) (m : EReal) : expDot (∅ : Finset ι) s v m = 0 :=
  Finset.sum_empty

/-- Over a set all of whose scores are masked, the denominator is zero whatever the shift:
    every term is the exponential of the bottom element. -/
theorem expSum_eq_zero_of_masked {A : Finset ι} {s : ι → EReal} (h : ∀ j ∈ A, s j = ⊥)
    (m : EReal) : expSum A s m = 0 :=
  Finset.sum_eq_zero (fun j hj => by rw [h j hj, EReal.bot_sub, Ideal.exp_bot])

/-- Over a set all of whose scores are masked, the numerator is zero whatever the shift. -/
theorem expDot_eq_zero_of_masked {A : Finset ι} {s : ι → EReal} (h : ∀ j ∈ A, s j = ⊥)
    (v : ι → EReal) (m : EReal) : expDot A s v m = 0 :=
  Finset.sum_eq_zero (fun j hj => by rw [h j hj, EReal.bot_sub, Ideal.exp_bot, zero_mul])

/-! ### Sums against a real shift are real -/

/-- The denominator of scores below the top against a real shift is a nonnegative real. -/
theorem expSum_isReal {s : ι → EReal} (hs : ∀ j, s j ≠ ⊤) (A : Finset ι) (c : ℝ) :
    ∃ r : ℝ, 0 ≤ r ∧ expSum A s (c : EReal) = (r : EReal) :=
  ⟨_, Finset.sum_nonneg (fun j _ => expShift_nonneg (s j) c), expSum_coe hs A c⟩

/-- The numerator of scores below the top and real values against a real shift is a real. -/
theorem expDot_isReal {s v : ι → EReal} (hs : ∀ j, s j ≠ ⊤) (hv : ∀ j, ∃ r : ℝ, v j = (r : EReal))
    (A : Finset ι) (c : ℝ) : ∃ r : ℝ, expDot A s v (c : EReal) = (r : EReal) := by
  choose vr hvr using hv
  exact ⟨_, expDot_coe hs hvr A c⟩

/-- Against its own maximum, when that is not the bottom element, the denominator is a real that
    is at least one: the maximum is attained, and that position contributes e^0 = 1. -/
theorem expSum_rowMax_isReal {s : ι → EReal} (hs : ∀ j, s j ≠ ⊤) {A : Finset ι}
    (hM : rowMax A s ≠ ⊥) : ∃ r : ℝ, 1 ≤ r ∧ expSum A s (rowMax A s) = (r : EReal) := by
  obtain ⟨a, ha, j, hj, hsj⟩ := rowMax_attained hs hM
  rw [ha]
  refine ⟨_, ?_, expSum_coe hs A a⟩
  have h1 : expShift (s j) a = 1 := by rw [hsj, expShift_self]
  rw [← h1]
  exact Finset.single_le_sum (f := fun j => expShift (s j) a)
    (fun i _ => expShift_nonneg (s i) a) hj

/-- Against its own maximum, when that is not the bottom element, the denominator is not zero. -/
theorem expSum_rowMax_ne_zero {s : ι → EReal} (hs : ∀ j, s j ≠ ⊤) {A : Finset ι}
    (hM : rowMax A s ≠ ⊥) : expSum A s (rowMax A s) ≠ 0 := by
  obtain ⟨r, hr, h⟩ := expSum_rowMax_isReal hs hM
  rw [h]
  intro h0
  have : r = 0 := EReal.coe_eq_zero.mp h0
  linarith

/-- Against its own maximum, when that is not the bottom element, the denominator is at least one. -/
theorem one_le_expSum_rowMax {s : ι → EReal} (hs : ∀ j, s j ≠ ⊤) {A : Finset ι}
    (hM : rowMax A s ≠ ⊥) : (1 : EReal) ≤ expSum A s (rowMax A s) := by
  obtain ⟨r, hr, h⟩ := expSum_rowMax_isReal hs hM
  rw [h, ← EReal.coe_one]
  exact EReal.coe_le_coe_iff.mpr hr

/-- Against a real shift, the denominator over a set that holds a real score is a positive real. -/
theorem expSum_pos_of_mem {s : ι → EReal} (hs : ∀ j, s j ≠ ⊤) {A : Finset ι} {j : ι} (hj : j ∈ A)
    (hsj : s j ≠ ⊥) (c : ℝ) : ∃ r : ℝ, 0 < r ∧ expSum A s (c : EReal) = (r : EReal) := by
  refine ⟨_, ?_, expSum_coe hs A c⟩
  have hpos : 0 < expShift (s j) c := by
    unfold expShift
    rw [if_neg hsj]
    exact Real.exp_pos _
  exact lt_of_lt_of_le hpos (Finset.single_le_sum (f := fun j => expShift (s j) c)
    (fun i _ => expShift_nonneg (s i) c) hj)

/-- Against a real shift, the denominator over a set that holds a real score is not zero. -/
theorem expSum_ne_zero_of_mem {s : ι → EReal} (hs : ∀ j, s j ≠ ⊤) {A : Finset ι} {j : ι}
    (hj : j ∈ A) (hsj : s j ≠ ⊥) (c : ℝ) : expSum A s (c : EReal) ≠ 0 := by
  obtain ⟨r, hr, h⟩ := expSum_pos_of_mem hs hj hsj c
  rw [h]
  intro h0
  exact hr.ne' (EReal.coe_eq_zero.mp h0)

/-! ### Rescaling: changing the shift -/

/-- Changing a real shift a of a denominator to a real c multiplies it by exp (a - c): term by
    term e^(a - c) * e^(s j - a) = e^(s j - c), a masked term being zero on both sides. -/
theorem rescale_sum_real {s : ι → EReal} (hs : ∀ j, s j ≠ ⊤) (A : Finset ι) (a c : ℝ) :
    Ideal.exp ((a : EReal) - (c : EReal)) * expSum A s (a : EReal) = expSum A s (c : EReal) := by
  rw [expSum_coe hs A a, expSum_coe hs A c, ← EReal.coe_sub, Ideal.exp_coe, ← EReal.coe_mul,
    Finset.mul_sum]
  exact congrArg _ (Finset.sum_congr rfl (fun j _ => expShift_mul (s j) a c))

/-- Changing a real shift a of a numerator with real values to a real c multiplies it by
    exp (a - c). -/
theorem rescale_dot_real {s v : ι → EReal} (hs : ∀ j, s j ≠ ⊤)
    (hv : ∀ j, ∃ r : ℝ, v j = (r : EReal)) (A : Finset ι) (a c : ℝ) :
    Ideal.exp ((a : EReal) - (c : EReal)) * expDot A s v (a : EReal) = expDot A s v (c : EReal) := by
  choose vr hvr using hv
  rw [expDot_coe hs hvr A a, expDot_coe hs hvr A c, ← EReal.coe_sub, Ideal.exp_coe,
    ← EReal.coe_mul, Finset.mul_sum]
  refine congrArg _ (Finset.sum_congr rfl (fun j _ => ?_))
  rw [← mul_assoc, expShift_mul]

/-- Changing the shift of a denominator from m to a real c multiplies it by exp (m - c), when m is
    an upper bound of the scores below the top: for a real m term by term
    e^(m - c) * e^(s j - m) = e^(s j - c); for m the bottom element every score is masked and both
    sides are zero. -/
theorem rescale_sum {s : ι → EReal} (hs : ∀ j, s j ≠ ⊤) {A : Finset ι} {m : EReal}
    (hmt : m ≠ ⊤) (hle : ∀ j ∈ A, s j ≤ m) (c : ℝ) :
    Ideal.exp (m - (c : EReal)) * expSum A s m = expSum A s (c : EReal) := by
  induction m using EReal.rec with
  | bot =>
    rw [EReal.bot_sub, Ideal.exp_bot, zero_mul,
      expSum_eq_zero_of_masked (fun j hj => le_bot_iff.mp (hle j hj))]
  | coe a => exact rescale_sum_real hs A a c
  | top => exact absurd rfl hmt

/-- Changing the shift of a numerator from m to a real c multiplies it by exp (m - c), under the
    same hypotheses and with real values. -/
theorem rescale_dot {s v : ι → EReal} (hs : ∀ j, s j ≠ ⊤) (hv : ∀ j, ∃ r : ℝ, v j = (r : EReal))
    {A : Finset ι} {m : EReal} (hmt : m ≠ ⊤) (hle : ∀ j ∈ A, s j ≤ m) (c : ℝ) :
    Ideal.exp (m - (c : EReal)) * expDot A s v m = expDot A s v (c : EReal) := by
  induction m using EReal.rec with
  | bot =>
    rw [EReal.bot_sub, Ideal.exp_bot, zero_mul,
      expDot_eq_zero_of_masked (fun j hj => le_bot_iff.mp (hle j hj))]
  | coe a => exact rescale_dot_real hs hv A a c
  | top => exact absurd rfl hmt

/-! ### Merging two blocks -/

/-- The merge step for the denominator, against any real new shift c: the denominator of block A
    against its own maximum, rescaled by exp (max A - c), plus the denominator of a disjoint block
    B against c, is the denominator of the union against c. -/
theorem merge_sum_real {s : ι → EReal} (hs : ∀ j, s j ≠ ⊤) {A B : Finset ι} (hAB : Disjoint A B)
    (c : ℝ) :
    Ideal.exp (rowMax A s - (c : EReal)) * expSum A s (rowMax A s) + expSum B s (c : EReal)
      = expSum (A ∪ B) s (c : EReal) := by
  rw [rescale_sum hs (rowMax_ne_top hs A) (fun j hj => le_rowMax s hj) c]
  unfold expSum
  rw [Finset.sum_union hAB]

/-- The merge step for the numerator, against any real new shift c. -/
theorem merge_dot_real {s v : ι → EReal} (hs : ∀ j, s j ≠ ⊤)
    (hv : ∀ j, ∃ r : ℝ, v j = (r : EReal)) {A B : Finset ι} (hAB : Disjoint A B) (c : ℝ) :
    Ideal.exp (rowMax A s - (c : EReal)) * expDot A s v (rowMax A s) + expDot B s v (c : EReal)
      = expDot (A ∪ B) s v (c : EReal) := by
  rw [rescale_dot hs hv (rowMax_ne_top hs A) (fun j hj => le_rowMax s hj) c]
  unfold expDot
  rw [Finset.sum_union hAB]

/-- The merge step of the online softmax for the denominator. With m the maximum over block A and
    m' the larger of m and the maximum over a disjoint block B, rescaling the running denominator
    by exp (m - m') and adding block B's denominator against m' gives the denominator of the union
    against m'. It holds for m the bottom element too (A empty or fully masked: the rescaled term
    is zero), and for m' the bottom element (every score of both blocks masked: both sides are
    zero). -/
theorem merge_sum {s : ι → EReal} (hs : ∀ j, s j ≠ ⊤) {A B : Finset ι} (hAB : Disjoint A B) :
    Ideal.exp (rowMax A s - max (rowMax A s) (rowMax B s)) * expSum A s (rowMax A s)
        + expSum B s (max (rowMax A s) (rowMax B s))
      = expSum (A ∪ B) s (max (rowMax A s) (rowMax B s)) := by
  by_cases hb : max (rowMax A s) (rowMax B s) = ⊥
  · have hA : rowMax A s = ⊥ := le_bot_iff.mp (hb ▸ le_max_left _ _)
    have hB : rowMax B s = ⊥ := le_bot_iff.mp (hb ▸ le_max_right _ _)
    have hall : ∀ j ∈ A ∪ B, s j = ⊥ := by
      intro j hj
      rcases Finset.mem_union.mp hj with h | h
      · exact eq_bot_of_rowMax_eq_bot hA h
      · exact eq_bot_of_rowMax_eq_bot hB h
    rw [expSum_eq_zero_of_masked hall,
      expSum_eq_zero_of_masked (fun j hj => eq_bot_of_rowMax_eq_bot hB hj),
      expSum_eq_zero_of_masked (fun j hj => eq_bot_of_rowMax_eq_bot hA hj), mul_zero, add_zero]
  · have ht : max (rowMax A s) (rowMax B s) ≠ ⊤ := by
      rw [rowMax_union]; exact rowMax_ne_top hs _
    rw [← EReal.coe_toReal ht hb]
    exact merge_sum_real hs hAB _

/-- The merge step of the online softmax for the numerator, with real values: the same law with
    each term weighted by its value. -/
theorem merge_dot {s v : ι → EReal} (hs : ∀ j, s j ≠ ⊤) (hv : ∀ j, ∃ r : ℝ, v j = (r : EReal))
    {A B : Finset ι} (hAB : Disjoint A B) :
    Ideal.exp (rowMax A s - max (rowMax A s) (rowMax B s)) * expDot A s v (rowMax A s)
        + expDot B s v (max (rowMax A s) (rowMax B s))
      = expDot (A ∪ B) s v (max (rowMax A s) (rowMax B s)) := by
  by_cases hb : max (rowMax A s) (rowMax B s) = ⊥
  · have hA : rowMax A s = ⊥ := le_bot_iff.mp (hb ▸ le_max_left _ _)
    have hB : rowMax B s = ⊥ := le_bot_iff.mp (hb ▸ le_max_right _ _)
    have hall : ∀ j ∈ A ∪ B, s j = ⊥ := by
      intro j hj
      rcases Finset.mem_union.mp hj with h | h
      · exact eq_bot_of_rowMax_eq_bot hA h
      · exact eq_bot_of_rowMax_eq_bot hB h
    rw [expDot_eq_zero_of_masked hall,
      expDot_eq_zero_of_masked (fun j hj => eq_bot_of_rowMax_eq_bot hB hj),
      expDot_eq_zero_of_masked (fun j hj => eq_bot_of_rowMax_eq_bot hA hj), mul_zero, add_zero]
  · have ht : max (rowMax A s) (rowMax B s) ≠ ⊤ := by
      rw [rowMax_union]; exact rowMax_ne_top hs _
    rw [← EReal.coe_toReal ht hb]
    exact merge_dot_real hs hv hAB _

/-- The merge step for the denominator with a real old shift a and a real new shift c. -/
theorem merge_sum_real_real {s : ι → EReal} (hs : ∀ j, s j ≠ ⊤) {A B : Finset ι}
    (hAB : Disjoint A B) (a c : ℝ) :
    Ideal.exp ((a : EReal) - (c : EReal)) * expSum A s (a : EReal) + expSum B s (c : EReal)
      = expSum (A ∪ B) s (c : EReal) := by
  rw [rescale_sum_real hs A a c]
  unfold expSum
  rw [Finset.sum_union hAB]

/-- The merge step for the numerator with a real old shift a and a real new shift c. -/
theorem merge_dot_real_real {s v : ι → EReal} (hs : ∀ j, s j ≠ ⊤)
    (hv : ∀ j, ∃ r : ℝ, v j = (r : EReal)) {A B : Finset ι} (hAB : Disjoint A B) (a c : ℝ) :
    Ideal.exp ((a : EReal) - (c : EReal)) * expDot A s v (a : EReal) + expDot B s v (c : EReal)
      = expDot (A ∪ B) s v (c : EReal) := by
  rw [rescale_dot_real hs hv A a c]
  unfold expDot
  rw [Finset.sum_union hAB]

/-- The merge step for the denominator with the new maximum written as the maximum over the
    union: the running state (maximum, denominator against it) of A becomes that of A ∪ B. -/
theorem merge_sum_union {s : ι → EReal} (hs : ∀ j, s j ≠ ⊤) {A B : Finset ι}
    (hAB : Disjoint A B) :
    Ideal.exp (rowMax A s - rowMax (A ∪ B) s) * expSum A s (rowMax A s)
        + expSum B s (rowMax (A ∪ B) s)
      = expSum (A ∪ B) s (rowMax (A ∪ B) s) := by
  rw [← rowMax_union]
  exact merge_sum hs hAB

/-- The merge step for the numerator with the new maximum written as the maximum over the union. -/
theorem merge_dot_union {s v : ι → EReal} (hs : ∀ j, s j ≠ ⊤)
    (hv : ∀ j, ∃ r : ℝ, v j = (r : EReal)) {A B : Finset ι} (hAB : Disjoint A B) :
    Ideal.exp (rowMax A s - rowMax (A ∪ B) s) * expDot A s v (rowMax A s)
        + expDot B s v (rowMax (A ∪ B) s)
      = expDot (A ∪ B) s v (rowMax (A ∪ B) s) := by
  rw [← rowMax_union]
  exact merge_dot hs hv hAB

/-! ### Normalising at the end -/

/-- Dividing each weight by a nonzero real denominator and then taking the weighted sum is
    dividing the numerator by the denominator: division by a nonzero real is multiplication by its
    real reciprocal, and a real factor moves across a finite sum of reals. -/
theorem normalise_real {s v : ι → EReal} (hs : ∀ j, s j ≠ ⊤)
    (hv : ∀ j, ∃ r : ℝ, v j = (r : EReal)) (A : Finset ι) (c : ℝ)
    (h0 : expSum A s (c : EReal) ≠ 0) :
    ∑ j ∈ A, Ideal.div (Ideal.exp (s j - (c : EReal))) (expSum A s (c : EReal)) * v j
      = Ideal.div (expDot A s v (c : EReal)) (expSum A s (c : EReal)) := by
  choose vr hvr using hv
  have hS : expSum A s (c : EReal) = ((∑ j ∈ A, expShift (s j) c : ℝ) : EReal) := expSum_coe hs A c
  have hS0 : (∑ j ∈ A, expShift (s j) c) ≠ 0 := by
    intro h
    apply h0
    rw [hS, h]
    rfl
  have hterm : ∀ j ∈ A,
      Ideal.div (Ideal.exp (s j - (c : EReal))) (expSum A s (c : EReal)) * v j
        = ((expShift (s j) c * (1 / ∑ k ∈ A, expShift (s k) c) * vr j : ℝ) : EReal) := by
    intro j _
    rw [hS, Ideal.div_coe hS0, exp_sub_coe (hs j) c, hvr j, ← EReal.coe_mul, ← EReal.coe_mul]
  rw [Finset.sum_congr rfl hterm, ← coe_sum, hS, expDot_coe hs hvr A c, Ideal.div_coe hS0,
    ← EReal.coe_mul, Finset.sum_mul]
  refine congrArg _ (Finset.sum_congr rfl (fun j _ => ?_))
  ring

/-- The final step of the online softmax: with M the maximum of the row, not the bottom element
    (some score is real), the weighted sum of the softmax weights exp (s j - M) / l is the
    numerator divided by the denominator l, where l is a real that is at least one. -/
theorem normalise {s v : ι → EReal} (hs : ∀ j, s j ≠ ⊤) (hv : ∀ j, ∃ r : ℝ, v j = (r : EReal))
    {A : Finset ι} (hM : rowMax A s ≠ ⊥) :
    ∑ j ∈ A, Ideal.div (Ideal.exp (s j - rowMax A s)) (expSum A s (rowMax A s)) * v j
      = Ideal.div (expDot A s v (rowMax A s)) (expSum A s (rowMax A s)) := by
  have h0 := expSum_rowMax_ne_zero hs hM
  have ht := rowMax_ne_top hs A
  rw [← EReal.coe_toReal ht hM] at h0 ⊢
  exact normalise_real hs hv A _ h0

/-- The quotient of numerator by denominator does not depend on the real shift: changing the shift
    from c to a multiplies both by the positive real e^(c - a), which cancels. -/
theorem ratio_shift {s v : ι → EReal} (hs : ∀ j, s j ≠ ⊤) (hv : ∀ j, ∃ r : ℝ, v j = (r : EReal))
    (A : Finset ι) (a c : ℝ) (h0 : expSum A s (c : EReal) ≠ 0) :
    Ideal.div (expDot A s v (a : EReal)) (expSum A s (a : EReal))
      = Ideal.div (expDot A s v (c : EReal)) (expSum A s (c : EReal)) := by
  choose vr hvr using hv
  have hk : Real.exp (c - a) ≠ 0 := (Real.exp_pos _).ne'
  have hSc0 : (∑ j ∈ A, expShift (s j) c) ≠ 0 := by
    intro h
    apply h0
    rw [expSum_coe hs A c, h]
    rfl
  have hSa : (∑ j ∈ A, expShift (s j) a) = Real.exp (c - a) * ∑ j ∈ A, expShift (s j) c := by
    rw [Finset.mul_sum]
    exact Finset.sum_congr rfl (fun j _ => (expShift_mul (s j) c a).symm)
  have hNa : (∑ j ∈ A, expShift (s j) a * vr j)
      = Real.exp (c - a) * ∑ j ∈ A, expShift (s j) c * vr j := by
    rw [Finset.mul_sum]
    refine Finset.sum_congr rfl (fun j _ => ?_)
    rw [← mul_assoc, expShift_mul]
  have hSa0 : (∑ j ∈ A, expShift (s j) a) ≠ 0 := by
    rw [hSa]
    exact mul_ne_zero hk hSc0
  rw [expSum_coe hs A a, expSum_coe hs A c, expDot_coe hs hvr A a, expDot_coe hs hvr A c,
    Ideal.div_coe hSa0, Ideal.div_coe hSc0, ← EReal.coe_mul, ← EReal.coe_mul]
  refine congrArg _ ?_
  rw [hSa, hNa]
  field_simp

end Cert.Lib.OnlineSoftmax
-- ==== Proof.Online.lean ====
/-
  The online softmax walk over a row of 8192 scores in 8 chunks of 1024 columns.

  The walk keeps the running maximum m and the running denominator l = sum of exp (s j - m) over the columns seen;
  a new chunk replaces m by the larger of m and the chunk's maximum, rescales l by exp (m_old - m_new) and adds the
  chunk's exponentials against the new maximum.  After n chunks the state is the maximum and the denominator of the
  columns below 1024·n: the step is the merge law of two disjoint blocks, the columns below 1024·n and chunk n.
  After 8 chunks that is the whole row.  A sum over the row regroups chunk by chunk in the same way.  The two ways of
  writing the weights — times the reciprocal of the row sum, or divided by the row sum — agree because the row sum
  is a real number that is at least one.
-/
import proofs.«129372_j77472620085715_2_alg».proof.Proof.Spec
import proofs.«129372_j77472620085715_2_alg».proof.Proof.LibOnlineSoftmax
import Idealize.ShloMosaic.PureOps.Ideal.Laws

noncomputable section

namespace Cert.Attn.Online

open Idealize.ShloMosaic Cert.Lib.OnlineSoftmax
open scoped BigOperators

/-- Column j of chunk c. -/
def col (c : Fin 8) (j : Fin 1024) : Fin 8192 := ⟨1024 * c.val + j.val, by omega⟩

/-- One step of the walk: the state (running maximum, running denominator) meets a chunk t of scores. -/
def rowStep (st : EReal × EReal) (t : Fin 1024 → EReal) : EReal × EReal :=
  (max st.1 ((Finset.univ : Finset (Fin 1024)).fold max (Ideal.ofBits .f32 0xFF800000#32) t),
   Ideal.exp (st.1 - max st.1 ((Finset.univ : Finset (Fin 1024)).fold max (Ideal.ofBits .f32 0xFF800000#32) t)) * st.2
     + ∑ j : Fin 1024, Ideal.exp (t j - max st.1 ((Finset.univ : Finset (Fin 1024)).fold max (Ideal.ofBits .f32 0xFF800000#32) t)))

/-- The walk over a list of chunks from the starting state (-∞, 0). -/
def rowWalk (ts : List (Fin 1024 → EReal)) : EReal × EReal :=
  ts.foldl rowStep (Ideal.ofBits .f32 0xFF800000#32, Ideal.ofBits .f32 0x00000000#32)

/-- The eight chunks of a row. -/
def chunks (s : Fin 8192 → EReal) : List (Fin 1024 → EReal) :=
  [fun j => s (col 0 j), fun j => s (col 1 j), fun j => s (col 2 j), fun j => s (col 3 j),
   fun j => s (col 4 j), fun j => s (col 5 j), fun j => s (col 6 j), fun j => s (col 7 j)]

/-! ### The three f32 words -/

/-- The f32 word of -∞ is ⊥. -/
theorem negInf : Ideal.ofBits .f32 0xFF800000#32 = ⊥ := by simp [Ideal.ofBits, Ideal.ieee]
/-- The f32 word of zero is 0. -/
theorem zeroW : Ideal.ofBits .f32 0x00000000#32 = 0 := by simp [Ideal.ofBits, Ideal.ieee]
/-- The f32 word of one is 1. -/
theorem oneW : Ideal.ofBits .f32 0x3F800000#32 = 1 := by simp [Ideal.ofBits, Ideal.ieee, -EReal.coe_mul]; norm_num

/-! ### The columns of a chunk and the columns below a chunk -/

theorem col_val (c : Fin 8) (j : Fin 1024) : (col c j).val = 1024 * c.val + j.val := rfl

theorem col_injective (c : Fin 8) : Function.Injective (col c) := by
  intro a b h
  have h' := congrArg Fin.val h
  rw [col_val, col_val] at h'
  exact Fin.ext (by omega)

/-- The columns of chunk c. -/
def blk (c : Fin 8) : Finset (Fin 8192) := Finset.univ.map ⟨col c, col_injective c⟩

/-- The columns below 1024·n. -/
def below (n : Nat) : Finset (Fin 8192) := Finset.univ.filter (fun j => j.val < 1024 * n)

theorem mem_blk (c : Fin 8) (j : Fin 8192) : j ∈ blk c ↔ 1024 * c.val ≤ j.val ∧ j.val < 1024 * (c.val + 1) := by
  unfold blk
  simp only [Finset.mem_map, Finset.mem_univ, true_and, Function.Embedding.coeFn_mk]
  constructor
  · rintro ⟨k, rfl⟩
    rw [col_val]
    have := k.isLt
    omega
  · rintro ⟨h1, h2⟩
    refine ⟨⟨j.val - 1024 * c.val, by omega⟩, Fin.ext ?_⟩
    rw [col_val]
    show 1024 * c.val + (j.val - 1024 * c.val) = j.val
    omega

theorem mem_below (n : Nat) (j : Fin 8192) : j ∈ below n ↔ j.val < 1024 * n := by
  unfold below
  simp only [Finset.mem_filter, Finset.mem_univ, true_and]

theorem below_zero : below 0 = ∅ := by
  ext j
  rw [mem_below]
  simp

theorem below_succ (n : Nat) (h : n < 8) : below (n + 1) = below n ∪ blk ⟨n, h⟩ := by
  ext j
  rw [Finset.mem_union, mem_below, mem_below, mem_blk]
  show j.val < 1024 * (n + 1) ↔ j.val < 1024 * n ∨ 1024 * n ≤ j.val ∧ j.val < 1024 * (n + 1)
  omega

theorem below_disjoint (n : Nat) (h : n < 8) : Disjoint (below n) (blk ⟨n, h⟩) := by
  rw [Finset.disjoint_left]
  intro j hj hb
  rw [mem_below] at hj
  rw [mem_blk] at hb
  have hb1 : 1024 * n ≤ j.val := hb.1
  omega

theorem below_eight : below 8 = Finset.univ := by
  ext j
  rw [mem_below]
  have := j.isLt
  simp only [Finset.mem_univ, iff_true]
  omega

/-- The maximum over a chunk's columns is the fold of max from -∞ over the chunk. -/
theorem rowMax_blk (c : Fin 8) (s : Fin 8192 → EReal) :
    (Finset.univ : Finset (Fin 1024)).fold max (Ideal.ofBits .f32 0xFF800000#32) (fun j => s (col c j)) = rowMax (blk c) s := by
  rw [negInf]
  unfold rowMax blk
  rw [Finset.sup_map]
  rfl

/-- The denominator over a chunk's columns is the sum over the chunk. -/
theorem expSum_blk (c : Fin 8) (s : Fin 8192 → EReal) (m : EReal) :
    ∑ j : Fin 1024, Ideal.exp (s (col c j) - m) = expSum (blk c) s m := by
  unfold expSum blk
  rw [Finset.sum_map]
  rfl

/-! ### The walk -/

/-- The state after n chunks: the maximum and the denominator of the columns below 1024·n. -/
def state (s : Fin 8192 → EReal) (n : Nat) : EReal × EReal :=
  (rowMax (below n) s, expSum (below n) s (rowMax (below n) s))

/-- One step takes the state after n chunks to the state after n + 1. -/
theorem step (s : Fin 8192 → EReal) (hs : ∀ j, s j ≠ ⊤) (n : Nat) (h : n < 8) :
    rowStep (state s n) (fun j => s (col ⟨n, h⟩ j)) = state s (n + 1) := by
  simp only [rowStep, state]
  rw [rowMax_blk ⟨n, h⟩ s, expSum_blk ⟨n, h⟩ s, merge_sum hs (below_disjoint n h), rowMax_union, ← below_succ n h]

/-- The walk over the eight chunks of a row of real scores ends at the row's maximum and the row's denominator. -/
theorem rowWalk_eq (s : Fin 8192 → EReal) (hs : ∀ j, ∃ r : ℝ, s j = (r : EReal)) :
    rowWalk (chunks s) = (Finset.univ.sup s, ∑ j : Fin 8192, Ideal.exp (s j - Finset.univ.sup s)) := by
  have hs' : ∀ j, s j ≠ ⊤ := fun j => by obtain ⟨r, hr⟩ := hs j; rw [hr]; exact EReal.coe_ne_top r
  have h0 : (Ideal.ofBits .f32 0xFF800000#32, Ideal.ofBits .f32 0x00000000#32) = state s 0 := by
    unfold state
    rw [below_zero, rowMax_empty, expSum_empty, negInf, zeroW]
  have e0 : rowStep (state s 0) (fun j => s (col 0 j)) = state s 1 := step s hs' 0 (by omega)
  have e1 : rowStep (state s 1) (fun j => s (col 1 j)) = state s 2 := step s hs' 1 (by omega)
  have e2 : rowStep (state s 2) (fun j => s (col 2 j)) = state s 3 := step s hs' 2 (by omega)
  have e3 : rowStep (state s 3) (fun j => s (col 3 j)) = state s 4 := step s hs' 3 (by omega)
  have e4 : rowStep (state s 4) (fun j => s (col 4 j)) = state s 5 := step s hs' 4 (by omega)
  have e5 : rowStep (state s 5) (fun j => s (col 5 j)) = state s 6 := step s hs' 5 (by omega)
  have e6 : rowStep (state s 6) (fun j => s (col 6 j)) = state s 7 := step s hs' 6 (by omega)
  have e7 : rowStep (state s 7) (fun j => s (col 7 j)) = state s 8 := step s hs' 7 (by omega)
  unfold rowWalk chunks
  simp only [List.foldl]
  rw [h0, e0, e1, e2, e3, e4, e5, e6, e7]
  unfold state
  rw [below_eight]
  rfl

/-! ### A sum over the row, chunk by chunk -/

/-- The sum over the columns below 1024·(n + 1) is the sum below 1024·n plus the sum over chunk n. -/
theorem sum_below_succ (f : Fin 8192 → EReal) (n : Nat) (h : n < 8) :
    ∑ j ∈ below (n + 1), f j = ∑ j ∈ below n, f j + ∑ j : Fin 1024, f (col ⟨n, h⟩ j) := by
  rw [below_succ n h, Finset.sum_union (below_disjoint n h)]
  exact congrArg (fun z => ∑ j ∈ below n, f j + z) (Finset.sum_map Finset.univ ⟨col ⟨n, h⟩, col_injective ⟨n, h⟩⟩ f)

/-- Adding up the eight chunk sums one after the other from zero gives the sum over the row. -/
theorem blocks_sum (f : Fin 8192 → EReal) :
    List.foldl (fun a (c : Fin 8) => a + ∑ j : Fin 1024, f (col c j)) (Ideal.ofBits .f32 0x00000000#32) [0, 1, 2, 3, 4, 5, 6, 7]
      = ∑ j : Fin 8192, f j := by
  have p0 : ∑ j ∈ below 1, f j = ∑ j ∈ below 0, f j + ∑ j : Fin 1024, f (col 0 j) := sum_below_succ f 0 (by omega)
  have p1 : ∑ j ∈ below 2, f j = ∑ j ∈ below 1, f j + ∑ j : Fin 1024, f (col 1 j) := sum_below_succ f 1 (by omega)
  have p2 : ∑ j ∈ below 3, f j = ∑ j ∈ below 2, f j + ∑ j : Fin 1024, f (col 2 j) := sum_below_succ f 2 (by omega)
  have p3 : ∑ j ∈ below 4, f j = ∑ j ∈ below 3, f j + ∑ j : Fin 1024, f (col 3 j) := sum_below_succ f 3 (by omega)
  have p4 : ∑ j ∈ below 5, f j = ∑ j ∈ below 4, f j + ∑ j : Fin 1024, f (col 4 j) := sum_below_succ f 4 (by omega)
  have p5 : ∑ j ∈ below 6, f j = ∑ j ∈ below 5, f j + ∑ j : Fin 1024, f (col 5 j) := sum_below_succ f 5 (by omega)
  have p6 : ∑ j ∈ below 7, f j = ∑ j ∈ below 6, f j + ∑ j : Fin 1024, f (col 6 j) := sum_below_succ f 6 (by omega)
  have p7 : ∑ j ∈ below 8, f j = ∑ j ∈ below 7, f j + ∑ j : Fin 1024, f (col 7 j) := sum_below_succ f 7 (by omega)
  have hall : ∑ j : Fin 8192, f j = ∑ j ∈ below 8, f j := by rw [below_eight]
  simp only [List.foldl]
  rw [hall, p7, p6, p5, p4, p3, p2, p1, p0, below_zero, Finset.sum_empty, zeroW]

/-! ### The two forms of the weights -/

/-- The greatest score of a row of real scores is not ⊥. -/
theorem rowMax_univ_ne_bot (t : Fin 8192 → EReal) (ht : ∀ j, ∃ r : ℝ, t j = (r : EReal)) :
    rowMax Finset.univ t ≠ ⊥ := by
  obtain ⟨r, hr⟩ := ht ⟨0, by omega⟩
  intro hbot
  have hle := le_rowMax t (Finset.mem_univ (⟨0, by omega⟩ : Fin 8192))
  rw [hbot, hr] at hle
  exact EReal.coe_ne_bot r (le_bot_iff.mp hle)

theorem ne_top_of_real (t : Fin 8192 → EReal) (ht : ∀ j, ∃ r : ℝ, t j = (r : EReal)) : ∀ j, t j ≠ ⊤ :=
  fun j => by obtain ⟨r, hr⟩ := ht j; rw [hr]; exact EReal.coe_ne_top r

/-- The row sum of a row of real scores is a real number that is at least one. -/
theorem rowDen_real (s : Cert.Attn.Tab 8192 8192) (hs : ∀ i j, ∃ r : ℝ, s i j = (r : EReal)) (i : Fin 8192) :
    ∃ r : ℝ, 1 ≤ r ∧ Cert.Attn.rowDen s i = (r : EReal) :=
  expSum_rowMax_isReal (ne_top_of_real (s i) (hs i)) (rowMax_univ_ne_bot (s i) (hs i))

/-- The greatest score of a row of real scores is a real number. -/
theorem rowTop_real (s : Cert.Attn.Tab 8192 8192) (hs : ∀ i j, ∃ r : ℝ, s i j = (r : EReal)) (i : Fin 8192) :
    ∃ a : ℝ, Cert.Attn.rowTop s i = (a : EReal) := by
  obtain ⟨a, ha, -⟩ := rowMax_attained (ne_top_of_real (s i) (hs i)) (rowMax_univ_ne_bot (s i) (hs i))
  exact ⟨a, ha⟩

/-- On real scores the product with the reciprocal of the row sum is the quotient by the row sum. -/
theorem weight_forms (s : Cert.Attn.Tab 8192 8192) (hs : ∀ i j, ∃ r : ℝ, s i j = (r : EReal)) :
    Cert.Attn.weightMul s = Cert.Attn.weightDiv s := by
  funext i j
  obtain ⟨r, hr1, hr⟩ := rowDen_real s hs i
  have hr0 : r ≠ 0 := (lt_of_lt_of_le one_pos hr1).ne'
  unfold Cert.Attn.weightMul Cert.Attn.weightDiv
  rw [hr, oneW, Ideal.div_coe hr0, Ideal.div_coe hr0, one_mul]

/-- On real scores every weight is a real number. -/
theorem weight_real (s : Cert.Attn.Tab 8192 8192) (hs : ∀ i j, ∃ r : ℝ, s i j = (r : EReal)) (i j : Fin 8192) :
    ∃ r : ℝ, Cert.Attn.weightDiv s i j = (r : EReal) := by
  obtain ⟨r, hr1, hr⟩ := rowDen_real s hs i
  have hr0 : r ≠ 0 := (lt_of_lt_of_le one_pos hr1).ne'
  obtain ⟨a, ha⟩ := rowTop_real s hs i
  unfold Cert.Attn.weightDiv
  rw [hr, ha, Ideal.div_coe hr0, exp_sub_coe (ne_top_of_real (s i) (hs i) j) a, ← EReal.coe_mul]
  exact ⟨_, rfl⟩

end Cert.Attn.Online

end
-- ==== Proof.Region1Idx.lean ====
/-
  The attention kernel's whole-block operations read entry by entry, over the extended reals.

  A tile of 256 projected query rows meets the projected keys and values in chunks of 1024 rows.  The score of
  query row r against key row j of a chunk is the inner product of the two rows; a chunk's row maximum is the
  fold of max from minus infinity over the row's 1024 scores, and its shifted row sum is the sum of the
  exponentials of the scores minus a given column.  Row by row, one step of the running (maximum, denominator)
  is the online softmax step on that row, so the walk over a list of chunks is, in row r, the walk over the list
  of that row's chunks.  The weights of a chunk are the shifted exponentials times a column; a chunk's
  contribution to the mixed values is the product of its weights with the chunk's value rows, and the
  contributions add up from zero; the output layer is the inner product with the output weight's rows plus the bias.
-/
import proofs.«129372_j77472620085715_2_alg».proof.Proof.Region1Defs
import proofs.«129372_j77472620085715_2_alg».proof.Proof.LibRowsTimesRows
import proofs.«129372_j77472620085715_2_alg».proof.Proof.LibPlainMatmul
import proofs.«129372_j77472620085715_2_alg».proof.Proof.LibRowForms
import proofs.«129372_j77472620085715_2_alg».proof.Proof.LibColumnForms
import proofs.«129372_j77472620085715_2_alg».proof.Proof.Online
import Idealize.ShloMosaic.Lib.ValueIdx
import Idealize.ShloMosaic.Lib.ValueLayout
import Idealize.ShloMosaic.Lib.Pipeline.Value

noncomputable section

open scoped BigOperators

namespace Cert.Attn.R1

open Idealize.ShloMosaic Idealize.ShloMosaic.ValueIdx Cert.KernelIdeal Cert.KernelIdeal.Gen

/-! ### Scores, row maxima and shifted row sums of one chunk -/

/-- The score of query row r against key row j of the chunk: the inner product of the two rows. -/
theorem sc_apply (q : FVec Ideal S256x512 .bf16) (kc : Vec Ideal S1024x512 .bf16) (r : Fin 256) (j : Fin 1024) :
    sc (F := Ideal) q kc (ix2 r j) = ∑ h : Fin 512, q (ix2 r h) * kc (ix2 j h) := by
  unfold sc
  rw [shapeCast_self kc]
  exact Cert.RowsTimesRows.rowsMatmul_zero_apply (R := 256) (n := 512) (k := 1024) _ none q kc r j

/-- The chunk's row maximum at row r: the fold of max from minus infinity over the row's scores. -/
theorem cmax_apply (s : FVec Ideal S256x1024 .f32) (r : Fin 256) :
    cmax (F := Ideal) s (ix2 r (0 : Fin 1))
      = (Finset.univ : Finset (Fin 1024)).fold max (Ideal.ofBits .f32 0xFF800000#32) (fun j : Fin 1024 => s (ix2 r j)) := by
  unfold cmax
  refine (Cert.ColumnForms.shapeCast_a_a1_apply _ shapeCasts_S256_S256x1 r 0).trans ?_
  exact Cert.RowForms.multiReduction_max_rows s reduces_S256x1024_S256 r

/-- The chunk's shifted row sum at row r: the sum of the exponentials of the scores minus the column's entry. -/
theorem csum_apply (s : FVec Ideal S256x1024 .f32) (m : FVec Ideal S256x1 .f32) (r : Fin 256) :
    csum (F := Ideal) s m (ix2 r (0 : Fin 1))
      = ∑ j : Fin 1024, Ideal.exp (s (ix2 r j) - m (ix2 r (0 : Fin 1))) := by
  unfold csum
  refine (Cert.ColumnForms.shapeCast_a_a1_apply _ shapeCasts_S256_S256x1 r 0).trans ?_
  refine (Cert.RowForms.multiReduction_add_rows _ reduces_S256x1024_S256 r).trans ?_
  refine Finset.sum_congr rfl fun j _ => ?_
  show Ideal.exp (s (ix2 r j) - broadcastTo S256x1024 m broadcasts_S256x1_S256x1024 (ix2 r j)) = _
  rw [Cert.ColumnForms.broadcastTo_a1_ab_apply]

/-! ### One step of the running maximum and denominator, and the walk -/

/-- The running maximum after one more chunk, at row r. -/
theorem mNext_apply (m : FVec Ideal S256x1 .f32) (s : FVec Ideal S256x1024 .f32) (r : Fin 256) :
    mNext (F := Ideal) m s (ix2 r (0 : Fin 1))
      = max (m (ix2 r (0 : Fin 1)))
          ((Finset.univ : Finset (Fin 1024)).fold max (Ideal.ofBits .f32 0xFF800000#32) (fun j : Fin 1024 => s (ix2 r j))) := by
  unfold mNext
  show max (m (ix2 r (0 : Fin 1))) (cmax (F := Ideal) s (ix2 r (0 : Fin 1))) = _
  rw [cmax_apply]

/-- The running denominator after one more chunk, at row r. -/
theorem lNext_apply (m l : FVec Ideal S256x1 .f32) (s : FVec Ideal S256x1024 .f32) (r : Fin 256) :
    lNext (F := Ideal) m l s (ix2 r (0 : Fin 1))
      = Ideal.exp (m (ix2 r (0 : Fin 1)) - mNext (F := Ideal) m s (ix2 r (0 : Fin 1))) * l (ix2 r (0 : Fin 1))
        + ∑ j : Fin 1024, Ideal.exp (s (ix2 r j) - mNext (F := Ideal) m s (ix2 r (0 : Fin 1))) := by
  unfold lNext
  show Ideal.exp (m (ix2 r (0 : Fin 1)) - mNext (F := Ideal) m s (ix2 r (0 : Fin 1))) * l (ix2 r (0 : Fin 1))
      + csum (F := Ideal) s (mNext (F := Ideal) m s) (ix2 r (0 : Fin 1)) = _
  rw [csum_apply]

/-- One step of the running pair, read at row r, is the online softmax step on that row's state and chunk. -/
theorem step_row (m l : FVec Ideal S256x1 .f32) (s : FVec Ideal S256x1024 .f32) (r : Fin 256) :
    (mNext (F := Ideal) m s (ix2 r (0 : Fin 1)), lNext (F := Ideal) m l s (ix2 r (0 : Fin 1)))
      = Cert.Attn.Online.rowStep (m (ix2 r (0 : Fin 1)), l (ix2 r (0 : Fin 1))) (fun j : Fin 1024 => s (ix2 r j)) := by
  rw [lNext_apply, mNext_apply]
  rfl

/-- The walk from any starting pair, read at row r, is the fold of the row step over the row's chunks. -/
theorem foldl_row (ss : List (FVec Ideal S256x1024 .f32)) (r : Fin 256)
    (st : FVec Ideal S256x1 .f32 × FVec Ideal S256x1 .f32) :
    ((ss.foldl (fun st s => (mNext (F := Ideal) st.1 s, lNext (F := Ideal) st.1 st.2 s)) st).1 (ix2 r (0 : Fin 1)),
     (ss.foldl (fun st s => (mNext (F := Ideal) st.1 s, lNext (F := Ideal) st.1 st.2 s)) st).2 (ix2 r (0 : Fin 1)))
      = (ss.map fun sv => fun j : Fin 1024 => sv (ix2 r j)).foldl Cert.Attn.Online.rowStep
          (st.1 (ix2 r (0 : Fin 1)), st.2 (ix2 r (0 : Fin 1))) := by
  induction ss generalizing st with
  | nil => rfl
  | cons s ss ih =>
    rw [List.foldl_cons, List.map_cons, List.foldl_cons]
    refine (ih _).trans ?_
    exact congrArg (List.foldl Cert.Attn.Online.rowStep · _) (step_row st.1 st.2 s r)

/-- The walk over a list of chunks, read at row r: the online softmax walk over the list of that row's chunks,
    from minus infinity and zero. -/
theorem walk_row (ss : List (FVec Ideal S256x1024 .f32)) (r : Fin 256) :
    ((walk (F := Ideal) ss).1 (ix2 r (0 : Fin 1)), (walk (F := Ideal) ss).2 (ix2 r (0 : Fin 1)))
      = Cert.Attn.Online.rowWalk (ss.map fun sv => fun j : Fin 1024 => sv (ix2 r j)) := by
  unfold walk Cert.Attn.Online.rowWalk
  exact foldl_row ss r (m0, l0)

/-! ### The reciprocal, the weights, the mixed values and the output layer -/

/-- The reciprocal of the final denominator at row r: the word of one divided by the denominator. -/
theorem recip_apply (l : FVec Ideal S256x1 .f32) (r : Fin 256) :
    recip (F := Ideal) l (ix2 r (0 : Fin 1)) = Ideal.div (Ideal.ofBits .f32 0x3F800000#32) (l (ix2 r (0 : Fin 1))) := rfl

/-- A chunk's weight at (r, j): the exponential of the score minus the row's maximum, times the row's factor. -/
theorem wch_apply (m il : FVec Ideal S256x1 .f32) (s : Vec Ideal S256x1024 .f32) (r : Fin 256) (j : Fin 1024) :
    wch (F := Ideal) m il s (ix2 r j)
      = Ideal.exp (s (ix2 r j) - m (ix2 r (0 : Fin 1))) * il (ix2 r (0 : Fin 1)) := by
  unfold wch
  rw [shapeCast_self s]
  show Ideal.exp (s (ix2 r j) - broadcastTo S256x1024 m broadcasts_S256x1_S256x1024 (ix2 r j))
      * broadcastTo S256x1024 il broadcasts_S256x1_S256x1024 (ix2 r j) = _
  rw [Cert.ColumnForms.broadcastTo_a1_ab_apply, Cert.ColumnForms.broadcastTo_a1_ab_apply]

/-- A chunk's contribution to the mixed values at (r, h): the weights of row r against column h of the chunk's values. -/
theorem mixc_apply (w : FVec Ideal S256x1024 .f32) (vc : Vec Ideal S1024x512 .bf16) (r : Fin 256) (h : Fin 512) :
    mixc (F := Ideal) w vc (ix2 r h) = ∑ j : Fin 1024, w (ix2 r j) * vc (ix2 j h) := by
  unfold mixc
  rw [shapeCast_self vc]
  exact Cert.PointConv.plainMatmul_zero_apply (R := 256) (n := 1024) (k := 512) _ none
    (truncf .bf16 w bitsLt_bf16_f32) vc r h

/-- The contributions of a list of chunks added to a starting accumulator, at (r, h). -/
theorem foldl_mix_apply (ps : List (FVec Ideal S256x1024 .f32 × Vec Ideal S1024x512 .bf16)) (r : Fin 256) (h : Fin 512)
    (a0 : FVec Ideal S256x512 .f32) :
    (ps.foldl (fun a p => addf a (mixc (F := Ideal) p.1 p.2)) a0) (ix2 r h)
      = ps.foldl (fun (a : EReal) p => a + ∑ j : Fin 1024, p.1 (ix2 r j) * p.2 (ix2 j h)) (a0 (ix2 r h)) := by
  induction ps generalizing a0 with
  | nil => rfl
  | cons p ps ih =>
    rw [List.foldl_cons, List.foldl_cons, ih]
    refine congrArg (List.foldl _ · ps) ?_
    show a0 (ix2 r h) + mixc (F := Ideal) p.1 p.2 (ix2 r h) = _
    rw [mixc_apply]

/-- The mixed values accumulated over a list of chunks, at (r, h): the chunks' sums added up from zero. -/
theorem accWalk_apply (ps : List (FVec Ideal S256x1024 .f32 × Vec Ideal S1024x512 .bf16)) (r : Fin 256) (h : Fin 512) :
    accWalk (F := Ideal) ps (ix2 r h)
      = ps.foldl (fun (a : EReal) p => a + ∑ j : Fin 1024, p.1 (ix2 r j) * p.2 (ix2 j h)) (Ideal.ofBits .f32 0x00000000#32) := by
  unfold accWalk
  exact foldl_mix_apply ps r h acc0

/-- The output layer at (r, o): row r of the mixed values against row o of the output weight, plus the bias at o. -/
theorem outLayer_apply (a : FVec Ideal S256x512 .f32) (wo : Vec Ideal S512x512 .bf16) (bo : Vec Ideal S512 .f32)
    (r : Fin 256) (o : Fin 512) :
    outLayer (F := Ideal) a wo bo (ix2 r o) = (∑ h : Fin 512, a (ix2 r h) * wo (ix2 o h)) + bo (ix1 o) := by
  unfold outLayer
  rw [shapeCast_self wo]
  refine (addf_apply _ _ _).trans ?_
  refine congrArg₂ (· + ·) ?_ ?_
  · exact Cert.RowsTimesRows.rowsMatmul_zero_apply (R := 256) (n := 512) (k := 512) _ none
      (truncf .bf16 a bitsLt_bf16_f32) wo r o
  · exact (broadcastTo_1b_ab_apply _ broadcasts_S1x512_S256x512 r o).trans
      (shapeCast_a_1a_apply bo shapeCasts_S512_S1x512 (0 : Fin 1) o)

end Cert.Attn.R1

end
-- ==== Proof.Region1Arr.lean ====
/-
  From the attention kernel's blocks to entries of the whole arrays.

  Grid point t holds query rows 256·t … 256·t + 255 and every key and value row.  Row r of its tile
  is row i = 256·t + r of the array of projected queries, so the tile's scores against key chunk c
  are the scores (i, 1024·c + j); the walk over the eight chunks ends at the row's greatest score
  and at the sum of the shifted exponentials over the whole row, because every score is a real; so
  the weights' block holds the softmax weights of those rows, and the output block the output layer
  of the weights mixing the value rows.
-/
import proofs.«129372_j77472620085715_2_alg».proof.Proof.Region1Out
import proofs.«129372_j77472620085715_2_alg».proof.Proof.Region1Idx
import proofs.«129372_j77472620085715_2_alg».proof.Proof.Online
import proofs.«129372_j77472620085715_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Attn.R1

open Cert.KernelIdeal Cert.KernelIdeal.Gen Cert.Attn Cert.Attn.Online

theorem hz1 : (![0] : Fin 1 → Nat) = fun _ => 0 := funext fun a => by fin_cases a; rfl

/-- An array of 8192 rows of 512 entries read as a table. -/
abbrev tab (X : Vec Ideal S8192x512 .bf16) : Tab 8192 512 := fun i h => X (ix2 i h)

/-- Row r of the tile of grid point t is row 256·t + r of the array. -/
def rowOf (t : Fin 32) (r : Fin 256) : Fin 8192 := ⟨256 * t.val + r.val, by omega⟩

theorem rowOf_val (t : Fin 32) (r : Fin 256) : (rowOf t r).val = 256 * t.val + r.val := rfl

/-- The chunk of 1024 rows from row 1024·c of an array held whole in a buffer, as the body loads it. -/
def chunkOf {F : FTy → Type} (arg : Memref sig .tc .vmem S8192x512 .bf16) (harg : arg.IsWhole) (x : Vec F S8192x512 .bf16)
    (cc : Fin 8) : Vec F S1024x512 .bf16 :=
  View.readAt (Elt F) arg.view (Rect.unit (s := S8192x512) ![1024 * cc.val, 0] S1024x512.size
    (Rect.inb₂ (by have := cc.isLt; show 1024 * cc.val + 1024 ≤ 8192; omega) (by show 0 + 512 ≤ 512; omega))).toLoadRect (harg.unread x)

/-- Row j of chunk c is row 1024·c + j of the array. -/
theorem chunkOf_apply (arg : Memref sig .tc .vmem S8192x512 .bf16) (harg : arg.IsWhole) (x : Vec Ideal S8192x512 .bf16)
    (cc : Fin 8) (j : Fin 1024) (h : Fin 512) : chunkOf arg harg x cc (ix2 j h) = x (ix2 (col cc j) h) := by
  unfold chunkOf
  rw [View.readAt_eq_ld, harg.read_unread]
  show x _ = x _
  congr 1
  funext z
  apply Fin.ext
  match z with
  | ⟨0, _⟩ => show 1024 * cc.val + 1 * j.val = 1024 * cc.val + j.val; omega
  | ⟨1, _⟩ => show 0 + 1 * h.val = h.val; omega

/-- The tile as the body loads it is the tile. -/
theorem tileOf_apply (arg1 : Memref sig .tc .vmem S256x512 .bf16) (harg1 : arg1.IsWhole) (x0 : Vec Ideal S256x512 .bf16)
    (r : Fin 256) (h : Fin 512) :
    qOf (View.readAt (Elt Ideal) arg1.view (Rect.unit (s := S256x512) ![0, 0] S256x512.size inb_S256x512_S256x512_0_0).toLoadRect (harg1.unread x0)) (ix2 r h) = x0 (ix2 r h) := by
  unfold qOf
  rw [View.readAt_eq_ld, harg1.read_unread, View.ld_unit_zero (S := S256x512) hz2, shapeCast_self]

/-- The output weight as the body loads it is the output weight. -/
theorem woOf_eq (arg4 : Memref sig .tc .vmem S512x512 .bf16) (harg4 : arg4.IsWhole) (x3 : Vec Ideal S512x512 .bf16) :
    View.readAt (Elt Ideal) arg4.view (Rect.unit (s := S512x512) ![0, 0] S512x512.size inb_S512x512_S512x512_0_0).toLoadRect (harg4.unread x3) = x3 := by
  rw [View.readAt_eq_ld, harg4.read_unread, View.ld_unit_zero (S := S512x512) hz2]

/-- The output bias as the body loads it is the output bias. -/
theorem boOf_eq (arg5 : Memref sig .tc .vmem S512 .f32) (harg5 : arg5.IsWhole) (x4 : Vec Ideal S512 .f32) :
    View.readAt (Elt Ideal) arg5.view (Rect.unit (s := S512) ![0] S512.size inb_S512_S512_0).toLoadRect (harg5.unread x4) = x4 := by
  rw [View.readAt_eq_ld, harg5.read_unread, View.ld_unit_zero (S := S512) hz1]

section Block

variable (qp kp vp : Vec Ideal S8192x512 .bf16) (wo : Vec Ideal S512x512 .bf16) (bo : Vec Ideal S512 .f32)
  (tt : Fin 32) (x0 : Vec Ideal S256x512 .bf16) (x1 x2 : Vec Ideal S8192x512 .bf16)
  (x3 : Vec Ideal S512x512 .bf16) (x4 : Vec Ideal S512 .f32)
  (c : Dev nD) (i : grid1.Coords)
  (arg1 : Memref sig .tc .vmem S256x512 .bf16) (harg1 : arg1.IsWhole)
  (arg2 : Memref sig .tc .vmem S8192x512 .bf16) (harg2 : arg2.IsWhole)
  (arg3 : Memref sig .tc .vmem S8192x512 .bf16) (harg3 : arg3.IsWhole)
  (arg4 : Memref sig .tc .vmem S512x512 .bf16) (harg4 : arg4.IsWhole)
  (arg5 : Memref sig .tc .vmem S512 .f32) (harg5 : arg5.IsWhole)
  (arg6 : Memref sig .tc .vmem S256x512 .f32) (harg6 : arg6.IsWhole)
  (arg7 : Memref sig .tc .vmem S256x8192 .f32) (harg7 : arg7.IsWhole)

/-- The tile's scores against chunk c, at (r, j): the score of row 256·t + r against row 1024·c + j. -/
theorem sc_entry (hx0 : ∀ r h, x0 (ix2 r h) = qp (ix2 (rowOf tt r) h)) (hx1 : ∀ j h, x1 (ix2 j h) = kp (ix2 j h)) (cc : Fin 8) (r : Fin 256) (j : Fin 1024) :
    sc (qOf (View.readAt (Elt Ideal) arg1.view (Rect.unit (s := S256x512) ![0, 0] S256x512.size inb_S256x512_S256x512_0_0).toLoadRect (harg1.unread x0))) (chunkOf arg2 harg2 x1 cc) (ix2 r j)
      = score (tab qp) (tab kp) (rowOf tt r) (col cc j) := by
  rw [sc_apply]
  unfold score
  refine Finset.sum_congr rfl fun h _ => ?_
  rw [tileOf_apply, chunkOf_apply, hx0, hx1]

/-- The eight chunks' scores of row r are the row of scores cut into its eight chunks. -/
theorem rows_eq (hx0 : ∀ r h, x0 (ix2 r h) = qp (ix2 (rowOf tt r) h)) (hx1 : ∀ j h, x1 (ix2 j h) = kp (ix2 j h)) (r : Fin 256) :
    (chunkScores arg1 harg1 arg2 harg2 x0 x1).map (fun sv => fun j : Fin 1024 => sv (ix2 r j))
      = chunks (score (tab qp) (tab kp) (rowOf tt r)) := by
  have e : ∀ cc : Fin 8, (fun j : Fin 1024 => sc (qOf (View.readAt (Elt Ideal) arg1.view (Rect.unit (s := S256x512) ![0, 0] S256x512.size inb_S256x512_S256x512_0_0).toLoadRect (harg1.unread x0))) (chunkOf arg2 harg2 x1 cc) (ix2 r j))
      = fun j => score (tab qp) (tab kp) (rowOf tt r) (col cc j) :=
    fun cc => funext fun j => sc_entry qp kp tt x0 x1 arg1 harg1 arg2 harg2 hx0 hx1 cc r j
  show [_, _, _, _, _, _, _, _] = [_, _, _, _, _, _, _, _]
  exact congr (congrArg List.cons (e 0)) (congr (congrArg List.cons (e 1)) (congr (congrArg List.cons (e 2))
    (congr (congrArg List.cons (e 3)) (congr (congrArg List.cons (e 4)) (congr (congrArg List.cons (e 5))
    (congr (congrArg List.cons (e 6)) (congr (congrArg List.cons (e 7)) rfl)))))))

/-- The walk over the eight chunks ends, at row r, at the row's greatest score and at the sum of the
    shifted exponentials over the whole row. -/
theorem walk_entry (hreal : ∀ i j, ∃ x : ℝ, score (tab qp) (tab kp) i j = (x : EReal)) (hx0 : ∀ r h, x0 (ix2 r h) = qp (ix2 (rowOf tt r) h)) (hx1 : ∀ j h, x1 (ix2 j h) = kp (ix2 j h)) (r : Fin 256) :
    (walk (chunkScores arg1 harg1 arg2 harg2 x0 x1)).1 (ix2 r (0 : Fin 1)) = rowTop (score (tab qp) (tab kp)) (rowOf tt r)
    ∧ (walk (chunkScores arg1 harg1 arg2 harg2 x0 x1)).2 (ix2 r (0 : Fin 1)) = rowDen (score (tab qp) (tab kp)) (rowOf tt r) := by
  have hw := walk_row (chunkScores arg1 harg1 arg2 harg2 x0 x1) r
  rw [rows_eq qp kp tt x0 x1 arg1 harg1 arg2 harg2 hx0 hx1 r, rowWalk_eq _ (hreal (rowOf tt r))] at hw
  have h1 := congrArg Prod.fst hw
  have h2 := congrArg Prod.snd hw
  dsimp only at h1 h2
  unfold rowDen rowTop
  exact ⟨h1, h2⟩

/-- A chunk's weights at (r, j): the softmax weight of row 256·t + r at column 1024·c + j. -/
theorem wch_entry (hreal : ∀ i j, ∃ x : ℝ, score (tab qp) (tab kp) i j = (x : EReal)) (hx0 : ∀ r h, x0 (ix2 r h) = qp (ix2 (rowOf tt r) h)) (hx1 : ∀ j h, x1 (ix2 j h) = kp (ix2 j h)) (cc : Fin 8) (r : Fin 256) (j : Fin 1024) :
    wch (walk (chunkScores arg1 harg1 arg2 harg2 x0 x1)).1 (recip (walk (chunkScores arg1 harg1 arg2 harg2 x0 x1)).2)
        (sc (qOf (View.readAt (Elt Ideal) arg1.view (Rect.unit (s := S256x512) ![0, 0] S256x512.size inb_S256x512_S256x512_0_0).toLoadRect (harg1.unread x0))) (chunkOf arg2 harg2 x1 cc)) (ix2 r j)
      = weightMul (score (tab qp) (tab kp)) (rowOf tt r) (col cc j) := by
  obtain ⟨hM, hL⟩ := walk_entry qp kp tt x0 x1 arg1 harg1 arg2 harg2 hreal hx0 hx1 r
  rw [wch_apply, recip_apply, hM, hL, sc_entry qp kp tt x0 x1 arg1 harg1 arg2 harg2 hx0 hx1 cc r j]
  rfl

/-- THE WEIGHTS' BLOCK after the body, entry (r, 1024·c + j): the softmax weight (256·t + r, 1024·c + j). -/
theorem weights_block (hreal : ∀ i j, ∃ x : ℝ, score (tab qp) (tab kp) i j = (x : EReal)) (hx0 : ∀ r h, x0 (ix2 r h) = qp (ix2 (rowOf tt r) h)) (hx1 : ∀ j h, x1 (ix2 j h) = kp (ix2 j h)) (r : Fin 256) (cc : Fin 8) (j : Fin 1024) :
    out1_A_6 (F := Ideal) c i arg1 harg1 arg2 harg2 arg3 harg3 arg4 harg4 arg5 harg5 arg6 harg6 arg7 harg7 x0 x1 x2 x3 x4 (ix2 r (col cc j))
      = weightMul (score (tab qp) (tab kp)) (rowOf tt r) (col cc j) := by
  have key := wch_entry qp kp tt x0 x1 arg1 harg1 arg2 harg2 hreal hx0 hx1
  fin_cases cc
  · exact (weights0_eq c i arg1 harg1 arg2 harg2 arg3 harg3 arg4 harg4 arg5 harg5 arg6 harg6 arg7 harg7 x0 x1 x2 x3 x4 r j).trans (key 0 r j)
  · exact (weights1_eq c i arg1 harg1 arg2 harg2 arg3 harg3 arg4 harg4 arg5 harg5 arg6 harg6 arg7 harg7 x0 x1 x2 x3 x4 r j).trans (key 1 r j)
  · exact (weights2_eq c i arg1 harg1 arg2 harg2 arg3 harg3 arg4 harg4 arg5 harg5 arg6 harg6 arg7 harg7 x0 x1 x2 x3 x4 r j).trans (key 2 r j)
  · exact (weights3_eq c i arg1 harg1 arg2 harg2 arg3 harg3 arg4 harg4 arg5 harg5 arg6 harg6 arg7 harg7 x0 x1 x2 x3 x4 r j).trans (key 3 r j)
  · exact (weights4_eq c i arg1 harg1 arg2 harg2 arg3 harg3 arg4 harg4 arg5 harg5 arg6 harg6 arg7 harg7 x0 x1 x2 x3 x4 r j).trans (key 4 r j)
  · exact (weights5_eq c i arg1 harg1 arg2 harg2 arg3 harg3 arg4 harg4 arg5 harg5 arg6 harg6 arg7 harg7 x0 x1 x2 x3 x4 r j).trans (key 5 r j)
  · exact (weights6_eq c i arg1 harg1 arg2 harg2 arg3 harg3 arg4 harg4 arg5 harg5 arg6 harg6 arg7 harg7 x0 x1 x2 x3 x4 r j).trans (key 6 r j)
  · exact (weights7_eq c i arg1 harg1 arg2 harg2 arg3 harg3 arg4 harg4 arg5 harg5 arg6 harg6 arg7 harg7 x0 x1 x2 x3 x4 r j).trans (key 7 r j)

/-- THE OUTPUT BLOCK after the body, entry (r, o): the output layer of the weights mixing the value rows. -/
theorem out_block (hreal : ∀ i j, ∃ x : ℝ, score (tab qp) (tab kp) i j = (x : EReal)) (hx0 : ∀ r h, x0 (ix2 r h) = qp (ix2 (rowOf tt r) h)) (hx1 : ∀ j h, x1 (ix2 j h) = kp (ix2 j h)) (hx2 : ∀ j h, x2 (ix2 j h) = vp (ix2 j h)) (hx3 : ∀ o h, x3 (ix2 o h) = wo (ix2 o h)) (hx4 : ∀ o, x4 (ix1 o) = bo (ix1 o)) (r : Fin 256) (o : Fin 512) :
    out1_A_5 (F := Ideal) c i arg1 harg1 arg2 harg2 arg3 harg3 arg4 harg4 arg5 harg5 arg6 harg6 arg7 harg7 x0 x1 x2 x3 x4 (ix2 r o)
      = outp (mix (weightMul (score (tab qp) (tab kp))) (tab vp)) wo bo (rowOf tt r) o := by
  rw [outBlock_eq, woOf_eq, boOf_eq]
  refine (outLayer_apply _ _ _ r o).trans ?_
  unfold outp
  rw [hx4]
  refine congrArg (· + bo (ix1 o)) (Finset.sum_congr rfl fun h _ => ?_)
  rw [hx3]
  refine congrArg (· * wo (ix2 o h)) ?_
  rw [accWalk_apply]
  unfold mix
  rw [← blocks_sum (fun jj => weightMul (score (tab qp) (tab kp)) (rowOf tt r) jj * tab vp jj h)]
  show List.foldl _ _ (([0, 1, 2, 3, 4, 5, 6, 7] : List (Fin 8)).map (fun cc : Fin 8 =>
      (wch (walk (chunkScores arg1 harg1 arg2 harg2 x0 x1)).1 (recip (walk (chunkScores arg1 harg1 arg2 harg2 x0 x1)).2) (sc (qOf (View.readAt (Elt Ideal) arg1.view (Rect.unit (s := S256x512) ![0, 0] S256x512.size inb_S256x512_S256x512_0_0).toLoadRect (harg1.unread x0))) (chunkOf arg2 harg2 x1 cc)), chunkOf arg3 harg3 x2 cc))) = _
  rw [List.foldl_map]
  refine congrArg (fun f => List.foldl f (Ideal.ofBits .f32 0x00000000#32) ([0, 1, 2, 3, 4, 5, 6, 7] : List (Fin 8))) ?_
  funext a cc
  refine congrArg (a + ·) (Finset.sum_congr rfl fun j _ => ?_)
  show wch (walk (chunkScores arg1 harg1 arg2 harg2 x0 x1)).1 (recip (walk (chunkScores arg1 harg1 arg2 harg2 x0 x1)).2) (sc (qOf (View.readAt (Elt Ideal) arg1.view (Rect.unit (s := S256x512) ![0, 0] S256x512.size inb_S256x512_S256x512_0_0).toLoadRect (harg1.unread x0))) (chunkOf arg2 harg2 x1 cc)) (ix2 r j) * chunkOf arg3 harg3 x2 cc (ix2 j h) = _
  rw [wch_entry qp kp tt x0 x1 arg1 harg1 arg2 harg2 hreal hx0 hx1 cc r j, chunkOf_apply, hx2]

end Block

end Cert.Attn.R1

end
-- ==== Proof.Region1Fin.lean ====
/-
  The attention kernel's region: from the blocks of one grid point to the two whole arrays.

  The grid has 32 points. At point t the window on the projected queries holds rows 256·t … 256·t + 255 of its
  array; the windows on the projected keys, the projected values, the output weight matrix and the output bias
  vector hold the whole arrays; the output window holds rows 256·t … 256·t + 255 of the output array and the
  weights' window the same rows, all 8192 columns, of the weights' array. The body leaves in the weights' window
  the softmax weights of its rows and in the output window the output layer of the weights mixing the value
  rows, each an entry of ONE function of the whole arrays; row r of either array is covered by point r / 256,
  so after the region the two arrays hold those functions.
-/
import proofs.«129372_j77472620085715_2_alg».proof.Proof.Gen.KernelIdeal.Frame
import proofs.«129372_j77472620085715_2_alg».proof.Proof.Spec
import proofs.«129372_j77472620085715_2_alg».proof.Proof.Region1Arr
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Attn.R1

open Cert.KernelIdeal Cert.KernelIdeal.Gen Cert.Attn

/-! ## Where each window's block sits, decided over the 32 grid points -/

/-- The windows on the queries and on the two outputs move one block of 256 rows per point and span the
    columns; the other four hold their whole arrays at every point. -/
theorem idx1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

section Blocks
-- what the core's buffers hold when the region is entered
variable (V : (c : Dev nD) → (b : Ref sig .tc) → Buf (Elt Ideal) ((c : Thread nD τ).loc b))

/-! ## The input windows' blocks as parts of their arrays -/

/-- Window 0's block at point t is rows 256·t … 256·t + 255 of the projected queries. -/
theorem iblk1_0 (c : Dev nD) (t : Fin cfg1.N) (r : Fin 256) (h : Fin 512) (R : Fin 8192)
    (hR : R.val = 256 * t.val + r.val) :
    (iblk1 (F := Ideal) V c 0 t : Vec Ideal S256x512 .bf16) (ix2 r h)
      = (V c main_v3_0 : S8192x512.Idx → EReal) (ix2 R h) := by
  obtain ⟨a00, a01, a50, a51, a60, a61, a10, a11, a20, a21, a30, a31, a4⟩ := idx1 t
  unfold iblk1
  rw [View.read_apply]
  show V c main_v3_0 _ = V c main_v3_0 _
  congr 1
  funext a
  apply Fin.ext
  match a with
  | ⟨0, _⟩ => show win1_0.index t (0 : Fin 2) * 256 + 1 * r.val = R.val; rw [a00, hR]; omega
  | ⟨1, _⟩ => show win1_0.index t (1 : Fin 2) * 512 + 1 * h.val = h.val; rw [a01]; omega

/-- Window 1's block at every point is the whole array of the projected keys. -/
theorem iblk1_1 (c : Dev nD) (t : Fin cfg1.N) (j : Fin 8192) (h : Fin 512) :
    (iblk1 (F := Ideal) V c 1 t : Vec Ideal S8192x512 .bf16) (ix2 j h)
      = (V c main_v3_1 : S8192x512.Idx → EReal) (ix2 j h) := by
  obtain ⟨a00, a01, a50, a51, a60, a61, a10, a11, a20, a21, a30, a31, a4⟩ := idx1 t
  unfold iblk1
  rw [View.read_apply]
  show V c main_v3_1 _ = V c main_v3_1 _
  congr 1
  funext a
  apply Fin.ext
  match a with
  | ⟨0, _⟩ => show win1_1.index t (0 : Fin 2) * 8192 + 1 * j.val = j.val; rw [a10]; omega
  | ⟨1, _⟩ => show win1_1.index t (1 : Fin 2) * 512 + 1 * h.val = h.val; rw [a11]; omega

/-- Window 2's block at every point is the whole array of the projected values. -/
theorem iblk1_2 (c : Dev nD) (t : Fin cfg1.N) (j : Fin 8192) (h : Fin 512) :
    (iblk1 (F := Ideal) V c 2 t : Vec Ideal S8192x512 .bf16) (ix2 j h)
      = (V c main_v3_2 : S8192x512.Idx → EReal) (ix2 j h) := by
  obtain ⟨a00, a01, a50, a51, a60, a61, a10, a11, a20, a21, a30, a31, a4⟩ := idx1 t
  unfold iblk1
  rw [View.read_apply]
  show V c main_v3_2 _ = V c main_v3_2 _
  congr 1
  funext a
  apply Fin.ext
  match a with
  | ⟨0, _⟩ => show win1_2.index t (0 : Fin 2) * 8192 + 1 * j.val = j.val; rw [a20]; omega
  | ⟨1, _⟩ => show win1_2.index t (1 : Fin 2) * 512 + 1 * h.val = h.val; rw [a21]; omega

/-- Window 3's block at every point is the whole array of the output weight matrix. -/
theorem iblk1_3 (c : Dev nD) (t : Fin cfg1.N) (j : Fin 512) (h : Fin 512) :
    (iblk1 (F := Ideal) V c 3 t : Vec Ideal S512x512 .bf16) (ix2 j h)
      = (V c main_v4 : S512x512.Idx → EReal) (ix2 j h) := by
  obtain ⟨a00, a01, a50, a51, a60, a61, a10, a11, a20, a21, a30, a31, a4⟩ := idx1 t
  unfold iblk1
  rw [View.read_apply]
  show V c main_v4 _ = V c main_v4 _
  congr 1
  funext a
  apply Fin.ext
  match a with
  | ⟨0, _⟩ => show win1_3.index t (0 : Fin 2) * 512 + 1 * j.val = j.val; rw [a30]; omega
  | ⟨1, _⟩ => show win1_3.index t (1 : Fin 2) * 512 + 1 * h.val = h.val; rw [a31]; omega

/-- Window 4's block at every point is the whole output bias vector. -/
theorem iblk1_4 (c : Dev nD) (t : Fin cfg1.N) (o : Fin 512) :
    (iblk1 (F := Ideal) V c 4 t : Vec Ideal S512 .f32) (ix1 o)
      = (V c main_arg10 : S512.Idx → EReal) (ix1 o) := by
  obtain ⟨a00, a01, a50, a51, a60, a61, a10, a11, a20, a21, a30, a31, a4⟩ := idx1 t
  unfold iblk1
  rw [View.read_apply]
  show V c main_arg10 _ = V c main_arg10 _
  congr 1
  funext a
  apply Fin.ext
  match a with
  | ⟨0, _⟩ => show win1_4.index t (0 : Fin 1) * 512 + 1 * o.val = o.val; rw [a4]; omega

/-! ## Every row of an output array is in some point's block -/

/-- Row r of the output array is in the block of point r / 256. -/
theorem cover5 (i : S8192x512.Idx) :
    ∃ t : Fin cfg1.N, (cfg1.win 5).flush t = true ∧ i ∈ ((cfg1.win 5).blk t).view.set := by
  have hi0 : (i 0).val < 8192 := (i 0).isLt
  have hi1 : (i 1).val < 512 := (i 1).isLt
  obtain ⟨t, ht⟩ : ∃ t : Fin cfg1.N, t.val = (i 0).val / 256 :=
    ⟨⟨(i 0).val / 256, by show _ < 32; omega⟩, rfl⟩
  obtain ⟨a00, a01, a50, a51, a60, a61, a10, a11, a20, a21, a30, a31, a4⟩ := idx1 t
  refine ⟨t, flush1_5 t, ?_⟩
  show i ∈ ((View.whole main_v5_0).slice (win1_5.rect t)).set
  rw [View.set_slice_whole, Rect.mem_set_unit]
  intro a
  match a with
  | ⟨0, _⟩ =>
    show win1_5.index t (0 : Fin 2) * 256 ≤ (i 0).val ∧ (i 0).val < win1_5.index t (0 : Fin 2) * 256 + 256
    rw [a50]; omega
  | ⟨1, _⟩ =>
    show win1_5.index t (1 : Fin 2) * 512 ≤ (i 1).val ∧ (i 1).val < win1_5.index t (1 : Fin 2) * 512 + 512
    rw [a51]; omega

/-- Row r of the weights' array is in the block of point r / 256. -/
theorem cover6 (i : S8192x8192.Idx) :
    ∃ t : Fin cfg1.N, (cfg1.win 6).flush t = true ∧ i ∈ ((cfg1.win 6).blk t).view.set := by
  have hi0 : (i 0).val < 8192 := (i 0).isLt
  have hi1 : (i 1).val < 8192 := (i 1).isLt
  obtain ⟨t, ht⟩ : ∃ t : Fin cfg1.N, t.val = (i 0).val / 256 :=
    ⟨⟨(i 0).val / 256, by show _ < 32; omega⟩, rfl⟩
  obtain ⟨a00, a01, a50, a51, a60, a61, a10, a11, a20, a21, a30, a31, a4⟩ := idx1 t
  refine ⟨t, flush1_6 t, ?_⟩
  show i ∈ ((View.whole main_v5_1).slice (win1_6.rect t)).set
  rw [View.set_slice_whole, Rect.mem_set_unit]
  intro a
  match a with
  | ⟨0, _⟩ =>
    show win1_6.index t (0 : Fin 2) * 256 ≤ (i 0).val ∧ (i 0).val < win1_6.index t (0 : Fin 2) * 256 + 256
    rw [a60]; omega
  | ⟨1, _⟩ =>
    show win1_6.index t (1 : Fin 2) * 8192 ≤ (i 1).val ∧ (i 1).val < win1_6.index t (1 : Fin 2) * 8192 + 8192
    rw [a61]; omega

/-! ## What the body leaves in the two output windows, entry by entry -/

/-- A grid point as a number below 32. -/
def ptOf (t : Fin cfg1.N) : Fin 32 := ⟨t.val, t.isLt⟩

/-- The softmax weights of two arrays of projected rows, as an array. -/
abbrev wArr (qp kp : Vec Ideal S8192x512 .bf16) : S8192x8192.Idx → EReal :=
  fun idx => weightMul (score (tab qp) (tab kp)) (idx 0) (idx 1)

/-- The output layer of the weights mixing the value rows, as an array. -/
abbrev oArr (qp kp vp : Vec Ideal S8192x512 .bf16) (wo : Vec Ideal S512x512 .bf16) (bo : Vec Ideal S512 .f32) :
    S8192x512.Idx → EReal :=
  fun idx => outp (mix (weightMul (score (tab qp) (tab kp))) (tab vp)) wo bo (idx 0) (idx 1)

/-- The two output windows after the body at point t, named. -/
theorem outsAt1_fst (c : Dev nD) (t : Fin cfg1.N) :
    (outsAt1 (F := Ideal) V c t).1
      = out1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) := by
  unfold outsAt1; dsimp only

theorem outsAt1_snd (c : Dev nD) (t : Fin cfg1.N) :
    (outsAt1 (F := Ideal) V c t).2
      = out1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) := by
  unfold outsAt1; dsimp only

/-- The weights' window after the body at point t, entry j: the softmax weight at row 256·t + j₀, column j₁. -/
theorem w_block (c : Dev nD) (hreal : ∀ i j, ∃ x : ℝ, score (tab (V c main_v3_0)) (tab (V c main_v3_1)) i j = (x : EReal))
    (t : Fin cfg1.N) (j : S256x8192.Idx) (i : S8192x8192.Idx)
    (h0 : (i 0).val = 256 * t.val + (j 0).val) (h1 : (i 1).val = (j 1).val) :
    (outsAt1 (F := Ideal) V c t).2 j = wArr (V c main_v3_0) (V c main_v3_1) i := by
  rw [outsAt1_snd]
  obtain ⟨r, k, rfl⟩ : ∃ (r : Fin 256) (k : Fin 8192), j = ix2 r k := ⟨j 0, j 1, eq_ix2 j⟩
  obtain ⟨cc, j', rfl⟩ : ∃ (cc : Fin 8) (j' : Fin 1024), k = Online.col cc j' :=
    ⟨⟨k.val / 1024, by have := k.isLt; omega⟩, ⟨k.val % 1024, by omega⟩,
      Fin.ext (by show k.val = 1024 * (k.val / 1024) + k.val % 1024; omega)⟩
  have hi0 : i 0 = rowOf (ptOf t) r := Fin.ext h0
  have hi1 : i 1 = Online.col cc j' := Fin.ext h1
  show _ = weightMul (score (tab (V c main_v3_0)) (tab (V c main_v3_1))) (i 0) (i 1)
  rw [hi0, hi1]
  exact weights_block (V c main_v3_0) (V c main_v3_1) (ptOf t)
    (iblk1 V c 0 t) (iblk1 V c 1 t) (iblk1 V c 2 t) (iblk1 V c 3 t) (iblk1 V c 4 t)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hreal
    (fun r h => iblk1_0 V c t r h (rowOf (ptOf t) r) rfl)
    (fun j h => iblk1_1 V c t j h) r cc j'

/-- The output window after the body at point t, entry j: the output layer at row 256·t + j₀, column j₁. -/
theorem o_block (c : Dev nD) (hreal : ∀ i j, ∃ x : ℝ, score (tab (V c main_v3_0)) (tab (V c main_v3_1)) i j = (x : EReal))
    (t : Fin cfg1.N) (j : S256x512.Idx) (i : S8192x512.Idx)
    (h0 : (i 0).val = 256 * t.val + (j 0).val) (h1 : (i 1).val = (j 1).val) :
    (outsAt1 (F := Ideal) V c t).1 j = oArr (V c main_v3_0) (V c main_v3_1) (V c main_v3_2) (V c main_v4) (V c main_arg10) i := by
  rw [outsAt1_fst]
  obtain ⟨r, o, rfl⟩ : ∃ (r : Fin 256) (o : Fin 512), j = ix2 r o := ⟨j 0, j 1, eq_ix2 j⟩
  have hi0 : i 0 = rowOf (ptOf t) r := Fin.ext h0
  have hi1 : i 1 = o := Fin.ext h1
  show _ = outp (mix (weightMul (score (tab (V c main_v3_0)) (tab (V c main_v3_1)))) (tab (V c main_v3_2))) (V c main_v4) (V c main_arg10) (i 0) (i 1)
  rw [hi0, hi1]
  exact out_block (V c main_v3_0) (V c main_v3_1) (V c main_v3_2) (V c main_v4) (V c main_arg10) (ptOf t)
    (iblk1 V c 0 t) (iblk1 V c 1 t) (iblk1 V c 2 t) (iblk1 V c 3 t) (iblk1 V c 4 t)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hreal
    (fun r h => iblk1_0 V c t r h (rowOf (ptOf t) r) rfl)
    (fun j h => iblk1_1 V c t j h) (fun j h => iblk1_2 V c t j h)
    (fun o h => iblk1_3 V c t o h) (fun o => iblk1_4 V c t o) r o

/-! ## What a point writes back, and the arrays after the region -/

/-- WHAT POINT t WRITES BACK to the weights' array is block t of the softmax weights. -/
theorem flushed6_eq (c : Dev nD) (hreal : ∀ i j, ∃ x : ℝ, score (tab (V c main_v3_0)) (tab (V c main_v3_1)) i j = (x : EReal)) (t : Fin cfg1.N) :
    (dat1 (F := Ideal) V c).flushed 6 t
      = ((cfg1.win 6).blk t).view.read (Elt Ideal) (wArr (V c main_v3_0) (V c main_v3_1)) := by
  obtain ⟨a00, a01, a50, a51, a60, a61, a10, a11, a20, a21, a30, a31, a4⟩ := idx1 t
  show (cfg1.win 6).cut (grid1.coords t) ((dat1 V c).after 6 t) = _
  rw [after1_6]
  funext j
  rw [View.read_apply]
  refine w_block V c hreal t ((cfg1.win 6).xinj (grid1.coords t) j) (((cfg1.win 6).blk t).view.emb j) ?_ ?_
  · show win1_6.index t (0 : Fin 2) * 256 + 1 * (j 0).val = 256 * t.val + (j 0).val
    rw [a60]; omega
  · show win1_6.index t (1 : Fin 2) * 8192 + 1 * (j 1).val = (j 1).val
    rw [a61]; omega

/-- WHAT POINT t WRITES BACK to the output array is block t of the output layer. -/
theorem flushed5_eq (c : Dev nD) (hreal : ∀ i j, ∃ x : ℝ, score (tab (V c main_v3_0)) (tab (V c main_v3_1)) i j = (x : EReal)) (t : Fin cfg1.N) :
    (dat1 (F := Ideal) V c).flushed 5 t
      = ((cfg1.win 5).blk t).view.read (Elt Ideal) (oArr (V c main_v3_0) (V c main_v3_1) (V c main_v3_2) (V c main_v4) (V c main_arg10)) := by
  obtain ⟨a00, a01, a50, a51, a60, a61, a10, a11, a20, a21, a30, a31, a4⟩ := idx1 t
  show (cfg1.win 5).cut (grid1.coords t) ((dat1 V c).after 5 t) = _
  rw [after1_5]
  funext j
  rw [View.read_apply]
  refine o_block V c hreal t ((cfg1.win 5).xinj (grid1.coords t) j) (((cfg1.win 5).blk t).view.emb j) ?_ ?_
  · show win1_5.index t (0 : Fin 2) * 256 + 1 * (j 0).val = 256 * t.val + (j 0).val
    rw [a50]; omega
  · show win1_5.index t (1 : Fin 2) * 512 + 1 * (j 1).val = (j 1).val
    rw [a51]; omega

/-- THE WEIGHTS' ARRAY after the region: the softmax weights of the scores of the projected queries against the
    projected keys, when every such score is a real number. -/
theorem arr6 (c : Dev nD) (hreal : ∀ i j, ∃ x : ℝ, score (tab (V c main_v3_0)) (tab (V c main_v3_1)) i j = (x : EReal)) :
    (dat1 (F := Ideal) V c).arrAt 6 cfg1.N
      = fun idx => weightMul (score (tab (V c main_v3_0)) (tab (V c main_v3_1))) (idx 0) (idx 1) :=
  (dat1 (F := Ideal) V c).arrAt_eq_of_cover 6 (wArr (V c main_v3_0) (V c main_v3_1))
    (fun t _ => flushed6_eq V c hreal t) cover6

/-- THE OUTPUT ARRAY after the region: the output layer of those weights mixing the projected value rows. -/
theorem arr5 (c : Dev nD) (hreal : ∀ i j, ∃ x : ℝ, score (tab (V c main_v3_0)) (tab (V c main_v3_1)) i j = (x : EReal)) :
    (dat1 (F := Ideal) V c).arrAt 5 cfg1.N
      = fun idx => outp (mix (weightMul (score (tab (V c main_v3_0)) (tab (V c main_v3_1)))) (tab (V c main_v3_2))) (V c main_v4) (V c main_arg10)
          (idx 0) (idx 1) :=
  (dat1 (F := Ideal) V c).arrAt_eq_of_cover 5 (oArr (V c main_v3_0) (V c main_v3_1) (V c main_v3_2) (V c main_v4) (V c main_arg10))
    (fun t _ => flushed5_eq V c hreal t) cover5

end Blocks

end Cert.Attn.R1

end
-- ==== Proof.LibRealEntries.lean ====
/-
  Real entries. An extended real is REAL when it is neither infinity (`IsReal v : ∃ r : ℝ, v = r`). The exact
  operations on the extended reals keep real entries real: sums, differences, products, maxima and minima; a finite
  sum; the exact quotient by a nonzero real; the square root of a nonnegative real and the reciprocal square root of
  a positive real; a contraction (a matrix product onto a real accumulator); a sum along axes from a real initial
  value; and an accumulating scatter (each entry of the operand plus the sum of the update entries that land on it,
  whatever the indices are). With these a chain of linear layers, rectifications, segment sums and normalisations of
  finite inputs has real entries throughout — which is what distributivity and cancellation on the extended reals
  need.
-/
import Idealize.ShloMosaic.PureOps.Ideal

noncomputable section

namespace Cert.LibRealEntries

open Idealize.ShloMosaic

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {v : EReal} (h : IsReal v) : v ≠ ⊤ := by obtain ⟨r, rfl⟩ := h; exact EReal.coe_ne_top r
theorem IsReal.ne_bot {v : EReal} (h : IsReal v) : v ≠ ⊥ := by obtain ⟨r, rfl⟩ := h; exact EReal.coe_ne_bot r

/-- Real exactly when neither infinity. -/
theorem isReal_iff (v : EReal) : IsReal v ↔ v ≠ ⊤ ∧ v ≠ ⊥ :=
  ⟨fun h => ⟨h.ne_top, h.ne_bot⟩, fun h => ⟨v.toReal, (EReal.coe_toReal h.1 h.2).symm⟩⟩

/-- A real entry is the coercion of its own real part. -/
theorem IsReal.eq_coe_toReal {v : EReal} (h : IsReal v) : v = ((v.toReal : ℝ) : EReal) := by
  obtain ⟨r, rfl⟩ := h; rw [EReal.toReal_coe]

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.max {a b : EReal} (ha : IsReal a) (hb : IsReal b) : IsReal (max a b) := by
  rcases max_cases a b with h | h <;> rw [h.1] <;> assumption
theorem IsReal.min {a b : EReal} (ha : IsReal a) (hb : IsReal b) : IsReal (min a b) := by
  rcases min_cases a b with h | h <;> rw [h.1] <;> assumption

/-- A finite sum of real entries is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real entry by a nonzero real is real. -/
theorem IsReal.div_coe {a : EReal} (ha : IsReal a) {n : ℝ} (hn : n ≠ 0) : IsReal (Ideal.div a (n : EReal)) := by
  rw [Ideal.div_coe hn]; exact ha.mul (isReal_coe _)

/-- The square root of a nonnegative real is real. -/
theorem isReal_sqrt {r : ℝ} (hr : 0 ≤ r) : IsReal (Ideal.sqrt (r : EReal)) := by
  rw [Ideal.sqrt_coe, if_neg (not_lt.mpr hr)]; exact isReal_coe _

/-- The reciprocal square root of a positive real is real. -/
theorem isReal_rsqrt {r : ℝ} (hr : 0 < r) : IsReal (Ideal.rsqrt (r : EReal)) := by
  rw [Ideal.rsqrt_coe, if_neg (not_lt.mpr hr.le), if_neg hr.ne']; exact isReal_coe _

/-- A contraction of real operands onto a real accumulator has real entries. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  (ha j).add (isReal_sum _ _ fun k _ => (hl _).mul (hr _))

/-- A host sum along axes of real entries from a real initial value has real entries. -/
theorem isReal_hostReduceAdd {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) :=
  hi.add (isReal_sum _ _ fun i _ => hx i)

/-- A lane sum along axes of real entries has real entries. -/
theorem isReal_reduceAdd {s : Shape} {axes : List (Fin s.rank)} {t : Shape} (h : s.Reduces axes t) (x : s.Idx → EReal)
    (hx : ∀ i, IsReal (x i)) (j : t.Idx) : IsReal (Ideal.reduceAdd h x j) :=
  isReal_sum _ _ fun i _ => hx i

/-- An accumulating scatter of real updates into a real operand has real entries, whatever the indices. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

end Cert.LibRealEntries

end
-- ==== Proof.Reals.lean ====
/-
  Real entries through the specification.  Sums, products and finite sums of real numbers are real numbers, so a
  linear layer x·Wᵀ + b of real-entried arrays has real entries, and so has every score, the inner product of two
  projected rows.
-/
import proofs.«129372_j77472620085715_2_alg».proof.Proof.Spec
import proofs.«129372_j77472620085715_2_alg».proof.Proof.LibRealEntries

noncomputable section

namespace Cert.Attn.Fin_

open Idealize.ShloMosaic Idealize.ShloMosaic.ValueIdx
open Cert.LibRealEntries
open scoped BigOperators

/-- Every entry of the linear layer x·Wᵀ + b of real-entried x, W, b is a real number. -/
theorem proj_real (x : Mat 8192 512) (W : Mat 512 512) (b : Vc 512)
    (hx : ∀ i, ∃ r : ℝ, x i = (r : EReal)) (hW : ∀ i, ∃ r : ℝ, W i = (r : EReal)) (hb : ∀ i, ∃ r : ℝ, b i = (r : EReal))
    (i : Fin 8192) (h : Fin 512) : ∃ r : ℝ, proj x W b i h = (r : EReal) :=
  IsReal.add (isReal_sum _ _ fun c _ => IsReal.mul (hx (ix2 i c)) (hW (ix2 h c))) (hb (ix1 h))

/-- Every score of two real-entried tables is a real number. -/
theorem score_real (qp kp : Tab 8192 512) (hq : ∀ i h, ∃ r : ℝ, qp i h = (r : EReal)) (hk : ∀ j h, ∃ r : ℝ, kp j h = (r : EReal))
    (i j : Fin 8192) : ∃ r : ℝ, score qp kp i j = (r : EReal) :=
  isReal_sum _ _ fun h _ => IsReal.mul (hq i h) (hk j h)

/-- Every score of the block is a real number when the query and key arrays and the two layers' weights and biases
    have real entries. -/
theorem scores_real (q k : Mat 8192 512) (Wq : Mat 512 512) (bq : Vc 512) (Wk : Mat 512 512) (bk : Vc 512)
    (hq : ∀ i, ∃ r : ℝ, q i = (r : EReal)) (hk : ∀ i, ∃ r : ℝ, k i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (i j : Fin 8192) : ∃ r : ℝ, scores q k Wq bq Wk bk i j = (r : EReal) :=
  score_real _ _ (proj_real q Wq bq hq hWq hbq) (proj_real k Wk bk hk hWk hbk) i j

end Cert.Attn.Fin_

end
-- ==== Proof.Bridge.lean ====
/-
  The two forms of the attention block agree on real inputs.  With real-entried arrays every score is a real
  number, so the weights written as the product with the reciprocal of the row sum and the weights written as the
  quotient by the row sum are the same table; mixing the projected values with either and applying the last linear
  layer gives the same output.
-/
import proofs.«129372_j77472620085715_2_alg».proof.Proof.Spec
import proofs.«129372_j77472620085715_2_alg».proof.Proof.Reals
import proofs.«129372_j77472620085715_2_alg».proof.Proof.Online

noncomputable section

namespace Cert.Attn.Bridge

open Idealize.ShloMosaic Cert.Attn

/-- On real-entried queries, keys and the two layers' weights and biases, the two forms of the weights agree. -/
theorem weights_eq (q k : Mat 8192 512) (Wq : Mat 512 512) (bq : Vc 512) (Wk : Mat 512 512) (bk : Vc 512)
    (hq : ∀ i, ∃ r : ℝ, q i = (r : EReal)) (hk : ∀ i, ∃ r : ℝ, k i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal)) :
    weightMul (scores q k Wq bq Wk bk) = weightDiv (scores q k Wq bq Wk bk) :=
  Cert.Attn.Online.weight_forms _ (Cert.Attn.Fin_.scores_real q k Wq bq Wk bk hq hk hWq hbq hWk hbk)

/-- The block's output with the weights in either form is the same table. -/
theorem output_eq (q k v : Mat 8192 512) (Wq : Mat 512 512) (bq : Vc 512) (Wk : Mat 512 512) (bk : Vc 512)
    (Wv : Mat 512 512) (bv : Vc 512) (Wo : Mat 512 512) (bo : Vc 512)
    (hq : ∀ i, ∃ r : ℝ, q i = (r : EReal)) (hk : ∀ i, ∃ r : ℝ, k i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal)) :
    outp (mix (weightMul (scores q k Wq bq Wk bk)) (proj v Wv bv)) Wo bo
      = outp (mix (weightDiv (scores q k Wq bq Wk bk)) (proj v Wv bv)) Wo bo := by
  rw [weights_eq q k Wq bq Wk bk hq hk hWq hbq hWk hbk]

end Cert.Attn.Bridge

end
-- ==== Proof.KernelValue.lean ====
/-
  The idealized kernel's two result arrays as the specification's functions of the launch arguments.

  After the first launch the three arrays of projected rows hold the linear layers of the launch
  arguments; the host conversions are the identity on ideal values; after the second launch the
  weights' array holds the softmax weights of the scores of the projected queries against the
  projected keys, and the output array the output layer of those weights mixing the projected values.
  Every launch argument being a real, every score is a real: that is what makes the kernel's walk
  over the key chunks end at the row's greatest score and whole-row sum, and what makes the product
  with the reciprocal of the row sum the quotient by it.
-/
import proofs.«129372_j77472620085715_2_alg».proof.Proof.KernelRun
import proofs.«129372_j77472620085715_2_alg».proof.Proof.Region0
import proofs.«129372_j77472620085715_2_alg».proof.Proof.HostGlue
import proofs.«129372_j77472620085715_2_alg».proof.Proof.Region1Fin
import proofs.«129372_j77472620085715_2_alg».proof.Proof.Bridge
import proofs.«129372_j77472620085715_2_alg».proof.Proof.Reals

set_option maxRecDepth 16384

noncomputable section

open Idealize.ShloMosaic Idealize.ShloMosaic.TcCoe Idealize.SL.Sem Idealize.ShloMosaic.ValueIdx

namespace Cert.Attn.KVal

open Cert.KernelIdeal Cert.KernelIdeal.Gen Cert.Attn

variable (m : (ℓ : Loc nD τ sig) → Buf (Elt Ideal) ℓ) (ρ : Dev nD → PrngReg)

/-- The specification's weights of core c's launch arguments, as an array. -/
def specWeights (c : Dev nD) : S8192x8192.Idx → EReal := fun idx =>
  weightDiv (scores (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))) (idx 0) (idx 1)

/-- The specification's output of core c's launch arguments, as an array. -/
def specOut (c : Dev nD) : S8192x512.Idx → EReal := fun idx =>
  outp (mix (weightDiv (scores (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6))))
    (proj (m ((c : Thread nD τ).loc main_arg2)) (m ((c : Thread nD τ).loc main_arg7)) (m ((c : Thread nD τ).loc main_arg8))))
    (m ((c : Thread nD τ).loc main_arg9)) (m ((c : Thread nD τ).loc main_arg10)) (idx 0) (idx 1)

section Final

variable (c : Dev nD)
  (h0 : ∀ i, ∃ r : ℝ, m ((c : Thread nD τ).loc main_arg0) i = (r : EReal))
  (h1 : ∀ i, ∃ r : ℝ, m ((c : Thread nD τ).loc main_arg1) i = (r : EReal))
  (h3 : ∀ i, ∃ r : ℝ, m ((c : Thread nD τ).loc main_arg3) i = (r : EReal))
  (h4 : ∀ i, ∃ r : ℝ, m ((c : Thread nD τ).loc main_arg4) i = (r : EReal))
  (h5 : ∀ i, ∃ r : ℝ, m ((c : Thread nD τ).loc main_arg5) i = (r : EReal))
  (h6 : ∀ i, ∃ r : ℝ, m ((c : Thread nD τ).loc main_arg6) i = (r : EReal))

/-- The second launch finds the projected queries of the launch arguments. -/
theorem entry_qp : V3 (F := Ideal) m ρ c main_v3_0 = fun idx => proj (m ((c : Thread nD τ).loc main_arg0))
    (m ((c : Thread nD τ).loc main_arg3)) (m ((c : Thread nD τ).loc main_arg4)) (idx 0) (idx 1) :=
  (Cert.Attn.Glue.v3_qp m ρ c).trans (Cert.Attn.R0.qp_eq m ρ c)

/-- The second launch finds the projected keys of the launch arguments. -/
theorem entry_kp : V3 (F := Ideal) m ρ c main_v3_1 = fun idx => proj (m ((c : Thread nD τ).loc main_arg1))
    (m ((c : Thread nD τ).loc main_arg5)) (m ((c : Thread nD τ).loc main_arg6)) (idx 0) (idx 1) :=
  (Cert.Attn.Glue.v3_kp m ρ c).trans (Cert.Attn.R0.kp_eq m ρ c)

/-- The second launch finds the projected values of the launch arguments. -/
theorem entry_vp : V3 (F := Ideal) m ρ c main_v3_2 = fun idx => proj (m ((c : Thread nD τ).loc main_arg2))
    (m ((c : Thread nD τ).loc main_arg7)) (m ((c : Thread nD τ).loc main_arg8)) (idx 0) (idx 1) :=
  (Cert.Attn.Glue.v3_vp m ρ c).trans (Cert.Attn.R0.vp_eq m ρ c)

/-- The scores the second launch works on are the specification's scores of the launch arguments. -/
theorem entry_scores : score (Cert.Attn.R1.tab (V3 (F := Ideal) m ρ c main_v3_0)) (Cert.Attn.R1.tab (V3 (F := Ideal) m ρ c main_v3_1))
    = scores (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  rw [entry_qp m ρ c, entry_kp m ρ c]
  rfl

include h0 h1 h3 h4 h5 h6

/-- Every score the second launch works on is a real. -/
theorem entry_real : ∀ i j, ∃ x : ℝ, score (Cert.Attn.R1.tab (V3 (F := Ideal) m ρ c main_v3_0))
    (Cert.Attn.R1.tab (V3 (F := Ideal) m ρ c main_v3_1)) i j = (x : EReal) := by
  rw [entry_scores m ρ c]
  exact fun i j => Cert.Attn.Fin_.scores_real _ _ _ _ _ _ h0 h1 h3 h4 h5 h6 i j

/-- THE WEIGHTS' ARRAY after the run is the specification's weights of the launch arguments. -/
theorem weights_final : W4 (F := Ideal) m ρ c (Proc.devRef .tc main_v5_1) = specWeights m c := by
  refine (W4_arr m ρ c 6).trans ?_
  rw [Cert.Attn.R1.arr6 (V3 m ρ) c (entry_real m ρ c h0 h1 h3 h4 h5 h6), entry_scores m ρ c,
    Cert.Attn.Bridge.weights_eq _ _ _ _ _ _ h0 h1 h3 h4 h5 h6]
  rfl

/-- THE OUTPUT ARRAY after the run is the specification's output of the launch arguments. -/
theorem out_final : W4 (F := Ideal) m ρ c (Proc.devRef .tc main_v5_0) = specOut m c := by
  refine (W4_arr m ρ c 5).trans ?_
  rw [Cert.Attn.R1.arr5 (V3 m ρ) c (entry_real m ρ c h0 h1 h3 h4 h5 h6), entry_scores m ρ c, entry_vp m ρ c,
    Cert.Attn.Glue.v3_bo m ρ c]
  have hwo := Cert.Attn.Glue.v3_wo m ρ c
  funext idx
  show outp _ (V3 (F := Ideal) m ρ c main_v4) _ (idx 0) (idx 1) = _
  rw [hwo]
  exact congrFun (congrFun (Cert.Attn.Bridge.output_eq _ _ _ _ _ _ _ _ _ _ _ h0 h1 h3 h4 h5 h6) (idx 0)) (idx 1)

end Final

end Cert.Attn.KVal

end
-- ==== Proof.RefScores.lean ====
/-
  The reference program's projected rows and scores, read entry by entry.

  Each of the reference's linear layers is a transpose of the weight, a contraction of the input's second axis
  against the transposed weight's first, and the bias broadcast along the rows; at entry (i, h) that is the
  inner product of input row i with weight row h, plus the bias at h — the specification's `proj`.  The score
  matrix contracts the projected queries against the transposed projected keys: entry (i, j) is the inner
  product of projected query row i and projected key row j — the specification's `scores`.
-/
import proofs.«129372_j77472620085715_2_alg».proof.Proof.Gen.ReferenceIdeal.Read
import proofs.«129372_j77472620085715_2_alg».proof.Proof.Spec

noncomputable section

open scoped BigOperators

namespace Cert.Attn.Ref

open Cert.ReferenceIdeal Cert.ReferenceIdeal.Gen Cert.ReferenceIdeal.Read Idealize.ShloMosaic Idealize.ShloMosaic.ValueIdx

/-- A linear layer of the reference at entry (i, h): input row i against weight row h, plus the bias at h. -/
theorem linear_apply (x : FVec Ideal S8192x512 .f32) (W : FVec Ideal S512x512 .f32) (b : FVec Ideal S512 .f32)
    (i : Fin 8192) (h : Fin 512) :
    Read.val_main_v4 (F := Ideal) x W b (ix2 i h) = proj x W b i h := by
  have el : ∀ k : Fin 512, lidx_main_v1 (ix2 i h) k = ix2 i k := fun k =>
    funext fun a => Fin.ext (by match a with | ⟨0, _⟩ => rfl | ⟨1, _⟩ => rfl)
  have er : ∀ k : Fin 512, idx_main_v0 (ridx_main_v1 (ix2 i h) k) = ix2 h k := fun k =>
    funext fun a => Fin.ext (by match a with | ⟨0, _⟩ => rfl | ⟨1, _⟩ => rfl)
  have eb : idx_main_v2 (idx_main_v3 (ix2 i h)) = ix1 h :=
    funext fun a => Fin.ext (by match a with | ⟨0, _⟩ => rfl)
  rw [val_main_v4_apply, val_main_v1_apply, val_main_v3_apply, val_main_v2_apply, eb, Ideal.addf_def]
  unfold proj
  refine congrArg (· + b (ix1 h)) (Finset.sum_congr rfl fun k _ => ?_)
  rw [val_main_v0_apply, el k, er k]

/-- The reference's projected queries at (i, h). -/
theorem projQ_apply (x0 : FVec Ideal S8192x512 .f32) (x3 : FVec Ideal S512x512 .f32) (x4 : FVec Ideal S512 .f32)
    (i : Fin 8192) (h : Fin 512) :
    Read.val_main_v4 (F := Ideal) x0 x3 x4 (ix2 i h) = proj x0 x3 x4 i h := linear_apply x0 x3 x4 i h

/-- The reference's projected keys at (j, h): the same layer on the keys. -/
theorem projK_apply (x1 : FVec Ideal S8192x512 .f32) (x5 : FVec Ideal S512x512 .f32) (x6 : FVec Ideal S512 .f32)
    (j : Fin 8192) (h : Fin 512) :
    Read.val_main_v9 (F := Ideal) x1 x5 x6 (ix2 j h) = proj x1 x5 x6 j h := linear_apply x1 x5 x6 j h

/-- The reference's projected values at (j, h): the same layer on the values. -/
theorem projV_apply (x2 : FVec Ideal S8192x512 .f32) (x7 : FVec Ideal S512x512 .f32) (x8 : FVec Ideal S512 .f32)
    (j : Fin 8192) (h : Fin 512) :
    Read.val_main_v14 (F := Ideal) x2 x7 x8 (ix2 j h) = proj x2 x7 x8 j h := linear_apply x2 x7 x8 j h

/-- The reference's score matrix at (i, j): projected query row i against projected key row j. -/
theorem scores_apply (x0 x1 : FVec Ideal S8192x512 .f32) (x3 : FVec Ideal S512x512 .f32) (x4 : FVec Ideal S512 .f32)
    (x5 : FVec Ideal S512x512 .f32) (x6 : FVec Ideal S512 .f32) (i j : Fin 8192) :
    Read.val_main_v16 (F := Ideal) x0 x1 x3 x4 x5 x6 (ix2 i j) = scores x0 x1 x3 x4 x5 x6 i j := by
  have el : ∀ k : Fin 512, lidx_main_v16 (ix2 i j) k = ix2 i k := fun k =>
    funext fun a => Fin.ext (by match a with | ⟨0, _⟩ => rfl | ⟨1, _⟩ => rfl)
  have er : ∀ k : Fin 512, idx_main_v15 (ridx_main_v16 (ix2 i j) k) = ix2 j k := fun k =>
    funext fun a => Fin.ext (by match a with | ⟨0, _⟩ => rfl | ⟨1, _⟩ => rfl)
  rw [val_main_v16_apply]
  unfold scores score
  refine Finset.sum_congr rfl fun k _ => ?_
  rw [val_main_v15_apply, el k, er k, projQ_apply, projK_apply]

end Cert.Attn.Ref

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.RefSide.lean ====
/-
  The reference program's softmax weights and output, read entry by entry, are the specification's.

  Along each row of scores the reference takes the greatest score (the larger of the word of minus infinity
  and the row's maximum folded from that word: minus infinity is the least extended real, so this is the
  row's supremum), subtracts it, exponentiates, sums the row from the zero word, and divides each
  exponential by the row's sum: the specification's `weightDiv`.  The weights then contract against the
  projected values (`mix`), and a last linear layer gives the output (`outp`).
-/
import proofs.«129372_j77472620085715_2_alg».proof.Proof.RefScores
import proofs.«129372_j77472620085715_2_alg».proof.Proof.LibHostRowForms

noncomputable section

open scoped BigOperators

namespace Cert.Attn.Ref

open Cert.ReferenceIdeal Cert.ReferenceIdeal.Gen Cert.ReferenceIdeal.Read Idealize.ShloMosaic Idealize.ShloMosaic.ValueIdx

/-- The f32 word of minus infinity is the least extended real. -/
theorem negInf_eq_bot : Ideal.ofBits .f32 0xFF800000#32 = (⊥ : EReal) := by simp [Ideal.ofBits, Ideal.ieee]

/-- A fold of `max` from the least element is the supremum. -/
theorem fold_max_bot_eq_sup {ι : Type} [DecidableEq ι] (s : Finset ι) (f : ι → EReal) :
    s.fold max (⊥ : EReal) f = s.sup f := by
  induction s using Finset.induction_on with
  | empty => simp
  | insert a s ha ih => rw [Finset.fold_insert ha, Finset.sup_insert, ih]

/-- The host's row maximum of a square matrix from the word of minus infinity, at i: the supremum of row i. -/
theorem reduceMax_row (y : FVec Ideal S8192x8192 .f32) (i : Fin 8192) :
    Host.reduce (FloatOps.maximumf (F := Ideal) (φ := .f32)) y (val_main_cst (F := Ideal))
        reducesTo_S8192x8192_S8192_d1 h_S_ (ix1 i)
      = Finset.univ.sup fun k : Fin 8192 => y (ix2 i k) := by
  have h : S8192x8192.Reduces [1] S8192 := by decide
  refine (Cert.HostRowForms.reduceMax_rows y reducesTo_S8192x8192_S8192_d1 h h_S_ i).trans ?_
  rw [negInf_eq_bot]
  exact fold_max_bot_eq_sup _ _

section Weights

variable (x0 x1 : FVec Ideal S8192x512 .f32) (x3 : FVec Ideal S512x512 .f32) (x4 : FVec Ideal S512 .f32)
  (x5 : FVec Ideal S512x512 .f32) (x6 : FVec Ideal S512 .f32)

/-- The reference's row maximum at i: the greatest score of row i. -/
theorem rowTop_apply (i : Fin 8192) :
    Read.val_main_v19 (F := Ideal) x0 x1 x3 x4 x5 x6 (ix1 i) = rowTop (scores x0 x1 x3 x4 x5 x6) i := by
  rw [val_main_v19_apply, val_main_v18_apply, val_main_cst_0_apply, Ideal.maximumf_def, Ideal.ofBits_def,
    negInf_eq_bot, max_eq_right bot_le]
  unfold val_main_v17
  rw [reduceMax_row]
  unfold rowTop
  exact congrArg (Finset.univ.sup) (funext fun k => scores_apply x0 x1 x3 x4 x5 x6 i k)

/-- The reference's shifted exponentials at (i, j). -/
theorem expo_apply (i j : Fin 8192) :
    Read.val_main_v23 (F := Ideal) x0 x1 x3 x4 x5 x6 (ix2 i j)
      = Ideal.exp (scores x0 x1 x3 x4 x5 x6 i j - rowTop (scores x0 x1 x3 x4 x5 x6) i) := by
  have e : idx_main_v20 (idx_main_v21 (ix2 i j)) = ix1 i :=
    funext fun a => Fin.ext (by match a with | ⟨0, _⟩ => rfl)
  rw [val_main_v23_apply, val_main_v22_apply, val_main_v21_apply, val_main_v20_apply, e, rowTop_apply, scores_apply,
    Ideal.hostUnary_exp_def, Ideal.subf_def]

/-- The reference's row sum of the exponentials at i. -/
theorem rowDen_apply (i : Fin 8192) :
    Read.val_main_v24 (F := Ideal) x0 x1 x3 x4 x5 x6 (ix1 i) = rowDen (scores x0 x1 x3 x4 x5 x6) i := by
  have e : ∀ k : Fin 8192, idx_main_v24 (ix1 i) k = ix2 i k := fun k =>
    funext fun a => Fin.ext (by match a with | ⟨0, _⟩ => rfl | ⟨1, _⟩ => rfl)
  rw [val_main_v24_apply, val_main_cst_1_apply, Ideal.ofBits_def, Ideal.ofBits_zero_f32, zero_add]
  unfold rowDen
  refine Finset.sum_congr rfl fun k _ => ?_
  rw [e k, expo_apply]

/-- The reference's softmax weight at (i, j). -/
theorem weights_apply (i j : Fin 8192) :
    Read.val_main_v27 (F := Ideal) x0 x1 x3 x4 x5 x6 (ix2 i j) = weightDiv (scores x0 x1 x3 x4 x5 x6) i j := by
  have e : idx_main_v25 (idx_main_v26 (ix2 i j)) = ix1 i :=
    funext fun a => Fin.ext (by match a with | ⟨0, _⟩ => rfl)
  rw [val_main_v27_apply, val_main_v26_apply, val_main_v25_apply, e, rowDen_apply, expo_apply, Ideal.hostDivf_def]
  rfl

/-- The reference's softmax matrix is the specification's weights. -/
theorem weights_eq :
    Read.val_main_v27 (F := Ideal) x0 x1 x3 x4 x5 x6
      = fun idx => weightDiv (scores x0 x1 x3 x4 x5 x6) (idx 0) (idx 1) := by
  funext idx
  obtain ⟨p, q, rfl⟩ : ∃ (p : Fin 8192) (q : Fin 8192), idx = ValueIdx.ix2 p q := ⟨idx 0, idx 1, ValueIdx.eq_ix2 idx⟩
  exact weights_apply x0 x1 x3 x4 x5 x6 p q

end Weights

section Output

variable (x0 x1 x2 : FVec Ideal S8192x512 .f32) (x3 : FVec Ideal S512x512 .f32) (x4 : FVec Ideal S512 .f32)
  (x5 : FVec Ideal S512x512 .f32) (x6 : FVec Ideal S512 .f32) (x7 : FVec Ideal S512x512 .f32) (x8 : FVec Ideal S512 .f32)
  (x9 : FVec Ideal S512x512 .f32) (x10 : FVec Ideal S512 .f32)

/-- The reference's weighted mix of the projected values at (i, h). -/
theorem mix_apply (i : Fin 8192) (h : Fin 512) :
    Read.val_main_v28 (F := Ideal) x0 x1 x2 x3 x4 x5 x6 x7 x8 (ix2 i h)
      = mix (weightDiv (scores x0 x1 x3 x4 x5 x6)) (proj x2 x7 x8) i h := by
  have el : ∀ k : Fin 8192, lidx_main_v28 (ix2 i h) k = ix2 i k := fun k =>
    funext fun a => Fin.ext (by match a with | ⟨0, _⟩ => rfl | ⟨1, _⟩ => rfl)
  have er : ∀ k : Fin 8192, ridx_main_v28 (ix2 i h) k = ix2 k h := fun k =>
    funext fun a => Fin.ext (by match a with | ⟨0, _⟩ => rfl | ⟨1, _⟩ => rfl)
  rw [val_main_v28_apply]
  unfold mix
  refine Finset.sum_congr rfl fun k _ => ?_
  rw [el k, er k, weights_apply, projV_apply]

/-- The reference's output at (i, o): the last linear layer on the mixed rows. -/
theorem out_apply (i : Fin 8192) (o : Fin 512) :
    Read.val_main_v33 (F := Ideal) x0 x1 x2 x3 x4 x5 x6 x7 x8 x9 x10 (ix2 i o)
      = outp (mix (weightDiv (scores x0 x1 x3 x4 x5 x6)) (proj x2 x7 x8)) x9 x10 i o := by
  refine (linear_apply (Read.val_main_v28 (F := Ideal) x0 x1 x2 x3 x4 x5 x6 x7 x8) x9 x10 i o).trans ?_
  show (∑ c : Fin 512, Read.val_main_v28 (F := Ideal) x0 x1 x2 x3 x4 x5 x6 x7 x8 (ix2 i c) * x9 (ix2 o c)) + x10 (ix1 o)
    = (∑ c : Fin 512, mix (weightDiv (scores x0 x1 x3 x4 x5 x6)) (proj x2 x7 x8) i c * x9 (ix2 o c)) + x10 (ix1 o)
  refine congrArg (· + x10 (ix1 o)) (Finset.sum_congr rfl fun c _ => ?_)
  rw [mix_apply]

/-- The reference's output is the specification's. -/
theorem out_eq :
    Read.val_main_v33 (F := Ideal) x0 x1 x2 x3 x4 x5 x6 x7 x8 x9 x10
      = fun idx => outp (mix (weightDiv (scores x0 x1 x3 x4 x5 x6)) (proj x2 x7 x8)) x9 x10 (idx 0) (idx 1) := by
  funext idx
  obtain ⟨p, q, rfl⟩ : ∃ (p : Fin 8192) (q : Fin 512), idx = ValueIdx.ix2 p q := ⟨idx 0, idx 1, ValueIdx.eq_ix2 idx⟩
  exact out_apply x0 x1 x2 x3 x4 x5 x6 x7 x8 x9 x10 p q

end Output

end Cert.Attn.Ref

end
-- ==== Proof.Finite.lean ====
/-
  Finiteness from the precondition.  The precondition and-s together, for each of the eleven argument arrays,
  the test "every entry x has |x| < +∞" (a reduction by "and" over all axes of the entrywise comparison of
  |x| = max x (-x) with the f32 word of +∞).  Over the extended reals +∞ is ⊤, and max x (-x) < ⊤ says that x is
  neither ⊤ nor ⊥: x is a real number.  One lemma reads this off a single array of any shape; the precondition
  is then split conjunct by conjunct.
-/
import proofs.«129372_j77472620085715_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Attn.Fin_

open Idealize.ShloMosaic Idealize.ShloMosaic.ValueIdx
open Cert.Pre_finite_inputs

/-- The rank-0 shape has one index. -/
instance subsingleton_S_ : Subsingleton S_.Idx := ⟨fun a b => funext fun d => d.elim0⟩

/-- The f32 word of +∞ is ⊤. -/
theorem ofBits_inf : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

theorem ofBool_eq_one (b : Bool) : BitVec.ofBool b = 1#1 ↔ b = true := by cases b <;> decide

/-- One entry: the comparison |x| < +∞ answering 1 makes x a real number. -/
theorem real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  rw [ofBool_eq_one] at h'
  exact real_of_abs_lt_top x (of_decide_eq_true h')

/-- The test "every entry has |x| < +∞" answering 1 over an array of any shape: every entry is a real number. -/
theorem real_of_all {s u : Shape} {axes : List (Fin s.rank)} {dims : Fin S_.rank → Fin s.rank}
    (x : FVec Ideal s .f32) (hb : S_.BroadcastsInDim s dims) (h : s.ReducesTo axes S_) (hu : 0 < u.numel)
    (init : IVec u 1) (j : S_.Idx)
    (e : Host.reduce IntOp.andi
          (cmpf .olt (Host.absf x) (broadcastInDim s dims hb (constant (F := Ideal) S_ .f32 0x7F800000#32))) init h hu j = 1#1) :
    ∀ i, ∃ r : ℝ, x i = (r : EReal) := by
  intro i
  have hi := Host.reduce_andi_all _ init h hu j e i
  exact real_of_cmp (x i) hi

variable [Facts]
open Facts

/-- The precondition decoded: each of the eleven argument arrays has real entries. -/
theorem real_of_pre (a0 a1 a2 : FVec Ideal S8192x512 .f32) (a3 : FVec Ideal S512x512 .f32) (a4 : FVec Ideal S512 .f32)
    (a5 : FVec Ideal S512x512 .f32) (a6 : FVec Ideal S512 .f32) (a7 : FVec Ideal S512x512 .f32) (a8 : FVec Ideal S512 .f32)
    (a9 : FVec Ideal S512x512 .f32) (a10 : FVec Ideal S512 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) := by
  have e := congrFun h ix0
  dsimp only [fn, fn_part1, fn_part2, fn_part3] at e
  simp only [andi, IntOp.andi_eq_one] at e
  obtain ⟨⟨⟨⟨⟨⟨⟨⟨⟨⟨e0, e1⟩, e2⟩, e3⟩, e4⟩, e5⟩, e6⟩, e7⟩, e8⟩, e9⟩, e10⟩ := e
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6, real_of_all a7 _ _ _ _ _ e7, real_of_all a8 _ _ _ _ _ e8,
    real_of_all a9 _ _ _ _ _ e9, real_of_all a10 _ _ _ _ _ e10⟩

end Cert.Attn.Fin_

end
-- ==== Proof.lean ====
/-
  The certificate of a dense attention block: three linear layers x·Wᵀ + b giving projected queries,
  keys and values, the scores of every query row against every key row, a softmax along each row of
  scores, the weights mixing the value rows, and an output linear layer; the results are the output
  [8192, 512] and the softmax matrix [8192, 8192].

  The kernel runs two launches.  The first computes the three projections block by block.  The second,
  for each tile of 256 query rows, walks the 8192 keys in eight chunks keeping a running row maximum
  and a running row denominator rescaled at each chunk, stores the raw scores, then takes the
  reciprocal of the final denominator, turns each stored chunk into weights (the exponential of the
  score minus the final maximum, times the reciprocal), accumulates their products with the value
  chunks, and applies the output layer.  The reference takes the row maximum and the row sum in one
  pass each and divides.

  Over the extended reals with every launch argument a real, both compute the same function.  Every
  score is a real, so the rescaled running denominator merges chunk by chunk into the sum over the
  whole row of the exponentials shifted by the row's greatest score; that sum is a real at least one,
  so the product with its reciprocal is the quotient by it; and a sum over the 8192 keys is the sum
  of the sums over the eight chunks.  Changes of float format are the identity on ideal values, and
  a product accumulated into a zero matrix is the plain sum of products.

  The frames of the two kernel programs are the generated ones; the reference's frame is its generated
  run with the results dropped; the idealization rewrote nothing.
-/
import proofs.«129372_j77472620085715_2_alg».proof.Defs
import proofs.«129372_j77472620085715_2_alg».proof.Proof.Gen.Kernel
import proofs.«129372_j77472620085715_2_alg».proof.Proof.Gen.Kernel.Skeleton
import proofs.«129372_j77472620085715_2_alg».proof.Proof.Gen.Kernel.Launch
import proofs.«129372_j77472620085715_2_alg».proof.Proof.Gen.Kernel.Points
import proofs.«129372_j77472620085715_2_alg».proof.Proof.Gen.Kernel.Frame
import proofs.«129372_j77472620085715_2_alg».proof.Proof.Gen.KernelIdeal
import proofs.«129372_j77472620085715_2_alg».proof.Proof.Gen.KernelIdeal.Skeleton
import proofs.«129372_j77472620085715_2_alg».proof.Proof.Gen.KernelIdeal.Launch
import proofs.«129372_j77472620085715_2_alg».proof.Proof.Gen.KernelIdeal.Points
import proofs.«129372_j77472620085715_2_alg».proof.Proof.Gen.KernelIdeal.Frame
import proofs.«129372_j77472620085715_2_alg».proof.Proof.Gen.ReferenceIdeal
import proofs.«129372_j77472620085715_2_alg».proof.Proof.Gen.ReferenceIdeal.Run
import proofs.«129372_j77472620085715_2_alg».proof.Proof.Gen.ReferenceIdeal.Read
import proofs.«129372_j77472620085715_2_alg».proof.Proof.Gen.Pre_finite_inputs
import proofs.«129372_j77472620085715_2_alg».proof.Proof.KernelValue
import proofs.«129372_j77472620085715_2_alg».proof.Proof.RefSide
import proofs.«129372_j77472620085715_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

section Claims

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two idealized programs, run from memories agreeing on the arguments, end with the same output
    and the same softmax matrix: the specification's, of the kernel's launch arguments. -/
theorem algebraic : Cert.algebraic_KernelIdeal_ReferenceIdeal := by
  intro m ρ m' ρ' hpre hagree
  refine ⟨fun c => Cert.Attn.KVal.specOut m c, fun c => Cert.Attn.KVal.specWeights m c, ?_, ?_⟩
  · refine (θ_run Cert.KernelIdeal.defs _ _).mono (fun r h c => ?_) (Cert.Attn.KRun.run (F := Ideal) m ρ)
    obtain ⟨h0, h1, h2, h3, h4, h5, h6, h7, h8, h9, h10⟩ :=
      Cert.Attn.Fin_.real_of_pre _ _ _ _ _ _ _ _ _ _ _ (hpre c)
    exact ⟨(h c).1.trans (Cert.Attn.KVal.out_final m ρ c h0 h1 h3 h4 h5 h6),
      (h c).2.1.trans (Cert.Attn.KVal.weights_final m ρ c h0 h1 h3 h4 h5 h6), (h c).2.2⟩
  · refine (θ_run Cert.ReferenceIdeal.defs _ _).mono (fun r h c => ?_)
      (Cert.ReferenceIdeal.Value.run (F := Ideal) m' ρ')
    refine ⟨(h c).1.trans ?_, (h c).2.1.trans ?_, (h c).2.2⟩
    · rw [Cert.ReferenceIdeal.Read.val_main_v33_eq, Cert.Attn.Ref.out_eq,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
      rfl
    · rw [Cert.ReferenceIdeal.Read.val_main_v27_eq, Cert.Attn.Ref.weights_eq,
        (hagree c).1, (hagree c).2.1, (hagree c).2.2.2.1, (hagree c).2.2.2.2.1, (hagree c).2.2.2.2.2.1, (hagree c).2.2.2.2.2.2.1]
      rfl

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
